-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x224x224 : Shape := ⟨4, ![8, 96, 224, 224]⟩
abbrev S_ : Shape := ⟨0, ![]⟩

class Facts : Prop where
  bcast_S_S8x96x224x224 : S_.BroadcastsInDim S8x96x224x224 (![] : Fin 0 → Fin S8x96x224x224.rank)
  reducesTo_S8x96x224x224_S_d0_1_2_3 : S8x96x224x224.ReducesTo [0, 1, 2, 3] S_
  h_S_ : 0 < S_.numel

variable [Facts]

def fn {F : FTy → Type} [FloatOps F] (main_arg0 : FVec F S8x96x224x224 .f32) : IVec S_ 1 :=
  let main_v0 : FVec F S8x96x224x224 .f32 := Host.absf main_arg0
  let main_cst : FVec F S_ .f32 := constant S_ .f32 0x7F800000#32
  let main_v1 : FVec F S8x96x224x224 .f32 := broadcastInDim S8x96x224x224 ![] bcast_S_S8x96x224x224 main_cst
  let main_v2 : IVec S8x96x224x224 1 := cmpf .olt main_v0 main_v1
  let main_c : IVec S_ 1 := constantI S_ 1 1#1
  let main_v3 : IVec S_ 1 := (fun x v => Host.reduce IntOp.andi x v reducesTo_S8x96x224x224_S_d0_1_2_3 h_S_) main_v2 main_c
  main_v3
-- ==== Kernel.lean ====
abbrev S8x96x224x224 : Shape := ⟨4, ![8, 96, 224, 224]⟩
abbrev S768x224x224 : Shape := ⟨3, ![768, 224, 224]⟩
abbrev S1536x224x224 : Shape := ⟨3, ![1536, 224, 224]⟩
abbrev S224x224 : Shape := ⟨2, ![224, 224]⟩
abbrev S16x224 : Shape := ⟨2, ![16, 224]⟩
abbrev S256x224 : Shape := ⟨2, ![256, 224]⟩
abbrev S_ : Shape := ⟨0, ![]⟩
abbrev S1x224x224 : Shape := ⟨3, ![1, 224, 224]⟩
abbrev S16 : Shape := ⟨1, ![16]⟩
abbrev S1x16 : Shape := ⟨2, ![1, 16]⟩
abbrev S8x192x224x224 : Shape := ⟨4, ![8, 192, 224, 224]⟩

abbrev nBuf : Table → Nat
  | .hbm => 4
  | .shared => 1
  | .local .scVector .vmem => 3
  | _ => 0

abbrev bufTy : (tb : Table) → Fin (nBuf tb) → BufTy
  | .hbm, ⟨0, _⟩ => ⟨S8x96x224x224, .f32⟩
  | .hbm, ⟨1, _⟩ => ⟨S768x224x224, .f32⟩
  | .hbm, ⟨2, _⟩ => ⟨S1536x224x224, .f32⟩
  | .hbm, ⟨3, _⟩ => ⟨S8x192x224x224, .f32⟩
  | .shared, ⟨0, _⟩ => ⟨S256x224, .f32⟩
  | .local .scVector .vmem, ⟨0, _⟩ => ⟨S224x224, .f32⟩
  | .local .scVector .vmem, ⟨1, _⟩ => ⟨S224x224, .f32⟩
  | .local .scVector .vmem, ⟨2, _⟩ => ⟨S16x224, .f32⟩
  | _, _ => ⟨S8x96x224x224, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch3 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c0_i32_0 : BitVec 32 := 0#32
  let c0_i32_1 : BitVec 32 := 0#32
  ![v2.toNat, 0, 0]
@[reducible] def k0_t1_loop : Scf.Loop 32 :=
  let c0_i32_9 : BitVec 32 := 0#32
  let c16_i32 : BitVec 32 := 16#32
  let v13 : BitVec 32 := Scalar.addi c0_i32_9 c16_i32
  let c1_i32 : BitVec 32 := 1#32
  ⟨c0_i32_9, v13, c1_i32⟩
@[reducible] def k0_t2_loop : Scf.Loop 32 :=
  let c0_i32_700 : BitVec 32 := 0#32
  let c14_i32 : BitVec 32 := 14#32
  let v677 : BitVec 32 := Scalar.addi c0_i32_700 c14_i32
  let c1_i32_701 : BitVec 32 := 1#32
  ⟨c0_i32_700, v677, c1_i32_701⟩
def k0_off2 (k0_t1 : Fin k0_t1_loop.trips) (k0_t2 : Fin k0_t2_loop.trips) : Fin 2 → Nat :=
  let c0_i32_9 : BitVec 32 := 0#32
  let c1_i32 : BitVec 32 := 1#32
  let arg13 : BitVec 32 := Scf.iv c0_i32_9 c1_i32 k0_t1
  let v679 : Index := Scalar.indexCast arg13
  let c0_i32_700 : BitVec 32 := 0#32
  let c1_i32_701 : BitVec 32 := 1#32
  let arg14 : BitVec 32 := Scf.iv c0_i32_700 c1_i32_701 k0_t2
  let c16_i32_703 : BitVec 32 := 16#32
  let v678 : BitVec 32 := Scalar.muli arg14 c16_i32_703
  let v680 : Index := Scalar.indexCast v678
  ![v679.toNat, v680.toNat]
def k0_off3 (i : grid0.Coords) : Fin 2 → Nat :=
  let arg1 : BitVec 32 := BitVec.ofNat 32 (i 1).val
  let c16_i32_11 : BitVec 32 := 16#32
  let v14 : BitVec 32 := Scalar.muli arg1 c16_i32_11
  let c0_i32_700_r0 : BitVec 32 := 0#32
  ![v14.toNat, 0]
def k0_off4 (i : grid0.Coords) (c0_i32_12 : BitVec 32) : Fin 3 → Nat :=
  let c2_i32_13 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v15 : BitVec 32 := Scalar.addi c0_i32_12 v1
  let v16 : BitVec 32 := Scalar.muli c2_i32_13 v15
  let c1_i32_14 : BitVec 32 := 1#32
  let v17 : BitVec 32 := Scalar.addi v16 c1_i32_14
  let c0_i32_15 : BitVec 32 := 0#32
  let c0_i32_16 : BitVec 32 := 0#32
  ![v17.toNat, 0, 0]
def k0_off5 (i : grid0.Coords) (c0_i32_30 : BitVec 32) : Fin 3 → Nat :=
  let c2_i32_31 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi c0_i32_30 v1
  let v32 : BitVec 32 := Scalar.muli c2_i32_31 v31
  let c0_i32_32 : BitVec 32 := 0#32
  let c0_i32_33 : BitVec 32 := 0#32
  ![v32.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S8x96x224x224_S768x224x224 : S8x96x224x224.ShapeCasts S768x224x224
  squeezes_S1x224x224_S224x224 : S1x224x224.Squeezes S224x224
  h_S1x16 : 0 < S1x16.numel
  shapeCasts_S1x16_S16 : S1x16.ShapeCasts S16
  shapeCasts_S16_S1x16 : S16.ShapeCasts S1x16
  inb_S256x224_S224x224_0_0 : ∀ a, (![0, 0] : Fin 2 → Nat) a + S224x224.size a ≤ S256x224.size a
  shapeCasts_S1536x224x224_S8x192x224x224 : S1536x224x224.ShapeCasts S8x192x224x224
  hcc0_scratch4 : 0 + S_.numel ≤ 6
  hcc0_scratch5 : 1 + S_.numel ≤ 6
  hcc0_scratch6 : 2 + S_.numel ≤ 6
  hcc0_scratch7 : 3 + S_.numel ≤ 6
  hcc0_scratch8 : 4 + S_.numel ≤ 6
  hcc0_scoped0 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 24), ∀ a, (k0_off1 i (BitVec.ofNat 32 (32 * r.val))) a + S1x224x224.size a ≤ S768x224x224.size a
  k0_t1_ok : k0_t1_loop.OK
  k0_t2_ok : k0_t2_loop.OK
  k0_off2_inb : ∀ (k0_t1 : Fin k0_t1_loop.trips) (k0_t2 : Fin k0_t2_loop.trips), ∀ a, (k0_off2 k0_t1 k0_t2) a + S1x16.size a ≤ S16x224.size a
  k0_off3_inb : ∀ i : grid0.Coords, ∀ a, (k0_off3 i) a + S16x224.size a ≤ S256x224.size a
  k0_off4_inb : ∀ i : grid0.Coords, ∀ (r : Fin 24), ∀ a, (k0_off4 i (BitVec.ofNat 32 (32 * r.val))) a + S1x224x224.size a ≤ S1536x224x224.size a
  k0_off5_inb : ∀ i : grid0.Coords, ∀ (r : Fin 24), ∀ a, (k0_off5 i (BitVec.ofNat 32 (32 * r.val))) a + S1x224x224.size a ≤ S1536x224x224.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scoped0 : DmaSems sig S_ := SemArray.consecutive 5 S_ hcc0_scoped0

class Facts : Prop extends Facts₀ where

variable [Facts]
-- ==== ReferenceIdeal.lean ====
abbrev S8x96x224x224 : Shape := ⟨4, ![8, 96, 224, 224]⟩
abbrev S96 : Shape := ⟨1, ![96]⟩
abbrev S_ : Shape := ⟨0, ![]⟩
abbrev S8x192x224x224 : Shape := ⟨4, ![8, 192, 224, 224]⟩
abbrev S96x1 : Shape := ⟨2, ![96, 1]⟩

abbrev nBuf : Space → Nat
  | .hbm => 13
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S96, .i32⟩
  | .hbm, ⟨2, _⟩ => ⟨S_, .f32⟩
  | .hbm, ⟨3, _⟩ => ⟨S8x192x224x224, .f32⟩
  | .hbm, ⟨4, _⟩ => ⟨S_, .i32⟩
  | .hbm, ⟨5, _⟩ => ⟨S96, .i32⟩
  | .hbm, ⟨6, _⟩ => ⟨S96, .i1⟩
  | .hbm, ⟨7, _⟩ => ⟨S_, .i32⟩
  | .hbm, ⟨8, _⟩ => ⟨S96, .i32⟩
  | .hbm, ⟨9, _⟩ => ⟨S96, .i32⟩
  | .hbm, ⟨10, _⟩ => ⟨S96, .i32⟩
  | .hbm, ⟨11, _⟩ => ⟨S96x1, .i32⟩
  | .hbm, ⟨12, _⟩ => ⟨S8x192x224x224, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S8x192x224x224 : S_.BroadcastsInDim S8x192x224x224 (![] : Fin 0 → Fin S8x192x224x224.rank)
  bcast_S_S96 : S_.BroadcastsInDim S96 (![] : Fin 0 → Fin S96.rank)
  bcast_S96_S96x1_0 : S96.BroadcastsInDim S96x1 (![0] : Fin 1 → Fin S96x1.rank)
  scatter_S8x192x224x224_S96x1_S8x96x224x224_023_1_1_1_wf : ScatterDims.WF S8x192x224x224 S96x1 S8x96x224x224 [0, 2, 3] [1] [1] 1

variable [Facts₀]

def scatter_S8x192x224x224_S96x1_S8x96x224x224_023_1_1_1 : ScatterDims S8x192x224x224 S96x1 S8x96x224x224 where
  updateWindowDims := [0, 2, 3]
  insertedWindowDims := [1]
  scatterDimsToOperandDims := [1]
  indexVectorDim := 1
  wf := scatter_S8x192x224x224_S96x1_S8x96x224x224_023_1_1_1_wf

class Facts : Prop extends Facts₀ where

variable [Facts]
-- ==== Proof.Spec.lean ====
/-
  The function both programs compute, stated once over the argument array alone.

  The input is eight batch entries of 96 channels, each a 224 x 224 plane.  The output has 192 channels per
  batch entry: output channel 2k of batch entry b is input channel k of b, and every odd output channel is
  the zero plane.  Nothing is added or multiplied, so the statement holds for any reading of a float (an
  extended real, or a word): an even channel is a copy and an odd one is the zero constant's value.

  The same function on the flattened arrays: with the 768 = 8 * 96 input planes and the 1536 = 8 * 192 output
  planes numbered row-major, output plane 2p is input plane p and output plane 2p + 1 is zero, because
  b * 192 + 2k = 2 (b * 96 + k).
-/
import Idealize.ShloMosaic.PureOps.Ideal
import Idealize.ShloMosaic.Lib.ValueIdx

namespace Cert.Spec

open Idealize.ShloMosaic Idealize.ShloMosaic.ValueIdx

variable {F : FTy → Type} [FloatOps F]

/-- The value of the zero constant (the word of +0.0). -/
def zero : F .f32 := FloatOps.ofBits .f32 0x00000000#32

/-- Channels spread to the even positions: entry (b, c, h, w) of the result is entry (b, c / 2, h, w) of the
    argument when c is even, and zero when c is odd. -/
def spread (x : FVec F ⟨4, ![8, 96, 224, 224]⟩ .f32) : FVec F ⟨4, ![8, 192, 224, 224]⟩ .f32 :=
  fun j =>
    have hj : (j 1).val < 192 := (j 1).isLt
    if (j 1).val % 2 = 0 then x (ix4 (j 0) ⟨(j 1).val / 2, by omega⟩ (j 2) (j 3)) else zero

/-- The same on planes: plane q of the result is plane q / 2 of the argument when q is even, and the zero
    plane when q is odd. -/
def spreadPlanes (y : FVec F ⟨3, ![768, 224, 224]⟩ .f32) : FVec F ⟨3, ![1536, 224, 224]⟩ .f32 :=
  fun j =>
    have hj : (j 0).val < 1536 := (j 0).isLt
    if (j 0).val % 2 = 0 then y (ix3 ⟨(j 0).val / 2, by omega⟩ (j 1) (j 2)) else zero

end Cert.Spec
-- ==== Proof.KISetup.lean ====
/-
  The kernel as the launch theorem sees it, and the resources its threads exchange.

  Thirty-two tiles (two SparseCores of sixteen) each own twenty-four of the 768 input planes: tile (c, s) has
  worker number w = 2 s + c and planes 32 r + w for r < 24.  It copies plane p to output plane 2 p and a block
  of zeros to output plane 2 p + 1.  The zeros live in the SparseCore's shared memory: tile s fills rows
  16 s .. 16 s + 15 of a 256-row buffer with zeros, all tiles meet at the barrier, and afterwards every tile
  reads rows 0 .. 223 as the source of its zero planes.

  So the barrier must carry READ access: when tile n arrives it hands each tile j one sixteenth share of its
  own sixteen rows, known to be zero; when tile j leaves it holds a sixteenth share of all 256 rows, all zero,
  which is enough to read them for as long as it likes while the fifteen other tiles do the same.
-/
import proofs.«204282_g43688407335220_cont_8to1_c_395_12_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Batch
import proofs.«204282_g43688407335220_cont_8to1_c_395_12_alg».proof.Proof.Gen.KernelIdeal
import proofs.«204282_g43688407335220_cont_8to1_c_395_12_alg».proof.Proof.Gen.KernelIdeal.Skeleton
import proofs.«204282_g43688407335220_cont_8to1_c_395_12_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- The 768 input planes and the 1536 output planes, in HBM. -/
abbrev v0Loc (d : Dev nD) : Loc nD τ sig := (SparseCore.T d).loc main_v0
abbrev v1Loc (d : Dev nD) : Loc nD τ sig := (SparseCore.T d).loc main_v1

abbrev xV : Memref sig .scVector .hbm S768x224x224 .f32 := Memref.whole main_v0_scv
abbrev oV : Memref sig .scVector .hbm S1536x224x224 .f32 := Memref.whole main_v1_scv
abbrev b0V : Memref sig .scVector .vmem S224x224 .f32 := Memref.whole cc0_scratch0
abbrev b1V : Memref sig .scVector .vmem S224x224 .f32 := Memref.whole cc0_scratch1
abbrev zsV : Memref sig .scVector .vmem S16x224 .f32 := Memref.whole cc0_scratch2
abbrev shV : Memref sig .scVector .shared S256x224 .f32 := Memref.whole cc0_scratch3

theorem nSub_eq : τ.nSub = 16 := rfl
theorem bound_zero : grid0.bound 0 = 2 := rfl
theorem bound_one : grid0.bound 1 = 16 := rfl

/-- SparseCore `c`'s shared buffer, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The shared buffer's sixteen row blocks: block n is rows 16 n .. 16 n + 15. -/
theorem hdiv : 16 ∣ S256x224.size 0 := ⟨16, rfl⟩
abbrev blk (n : Fin 16) : Rect S256x224 := Rect.part (s := S256x224) (a₀ := 0) hdiv n
abbrev blkSet (n : Fin 16) : Finset S256x224.Idx := ((shV).view.slice (blk n)).set

variable [FloatOps F]

/-- The all-zero contents of the shared buffer. -/
def shZ (d : Dev nD) (c : Fin τ.nSC) : Buf (Elt F) (shLoc d c) := fun _ => (Cert.Spec.zero : F .f32)

/-! ## Sixteen read shares of one buffer -/

/-- The k-th of sixteen pairwise disjoint shares that together are the full share: the full share halved again
    and again, each time giving away the right half; the last keeps what is left. -/
def σ (k : ℕ) : PosShare TreeShare := if k < 15 then Transfers.shareTokN fullShare k else Transfers.shareDrop fullShare 15

/-! ## The barrier cells -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Block n of the shared buffer of SparseCore c, read-shared at share k, holding zeros. -/
abbrev shBlk (d : Dev nD) (c : Fin τ.nSC) (n : Fin 16) (k : ℕ) : sProp 𝕄 := shLoc d c ↦[blkSet n]{σ k} shZ (F := F) d c

/-- What tile n's duty in tile j's round hands over: the j-th share of tile n's own rows, zero. -/
def bPay (g : GSem nD τ sig) (n : ℕ) : sProp 𝕄 :=
  match g with
  | ((d, .scVector c j), _) => if h : n < 16 then shBlk (F := F) d c ⟨n, h⟩ j.val else iprop(emp)
  | _ => iprop(emp)

/-- One round on each barrier cell, one unit duty per tile of the SparseCore, named by the tile's number. -/
def bRd : Rounds.Schedule (GSem nD τ sig) ℕ 𝕄 where
  duties g r := if isBar g ∧ r = 0 then (Finset.univ : Finset (Fin τ.nSub)).image Fin.val else ∅
  amount _ _ _ := 1
  payload g _ n := bPay g n
  amount_pos _ _ _ _ := Nat.one_pos

instance bRd_payload_storable (g : GSem nD τ sig) (r n : ℕ) : BI.Storable (upEmb : UEmb _ 𝕄) ((bRd (F := F)).payload g r n) := by
  show BI.Storable upEmb (bPay g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F)).duties (bcell d c j) 0 = (Finset.univ : Finset (Fin τ.nSub)).image Fin.val := by
  simp [bRd, isBar]
theorem bRd_mem₀ (d : Dev nD) (c : Fin τ.nSC) (j i : Fin τ.nSub) : i.val ∈ (bRd (F := F)).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F)).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every cell invariant of its SparseCore, its duty token in every tile's round, that each cell
    has reached round 0, its own position at the origin, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F)) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## A tile's planes, as the body slices them -/

abbrev cV (L : grid0.Coords) : Fin τ.nSC := (L 0).castLE hcore0
abbrev jV (L : grid0.Coords) : Fin τ.nSub := (L 1).castLE hsub0
abbrev jL (L : grid0.Coords) : Fin 16 := Fin.cast bound_one (L 1)

/-- Input plane 32 r + w of the tile at L. -/
abbrev inPl (L : grid0.Coords) (r : Fin 24) : Memref sig .scVector .hbm S224x224 .f32 :=
  ((xV).slice (Rect.unit (s := S768x224x224) (k0_off1 L (BitVec.ofNat 32 (32 * r.val))) S1x224x224.size (k0_off1_inb L r)) (fun _ => rfl)).squeeze S224x224 squeezes_S1x224x224_S224x224
/-- Output plane 2 (32 r + w): where the copy of the input plane goes. -/
abbrev evPl (L : grid0.Coords) (r : Fin 24) : Memref sig .scVector .hbm S224x224 .f32 :=
  ((oV).slice (Rect.unit (s := S1536x224x224) (k0_off5 L (BitVec.ofNat 32 (32 * r.val))) S1x224x224.size (k0_off5_inb L r)) (fun _ => rfl)).squeeze S224x224 squeezes_S1x224x224_S224x224
/-- Output plane 2 (32 r + w) + 1: where the zeros go. -/
abbrev odPl (L : grid0.Coords) (r : Fin 24) : Memref sig .scVector .hbm S224x224 .f32 :=
  ((oV).slice (Rect.unit (s := S1536x224x224) (k0_off4 L (BitVec.ofNat 32 (32 * r.val))) S1x224x224.size (k0_off4_inb L r)) (fun _ => rfl)).squeeze S224x224 squeezes_S1x224x224_S224x224

abbrev inSet (L : grid0.Coords) (r : Fin 24) : Finset S768x224x224.Idx := (inPl L r).view.set
abbrev evSet (L : grid0.Coords) (r : Fin 24) : Finset S1536x224x224.Idx := (evPl L r).view.set
abbrev odSet (L : grid0.Coords) (r : Fin 24) : Finset S1536x224x224.Idx := (odPl L r).view.set

/-- The grid point of core c, tile s. -/
def coordsV (c : Fin (grid0.bound 0)) (s : Fin (grid0.bound 1)) : grid0.Coords :=
  fun | 0 => c | 1 => s | ⟨_ + 2, h⟩ => absurd h (Nat.not_lt.2 (Nat.le_add_left _ _))

/-! ## What the handshakes carry

`y` is the contents of the input planes when the kernel starts, `o` what the output planes then hold. -/

variable (y : (d : Dev nD) → Buf (Elt F) (v0Loc d)) (o : (d : Dev nD) → Buf (Elt F) (v1Loc d))

/-- What the output planes hold at the end: plane 2 p is input plane p, plane 2 p + 1 is zero. -/
def res (d : Dev nD) : Buf (Elt F) (v1Loc d) := Cert.Spec.spreadPlanes (F := F) (y d)

/-- The planes a tile is handed: its twenty-four input planes and the forty-eight output planes it will write. -/
def goH (d : Dev nD) (L : grid0.Coords) : sProp 𝕄 :=
  bigSep Finset.univ fun r : Fin 24 =>
    iprop((v0Loc d ↦[inSet L r]{fullShare} y d) ∗ (v1Loc d ↦[evSet L r]{fullShare} o d) ∗ (v1Loc d ↦[odSet L r]{fullShare} o d))
/-- The planes it hands back: the input planes as they were, the output planes at their final contents. -/
def tdH (d : Dev nD) (L : grid0.Coords) : sProp 𝕄 :=
  bigSep Finset.univ fun r : Fin 24 =>
    iprop((v0Loc d ↦[inSet L r]{fullShare} y d) ∗ (v1Loc d ↦[evSet L r]{fullShare} res y d) ∗ (v1Loc d ↦[odSet L r]{fullShare} res y d))

/-- The grid point of the launch theorem's core and tile numbers. -/
abbrev LL (c : Fin ((K (F := F)).nCore 0)) (i : Fin ((K (F := F)).nSub 0)) : grid0.Coords :=
  coordsV (Fin.cast nCore_zero c) (Fin.cast nSub_zero i)

/-- A tile is handed its planes and its own sixteen rows of the shared buffer (whatever they hold); it hands back the
    planes and a sixteenth share of every row block of the shared buffer, zero.  A SparseCore is handed, and hands back,
    what its sixteen tiles are.  Each tile's proof consumes its barrier kit and owes its sixteen arrivals. -/
def P : (K (F := F)).Pay (nD := nD) (Val := Elt F) (Name := ℕ) (U := UU) where
  st := fun q d c => match q with | 0 => bigSep Finset.univ fun i : Fin ((K (F := F)).nSub 0) => goH y o d (LL c i)
  dn := fun q d c => match q with | 0 => bigSep Finset.univ fun i : Fin ((K (F := F)).nSub 0) => tdH y d (LL c i)
  go := fun q d c i => match q with
    | 0 => iprop(goH y o d (LL c i) ∗ ∃ f, shLoc d (coreOf c) ↦[blkSet (Fin.cast nSub_zero i)]{fullShare} f)
  td := fun q d c i => match q with
    | 0 => iprop(tdH y d (LL c i) ∗ bigSep Finset.univ fun n : Fin 16 => shBlk (F := F) d (coreOf c) n i.val)
  x := fun _ thr => match thr with
    | (d, .scVector c i) => if c.val < 2 then bkit d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance goH_storable (d : Dev nD) (L : grid0.Coords) : BI.Storable (upEmb : UEmb _ 𝕄) (goH y o d L) := by unfold goH; infer_instance
instance tdH_storable (d : Dev nD) (L : grid0.Coords) : BI.Storable (upEmb : UEmb _ 𝕄) (tdH y d L) := by unfold tdH; infer_instance

instance P_storable : (P (F := F) y o).IsStorable where
  st q d c := match q with
    | 0 => (inferInstance : BI.Storable (upEmb : UEmb _ 𝕄) (bigSep Finset.univ fun i : Fin ((K (F := F)).nSub 0) => goH y o d (LL c i)))
  dn q d c := match q with
    | 0 => (inferInstance : BI.Storable (upEmb : UEmb _ 𝕄) (bigSep Finset.univ fun i : Fin ((K (F := F)).nSub 0) => tdH y d (LL c i)))
  go q d c i := match q with
    | 0 => (inferInstance : BI.Storable (upEmb : UEmb _ 𝕄)
      iprop(goH y o d (LL c i) ∗ ∃ f, shLoc d (coreOf c) ↦[blkSet (Fin.cast nSub_zero i)]{fullShare} f))
  td q d c i := match q with
    | 0 => (inferInstance : BI.Storable (upEmb : UEmb _ 𝕄)
      iprop(tdH y d (LL c i) ∗ bigSep Finset.univ fun n : Fin 16 => shBlk (F := F) d (coreOf c) n i.val))

end Cert.Proof.KI

end
-- ==== Proof.KIPlanes.lean ====
/-
  Which planes a tile owns, as sets of elements of the two arrays in HBM.

  The tile at grid point L (core L 0 < 2, subcore L 1 < 16) has worker number w = 2 (L 1) + (L 0) < 32.  For r < 24
  its r-th input plane is plane 32 r + w of 768, the copy goes to output plane 2 (32 r + w) = 64 r + 4 (L 1) + 2 (L 0)
  of 1536, and the zeros go to the plane after it.  A plane, as a set of elements of the array, is every element
  whose leading coordinate is the plane's number.

  Every p < 768 is 32 r + 2 s + c for exactly one (c, s, r) with c < 2, s < 16, r < 24 (r = p / 32, s = p % 32 / 2,
  c = p % 2), so the input planes of all tiles partition the input array.  Every q < 1536 is either even, and then
  the copy's destination for exactly one (c, s, r), or odd, and then the zeros' destination for exactly one: the even
  and the odd planes of all tiles together partition the output array.

  On an even output plane the function spread over planes reads the input plane of half its number; on an odd one
  it is zero.
-/
import proofs.«204282_g43688407335220_cont_8to1_c_395_12_alg».proof.Proof.KISetup

noncomputable section

namespace Cert.Proof.KI

open Cert.KernelIdeal Cert.KernelIdeal.Gen

open Idealize.ShloMosaic Idealize.ShloMosaic.ValueIdx

variable {F : FTy → Type}

/-! ## A plane as a set of elements -/

/-- The elements of a unit-thick slab at leading coordinate p of an [n, 224, 224] array: those whose leading
    coordinate is p. -/
theorem mem_slab {n : ℕ} (off : Fin 3 → ℕ) (p : ℕ) (hoff : off = ![p, 0, 0])
    (inb : ∀ a, off a + S1x224x224.size a ≤ (⟨3, ![n, 224, 224]⟩ : Shape).size a) (j : (⟨3, ![n, 224, 224]⟩ : Shape).Idx) :
    j ∈ (Rect.unit (s := ⟨3, ![n, 224, 224]⟩) off S1x224x224.size inb).set ↔ (j 0).val = p := by
  subst hoff
  rw [Rect.mem_set_unit]
  constructor
  · intro h
    have h0 := h 0
    change p ≤ (j 0).val ∧ (j 0).val < p + 1 at h0
    omega
  · intro h a
    have h1 : (j 1).val < 224 := (j 1).isLt
    have h2 : (j 2).val < 224 := (j 2).isLt
    match a with
    | ⟨0, _⟩ => change p ≤ (j 0).val ∧ (j 0).val < p + 1; omega
    | ⟨1, _⟩ => change 0 ≤ (j 1).val ∧ (j 1).val < 0 + 224; omega
    | ⟨2, _⟩ => change 0 ≤ (j 2).val ∧ (j 2).val < 0 + 224; omega

/-- A tile's plane is the slab the body's slice names. -/
theorem inSet_eq (L : grid0.Coords) (r : Fin 24) :
    inSet L r = (Rect.unit (s := S768x224x224) (k0_off1 L (BitVec.ofNat 32 (32 * r.val))) S1x224x224.size (k0_off1_inb L r)).set := by
  show (((View.whole (main_v0_scv : Ref sig .scVector)).slice _).reshape _ _).set = _
  rw [View.set_reshape, View.set_slice_whole]
theorem evSet_eq (L : grid0.Coords) (r : Fin 24) :
    evSet L r = (Rect.unit (s := S1536x224x224) (k0_off5 L (BitVec.ofNat 32 (32 * r.val))) S1x224x224.size (k0_off5_inb L r)).set := by
  show (((View.whole (main_v1_scv : Ref sig .scVector)).slice _).reshape _ _).set = _
  rw [View.set_reshape, View.set_slice_whole]
theorem odSet_eq (L : grid0.Coords) (r : Fin 24) :
    odSet L r = (Rect.unit (s := S1536x224x224) (k0_off4 L (BitVec.ofNat 32 (32 * r.val))) S1x224x224.size (k0_off4_inb L r)).set := by
  show (((View.whole (main_v1_scv : Ref sig .scVector)).slice _).reshape _ _).set = _
  rw [View.set_reshape, View.set_slice_whole]

theorem mem_inSet (L : grid0.Coords) (r : Fin 24) (j : S768x224x224.Idx) :
    j ∈ inSet L r ↔ (j 0).val = 32 * r.val + 2 * (L 1).val + (L 0).val := by
  rw [inSet_eq]
  exact mem_slab _ _ (k0_off1_eq L r) _ j

theorem mem_evSet (L : grid0.Coords) (r : Fin 24) (j : S1536x224x224.Idx) :
    j ∈ evSet L r ↔ (j 0).val = 64 * r.val + 4 * (L 1).val + 2 * (L 0).val := by
  rw [evSet_eq]
  exact mem_slab _ _ (k0_off5_eq L r) _ j

theorem mem_odSet (L : grid0.Coords) (r : Fin 24) (j : S1536x224x224.Idx) :
    j ∈ odSet L r ↔ (j 0).val = 64 * r.val + 4 * (L 1).val + 2 * (L 0).val + 1 := by
  rw [odSet_eq]
  exact mem_slab _ _ (k0_off4_eq L r) _ j

/-! ## The planes of all tiles partition the arrays -/

/-- Core, subcore, trip. -/
abbrev TI : Type := Fin (grid0.bound 0) × Fin (grid0.bound 1) × Fin 24

abbrev inFam (t : TI) : Finset S768x224x224.Idx := inSet (coordsV t.1 t.2.1) t.2.2
abbrev evFam (t : TI) : Finset S1536x224x224.Idx := evSet (coordsV t.1 t.2.1) t.2.2
abbrev odFam (t : TI) : Finset S1536x224x224.Idx := odSet (coordsV t.1 t.2.1) t.2.2

theorem mem_inFam (c : Fin (grid0.bound 0)) (s : Fin (grid0.bound 1)) (r : Fin 24) (j : S768x224x224.Idx) :
    j ∈ inFam (c, s, r) ↔ (j 0).val = 32 * r.val + 2 * s.val + c.val := mem_inSet _ _ j
theorem mem_evFam (c : Fin (grid0.bound 0)) (s : Fin (grid0.bound 1)) (r : Fin 24) (j : S1536x224x224.Idx) :
    j ∈ evFam (c, s, r) ↔ (j 0).val = 64 * r.val + 4 * s.val + 2 * c.val := mem_evSet _ _ j
theorem mem_odFam (c : Fin (grid0.bound 0)) (s : Fin (grid0.bound 1)) (r : Fin 24) (j : S1536x224x224.Idx) :
    j ∈ odFam (c, s, r) ↔ (j 0).val = 64 * r.val + 4 * s.val + 2 * c.val + 1 := mem_odSet _ _ j

theorem inFam_disjoint : ∀ t ∈ (Finset.univ : Finset TI), ∀ t' ∈ (Finset.univ : Finset TI), t ≠ t' → Disjoint (inFam t) (inFam t') := by
  rintro ⟨c, s, r⟩ - ⟨c', s', r'⟩ - hne
  refine Finset.disjoint_left.2 fun j h1 h2 => hne ?_
  have e1 := (mem_inFam c s r j).1 h1
  have e2 := (mem_inFam c' s' r' j).1 h2
  have hc : c.val < 2 := c.isLt
  have hc' : c'.val < 2 := c'.isLt
  have hs : s.val < 16 := s.isLt
  have hs' : s'.val < 16 := s'.isLt
  have h : c.val = c'.val ∧ s.val = s'.val ∧ r.val = r'.val := by omega
  exact Prod.ext (Fin.ext h.1) (Prod.ext (Fin.ext h.2.1) (Fin.ext h.2.2))

theorem evFam_disjoint : ∀ t ∈ (Finset.univ : Finset TI), ∀ t' ∈ (Finset.univ : Finset TI), t ≠ t' → Disjoint (evFam t) (evFam t') := by
  rintro ⟨c, s, r⟩ - ⟨c', s', r'⟩ - hne
  refine Finset.disjoint_left.2 fun j h1 h2 => hne ?_
  have e1 := (mem_evFam c s r j).1 h1
  have e2 := (mem_evFam c' s' r' j).1 h2
  have hc : c.val < 2 := c.isLt
  have hc' : c'.val < 2 := c'.isLt
  have hs : s.val < 16 := s.isLt
  have hs' : s'.val < 16 := s'.isLt
  have h : c.val = c'.val ∧ s.val = s'.val ∧ r.val = r'.val := by omega
  exact Prod.ext (Fin.ext h.1) (Prod.ext (Fin.ext h.2.1) (Fin.ext h.2.2))

theorem odFam_disjoint : ∀ t ∈ (Finset.univ : Finset TI), ∀ t' ∈ (Finset.univ : Finset TI), t ≠ t' → Disjoint (odFam t) (odFam t') := by
  rintro ⟨c, s, r⟩ - ⟨c', s', r'⟩ - hne
  refine Finset.disjoint_left.2 fun j h1 h2 => hne ?_
  have e1 := (mem_odFam c s r j).1 h1
  have e2 := (mem_odFam c' s' r' j).1 h2
  have hc : c.val < 2 := c.isLt
  have hc' : c'.val < 2 := c'.isLt
  have hs : s.val < 16 := s.isLt
  have hs' : s'.val < 16 := s'.isLt
  have h : c.val = c'.val ∧ s.val = s'.val ∧ r.val = r'.val := by omega
  exact Prod.ext (Fin.ext h.1) (Prod.ext (Fin.ext h.2.1) (Fin.ext h.2.2))

/-- An even plane is no odd plane. -/
theorem evFam_odFam_disjoint : Disjoint ((Finset.univ : Finset TI).biUnion evFam) ((Finset.univ : Finset TI).biUnion odFam) := by
  refine (Finset.disjoint_biUnion_left _ _ _).2 fun t _ => (Finset.disjoint_biUnion_right _ _ _).2 fun t' _ => ?_
  obtain ⟨c, s, r⟩ := t
  obtain ⟨c', s', r'⟩ := t'
  refine Finset.disjoint_left.2 fun j h1 h2 => ?_
  have e1 := (mem_evFam c s r j).1 h1
  have e2 := (mem_odFam c' s' r' j).1 h2
  omega

theorem inFam_cover : (Finset.univ : Finset TI).biUnion inFam = Finset.univ := by
  ext j
  simp only [Finset.mem_biUnion, Finset.mem_univ, true_and, iff_true]
  have hp : (j 0).val < 768 := (j 0).isLt
  refine ⟨(⟨(j 0).val % 2, ?_⟩, ⟨(j 0).val % 32 / 2, ?_⟩, ⟨(j 0).val / 32, by omega⟩), ?_⟩
  · show (j 0).val % 2 < 2; omega
  · show (j 0).val % 32 / 2 < 16; omega
  · rw [mem_inFam]; show (j 0).val = 32 * ((j 0).val / 32) + 2 * ((j 0).val % 32 / 2) + (j 0).val % 2; omega

theorem evFam_odFam_cover : (Finset.univ : Finset TI).biUnion evFam ∪ (Finset.univ : Finset TI).biUnion odFam = Finset.univ := by
  ext j
  simp only [Finset.mem_union, Finset.mem_biUnion, Finset.mem_univ, true_and, iff_true]
  have hq : (j 0).val < 1536 := (j 0).isLt
  have hc : (j 0).val % 4 / 2 < grid0.bound 0 := by show (j 0).val % 4 / 2 < 2; omega
  have hs : (j 0).val % 64 / 4 < grid0.bound 1 := by show (j 0).val % 64 / 4 < 16; omega
  have hr : (j 0).val / 64 < 24 := by omega
  by_cases h2 : (j 0).val % 2 = 0
  · refine Or.inl ⟨(⟨_, hc⟩, ⟨_, hs⟩, ⟨_, hr⟩), ?_⟩
    rw [mem_evFam]; show (j 0).val = 64 * ((j 0).val / 64) + 4 * ((j 0).val % 64 / 4) + 2 * ((j 0).val % 4 / 2); omega
  · refine Or.inr ⟨(⟨_, hc⟩, ⟨_, hs⟩, ⟨_, hr⟩), ?_⟩
    rw [mem_odFam]; show (j 0).val = 64 * ((j 0).val / 64) + 4 * ((j 0).val % 64 / 4) + 2 * ((j 0).val % 4 / 2) + 1; omega

/-! ## The function on a tile's output planes -/

variable [FloatOps F]

/-- The number of a tile's r-th input plane is a plane of the input array. -/
theorem plane_lt (L : grid0.Coords) (r : Fin 24) : 32 * r.val + 2 * (L 1).val + (L 0).val < 768 := by
  have hc : (L 0).val < 2 := (L 0).isLt
  have hs : (L 1).val < 16 := (L 1).isLt
  omega

/-- On the even output plane of the tile's r-th trip the function reads the tile's r-th input plane, same row and column. -/
theorem spreadPlanes_of_mem_evSet (y : FVec F ⟨3, ![768, 224, 224]⟩ .f32) {L : grid0.Coords} {r : Fin 24} {j : S1536x224x224.Idx}
    (hj : j ∈ evSet L r) :
    Cert.Spec.spreadPlanes y j = y (ix3 ⟨32 * r.val + 2 * (L 1).val + (L 0).val, plane_lt L r⟩ (j 1) (j 2)) := by
  have h0 := (mem_evSet L r j).1 hj
  have hlt : (j 0).val < 1536 := (j 0).isLt
  show (if (j 0).val % 2 = 0 then y (ix3 ⟨(j 0).val / 2, by omega⟩ (j 1) (j 2)) else Cert.Spec.zero) = _
  rw [if_pos (by omega)]
  exact congrArg (fun a => y (ix3 a (j 1) (j 2))) (Fin.ext (by show (j 0).val / 2 = 32 * r.val + 2 * (L 1).val + (L 0).val; omega))

/-- On the odd output plane of the tile's r-th trip the function is zero. -/
theorem spreadPlanes_of_mem_odSet (y : FVec F ⟨3, ![768, 224, 224]⟩ .f32) {L : grid0.Coords} {r : Fin 24} {j : S1536x224x224.Idx}
    (hj : j ∈ odSet L r) : Cert.Spec.spreadPlanes y j = Cert.Spec.zero := by
  have h0 := (mem_odSet L r j).1 hj
  have hlt : (j 0).val < 1536 := (j 0).isLt
  show (if (j 0).val % 2 = 0 then y (ix3 ⟨(j 0).val / 2, by omega⟩ (j 1) (j 2)) else Cert.Spec.zero) = _
  rw [if_neg (by omega)]

end Cert.Proof.KI

end
-- ==== Proof.KIShares.lean ====
/-
  Sixteen read shares of one buffer.

  The full share of a set of elements of a buffer is the separating conjunction of the sixteen shares σ 0 .. σ 15:
  σ k for k < 15 is the right half of the full share halved k times, and σ 15 is the full share halved fifteen times,
  what is left after the fifteen right halves are given away.
-/
import proofs.«204282_g43688407335220_cont_8to1_c_395_12_alg».proof.Proof.KISetup

noncomputable section

namespace Cert.Proof.KI

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The sixteen shares, listed over the numbers below sixteen: the last one and the fifteen before it. -/
theorem bigSep_σ {ℓ : Loc nD τ sig} (S : Finset (Idx ℓ)) (f : Buf (Elt F) ℓ) :
    (bigSep Finset.univ fun k : Fin 16 => (ℓ ↦[S]{σ k.val} f : sProp 𝕄))
      = iprop((ℓ ↦[S]{Transfers.shareDrop fullShare 15} f)
          ∗ bigSep (Finset.range 15) (fun i => ℓ ↦[S]{Transfers.shareTokN fullShare i} f)) := by
  rw [show (bigSep Finset.univ fun k : Fin 16 => (ℓ ↦[S]{σ k.val} f : sProp 𝕄))
      = bigSep (Finset.range 16) (fun i => ℓ ↦[S]{σ i} f)
    by rw [← Nat.Iio_eq_range, ← Fin.map_valEmbedding_univ, BI.bigSep_map]; rfl]
  rw [show (16 : ℕ) = 15 + 1 from rfl, Finset.range_add_one, BI.bigSep_insert Finset.notMem_range_self]
  rw [show σ 15 = Transfers.shareDrop fullShare 15 from if_neg (lt_irrefl 15)]
  rw [bigSep_congr (Ψ := fun i => (ℓ ↦[S]{Transfers.shareTokN fullShare i} f : sProp 𝕄)) fun i hi => by
    rw [show σ i = Transfers.shareTokN fullShare i from if_pos (Finset.mem_range.1 hi)]]
  rfl

/-- The full share of a set of elements is its sixteen shares σ 0 .. σ 15 together. -/
theorem shares16 {ℓ : Loc nD τ sig} (S : Finset (Idx ℓ)) (f : Buf (Elt F) ℓ) :
    (ℓ ↦[S]{fullShare} f : sProp 𝕄) ⊣⊢ bigSep Finset.univ fun k : Fin 16 => ℓ ↦[S]{σ k.val} f := by
  rw [bigSep_σ]
  exact Transfers.pointsTo_toks_range fullShare 15

end Cert.Proof.KI

end
-- ==== Proof.KISplit.lean ====
/-
  How the arrays split among the tiles and join back.

  The input array is the disjoint union of the input planes of all thirty-two tiles, and the output array is the
  disjoint union of their even and odd output planes, so holding the two arrays whole is holding every tile's planes,
  at any contents.  The shared buffer of a SparseCore is the disjoint union of its sixteen row blocks: whole, at any
  contents, it is one block for each tile; and when every tile hands back a sixteenth share of every block, all zero,
  the sixteen shares of a block are the block at the full share and the sixteen blocks are the buffer, all zero.
-/
import proofs.«204282_g43688407335220_cont_8to1_c_395_12_alg».proof.Proof.KIPlanes
import proofs.«204282_g43688407335220_cont_8to1_c_395_12_alg».proof.Proof.KIShares

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Reindexing: the launch theorem's core and tile numbers are the grid's -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- Over cores, tiles of a core and trips is over the triples. -/
theorem bigSep_tiles (Φ : TI → sProp 𝕄) :
    (bigSep Finset.univ fun c : Fin ((K (F := F)).nCore 0) => bigSep Finset.univ fun i : Fin ((K (F := F)).nSub 0) =>
      bigSep Finset.univ fun r : Fin 24 => Φ (Fin.cast nCore_zero c, Fin.cast nSub_zero i, r)) = bigSep Finset.univ Φ := by
  rw [bigSep_univ_prod Φ]
  refine bigSep_congr fun c _ => ?_
  rw [bigSep_univ_prod]
  exact bigSep_congr fun i _ => bigSep_congr fun r _ => congrArg Φ (Prod.ext (Fin.ext rfl) (Prod.ext (Fin.ext rfl) rfl))

/-! ## The arrays in HBM -/

omit [FloatOps F] in
/-- Every tile's planes, at contents f of the input array and g of the output array, are the two arrays whole. -/
theorem planes_eq (d : Dev nD) (f : Buf (Elt F) (v0Loc d)) (g : Buf (Elt F) (v1Loc d)) :
    (bigSep Finset.univ fun c : Fin ((K (F := F)).nCore 0) => bigSep Finset.univ fun i : Fin ((K (F := F)).nSub 0) =>
      bigSep Finset.univ fun r : Fin 24 =>
        iprop((v0Loc d ↦[inSet (LL c i) r]{fullShare} f) ∗ (v1Loc d ↦[evSet (LL c i) r]{fullShare} g) ∗ (v1Loc d ↦[odSet (LL c i) r]{fullShare} g)))
      = (iprop((v0Loc d ↦{fullShare} f) ∗ (v1Loc d ↦{fullShare} g)) : sProp 𝕄) := by
  refine (bigSep_tiles (F := F) (fun t : TI =>
    iprop((v0Loc d ↦[inFam t]{fullShare} f) ∗ (v1Loc d ↦[evFam t]{fullShare} g) ∗ (v1Loc d ↦[odFam t]{fullShare} g)))).trans ?_
  rw [bigSep_sep', bigSep_sep', ← pointsTo_biUnion Finset.univ (ℓ := v0Loc d) inFam inFam_disjoint,
    ← pointsTo_biUnion Finset.univ (ℓ := v1Loc d) evFam evFam_disjoint, ← pointsTo_biUnion Finset.univ (ℓ := v1Loc d) odFam odFam_disjoint, inFam_cover]
  have hu : (v1Loc d ↦[(Finset.univ : Finset TI).biUnion evFam ∪ (Finset.univ : Finset TI).biUnion odFam]{fullShare} g : sProp 𝕄)
      ⊣⊢ iprop((v1Loc d ↦[(Finset.univ : Finset TI).biUnion evFam]{fullShare} g) ∗ v1Loc d ↦[(Finset.univ : Finset TI).biUnion odFam]{fullShare} g) :=
    pointsTo_union evFam_odFam_disjoint
  rw [← BI.equiv_iff.mp ⟨hu.1, hu.2⟩, evFam_odFam_cover]

variable (y : (d : Dev nD) → Buf (Elt F) (v0Loc d)) (o : (d : Dev nD) → Buf (Elt F) (v1Loc d))

/-! ## What the handshakes carry, as equations -/

theorem P_st (d : Dev nD) (c : Fin ((K (F := F)).nCore 0)) :
    (P y o).st 0 d c = bigSep Finset.univ fun i : Fin ((K (F := F)).nSub 0) => goH y o d (LL c i) := rfl
theorem P_dn (d : Dev nD) (c : Fin ((K (F := F)).nCore 0)) :
    (P y o).dn 0 d c = bigSep Finset.univ fun i : Fin ((K (F := F)).nSub 0) => tdH y d (LL c i) := rfl
theorem P_go (d : Dev nD) (c : Fin ((K (F := F)).nCore 0)) (i : Fin ((K (F := F)).nSub 0)) :
    (P y o).go 0 d c i = iprop(goH y o d (LL c i) ∗ ∃ f, shLoc d (coreOf c) ↦[blkSet (Fin.cast nSub_zero i)]{fullShare} f) := rfl
theorem P_td (d : Dev nD) (c : Fin ((K (F := F)).nCore 0)) (i : Fin ((K (F := F)).nSub 0)) :
    (P y o).td 0 d c i = iprop(tdH y d (LL c i) ∗ bigSep Finset.univ fun n : Fin 16 => shBlk (F := F) d (coreOf c) n i.val) := rfl

/-- The call's operands: the two arrays whole, at the contents the call starts from. -/
theorem st0_eq (d : Dev nD) :
    (bigSep Finset.univ fun c : Fin ((K (F := F)).nCore 0) => (P y o).st 0 d c)
      = (iprop((v0Loc d ↦{fullShare} y d) ∗ (v1Loc d ↦{fullShare} o d)) : sProp 𝕄) := by
  simp only [P_st]
  unfold goH
  exact planes_eq d (y d) (o d)

/-- The call's results: the input array as it was, the output array at the function of it. -/
theorem dn0_eq (d : Dev nD) :
    (bigSep Finset.univ fun c : Fin ((K (F := F)).nCore 0) => (P y o).dn 0 d c)
      = (iprop((v0Loc d ↦{fullShare} y d) ∗ (v1Loc d ↦{fullShare} res y d)) : sProp 𝕄) := by
  simp only [P_dn]
  unfold tdH
  exact planes_eq d (y d) (res y d)

/-! ## The shared buffer -/

omit [FloatOps F] in
theorem blkSet_eq (n : Fin 16) : blkSet n = (blk n).set := by
  show ((View.whole (cc0_scratch3 : Ref sig .scVector)).slice (blk n)).set = _
  rw [View.set_slice]; exact Finset.map_refl
omit [FloatOps F] in
theorem blks_disjoint : ∀ i ∈ (Finset.univ : Finset (Fin 16)), ∀ j ∈ (Finset.univ : Finset (Fin 16)), i ≠ j → Disjoint (blkSet i) (blkSet j) :=
  fun i _ j _ h => by rw [blkSet_eq, blkSet_eq]; exact Rect.part_disjoint hdiv h
omit [FloatOps F] in
theorem blks_cover : (Finset.univ : Finset (Fin 16)).biUnion blkSet = Finset.univ :=
  (Finset.biUnion_congr rfl fun i _ => blkSet_eq i).trans (Rect.biUnion_part hdiv)

omit [FloatOps F] in
/-- The shared buffer is its sixteen row blocks. -/
theorem shPts_blks (d : Dev nD) (c : Fin τ.nSC) (f : Buf (Elt F) (shLoc d c)) :
    (shLoc d c ↦{fullShare} f : sProp 𝕄) = bigSep Finset.univ fun n : Fin 16 => shLoc d c ↦[blkSet n]{fullShare} f := by
  rw [← pointsTo_biUnion Finset.univ (ℓ := shLoc d c) blkSet blks_disjoint, blks_cover]; try rfl

omit [FloatOps F] in
/-- Whole, at any contents, it is a block for each tile. -/
theorem sh_deal (d : Dev nD) (c : Fin τ.nSC) (f : Buf (Elt F) (shLoc d c)) :
    (shLoc d c ↦{fullShare} f : sProp 𝕄)
      ⊢ bigSep Finset.univ fun i : Fin ((K (F := F)).nSub 0) => iprop(∃ f', shLoc d c ↦[blkSet (Fin.cast nSub_zero i)]{fullShare} f') := by
  rw [bigSep_tasks (F := F) (fun i => iprop(∃ f', shLoc d c ↦[blkSet i]{fullShare} f')), shPts_blks d c f]
  exact bigSep_mono fun i _ => BI.BIClass.exists_intro (Φ := fun f' => (shLoc d c ↦[blkSet i]{fullShare} f' : sProp 𝕄)) f

/-- Every tile's sixteenth share of every block, all zero, is the buffer whole, all zero. -/
theorem sh_collect (d : Dev nD) (c : Fin τ.nSC) :
    (bigSep Finset.univ fun i : Fin ((K (F := F)).nSub 0) => bigSep Finset.univ fun n : Fin 16 => shBlk (F := F) d c n i.val)
      ⊢ (iprop(∃ f, shLoc d c ↦{fullShare} f) : sProp 𝕄) := by
  rw [bigSep_univ_comm]
  have h : ∀ n : Fin 16, (bigSep Finset.univ fun i : Fin ((K (F := F)).nSub 0) => shBlk (F := F) d c n i.val)
      ⊢ (shLoc d c ↦[blkSet n]{fullShare} shZ (F := F) d c : sProp 𝕄) := fun n =>
    (Entails.of_eq (bigSep_tasks (F := F) (fun k : Fin 16 => shBlk (F := F) d c n k.val))).trans (shares16 (ℓ := shLoc d c) (blkSet n) (shZ (F := F) d c)).2
  refine (bigSep_mono fun n _ => h n).trans ?_
  rw [← shPts_blks]
  exact BI.BIClass.exists_intro (Φ := fun f => (shLoc d c ↦{fullShare} f : sProp 𝕄)) (shZ (F := F) d c)

omit [FloatOps F] in
/-- The shared buffer is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- A SparseCore's operands to its tiles, its results from theirs: the planes are the tiles' as they stand; the shared
    buffer goes out block by block and comes back share by share. -/
theorem vecSplit : (K (F := F)).VecSplit (P y o) 0 := by
  intro d c
  rw [P_st, P_dn]
  simp only [P_go, P_td]
  rw [bigSep_sep', bigSep_sep', ownBufs_S]
  iintro ⟨Hgo, ⟨%fsh, Hsh⟩, Hrest⟩; imodintro
  isplitl [Hgo Hsh]
  · isplitl [Hgo]; · iexact Hgo
    iapply (sh_deal d (coreOf c) fsh); iexact Hsh
  iintro ⟨Htd, Hsh⟩
  isplitl [Htd]; · iexact Htd
  isplitl [Hsh]; · iapply (sh_collect d (coreOf c)); iexact Hsh
  iexact Hrest

end Cert.Proof.KI

end
-- ==== Proof.KIElem.lean ====
/-
  The launch element of the ghost state, and what the launch hands each thread.

  Every tile of both SparseCores has a barrier cell.  From the element's barrier component every cell gets its round
  state, the fact that it has reached round 0, its position at the origin and, for each pair of tiles of a SparseCore,
  the first tile's duty token in the second's round; the cells' semaphores are at zero, so every cell's invariant is
  allocated; the credit for what the tiles owe regroups into sixteen units on each tile's own cell.  Dealt out, each
  tile has its barrier kit.
-/
import proofs.«204282_g43688407335220_cont_8to1_c_395_12_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (y : (d : Dev nD) → Buf (Elt F) (v0Loc d)) (o : (d : Dev nD) → Buf (Elt F) (v1Loc d))

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F)) g 0)
    ⊢ |={Set.univ}=> iprop(∃ κ : GSem nD τ sig → ℕ, bigSep bCells fun g => cellInv EB (bRd (F := F)) (κ g) g) := by
  refine (Rounds.bodies_intro EB (bRd (F := F)) bCells).trans ((inv_alloc_family bCells (Rounds.body EB (bRd (F := F))) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile of SparseCores 0 and 1 the sixteen units of its own cell. -/
theorem creds_b : ((P (F := F) y o).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) y o).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) y o).oxFrom 0 (V d c i) = oxV d c := fun i => by
      rw [show (0 : ℕ) = (0 : Fin 1).val from rfl, (P y o).oxFrom_step, (P y o).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) y o).x q (SparseCore.T d)) = iprop(emp) :=
  bigSep_univ_of_subsingleton (0 : Fin 1)
theorem Px_S (d : Dev nD) (c : Fin τ.nSC) : (bigSep Finset.univ fun q : Fin 1 => (P (F := F) y o).x q (S d c)) = iprop(emp) :=
  bigSep_univ_of_subsingleton (0 : Fin 1)
theorem Px_V (d : Dev nD) (c : Fin τ.nSC) (i : Fin τ.nSub) :
    (bigSep Finset.univ fun q : Fin 1 => (P (F := F) y o).x q (V d c i)) = if c.val < 2 then bkit d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F)) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's kit out of those. -/
theorem kit_intro (dci : DCI) : iprop(shared (F := F) ∗ mine dci) ⊢ (if dci.2.1.val < 2 then bkit (F := F) dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F)) (κ (bcell₃ x)) (bcell₃ x)) fun j _ =>
          sep_elim_left.trans (bigSep_elim (Φ := fun x : DCI => (cellInv EB (bRd (F := F)) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its kit. -/
theorem kits_deal :
    iprop(shared (F := F) ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) y o).x q thr : sProp 𝕄) := by
  rw [SparseCore.Cfg.bigSep_threads (fun thr : Thread nD τ => bigSep Finset.univ fun q : Fin 1 => (P y o).x q thr)]
  simp only [Px_T, Px_S, Px_V, bigSep_emp']
  iintro ⟨#Hsh, Hat, Htok, Hcred⟩
  isplitr; · iempintro
  isplitr; · iempintro
  iapply (bigSep_mono_frame (R := shared (F := F)) (Φ := mine (F := F)) fun dci _ => kit_intro (F := F) dci)
  isplitr; · iexact Hsh
  unfold mine
  rw [bigSep_sep', bigSep_sep']
  isplitl [Hat]; · iexact Hat
  isplitl [Htok]; · iexact Htok
  iexact Hcred

/-- The launch element: the handshakes' component kept for the launch theorem, every thread's own start dealt. -/
theorem hu₀ : iprop(ownU (u₀ (F := F)) ∗ (P (F := F) y o).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P y o).x q thr) : sProp 𝕄) := by
  unfold u₀
  iintro ⟨Hu, Hcred, Hfree⟩
  ihave H := (ownU_split _ _) $$ Hu
  icases H with ⟨HH, HB⟩
  imod (Rounds.fund EB (bRd (F := F)) bCells bToks) $$ HB with ⟨Hst, #Hr, Hat, Htok⟩
  ihave Hsems := (sems_b (F := F)) $$ Hfree
  imod (invs_b (F := F)) $$ [Hsems Hst] with ⟨%κ, #Hinv⟩
  · isplitl [Hsems] <;> iassumption
  ihave Hcred' := (creds_b y o) $$ Hcred
  ihave Hinv' := (Entails.of_eq (bCells_eq (F := F) fun g => cellInv EB (bRd (F := F)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal y o)
  isplitr
  · isplitl; · iexists κ; iexact Hinv'
    iexact Hr'
  isplitl [Hat']; · iexact Hat'
  isplitl [Htok']; · iexact Htok'
  iexact Hcred'

end Cert.Proof.KI

end
-- ==== Proof.SpecPlanes.lean ====
/-
  The two statements of the function agree through the flattening of batch and channel into planes.

  Row-major, entry (b, c, h, w) of an [8, 192, 224, 224] array is entry (b * 192 + c, h, w) of the same elements
  seen as [1536, 224, 224], and entry (b, k, h, w) of an [8, 96, 224, 224] array is entry (b * 96 + k, h, w) of
  [768, 224, 224].  Since 192 is even, the plane number b * 192 + c is even exactly when the channel c is, and
  then (b * 192 + c) / 2 = b * 96 + c / 2: the even planes of the result are the argument's planes in order, the
  odd ones are zero.  So spreading the planes of the flattened argument and unflattening is spreading the channels.
-/
import proofs.«204282_g43688407335220_cont_8to1_c_395_12_alg».proof.Proof.Spec
import Idealize.ShloMosaic.Lib.Pipeline.Value

namespace Cert.Spec

open Idealize.ShloMosaic Idealize.ShloMosaic.ValueIdx

variable {F : FTy → Type} [FloatOps F]

/-- Flatten batch and channel into planes, spread the planes, unflatten: the channels spread. -/
theorem shapeCast_spreadPlanes (x : FVec F ⟨4, ![8, 96, 224, 224]⟩ .f32)
    (h1 : (⟨4, ![8, 96, 224, 224]⟩ : Shape).ShapeCasts ⟨3, ![768, 224, 224]⟩)
    (h2 : (⟨3, ![1536, 224, 224]⟩ : Shape).ShapeCasts ⟨4, ![8, 192, 224, 224]⟩) :
    shapeCast ⟨4, ![8, 192, 224, 224]⟩ (spreadPlanes (shapeCast ⟨3, ![768, 224, 224]⟩ x h1)) h2 = spread x := by
  funext j
  obtain ⟨b, c, h, w, rfl⟩ : ∃ (b : Fin 8) (c : Fin 192) (h : Fin 224) (w : Fin 224), j = ix4 b c h w :=
    ⟨j 0, j 1, j 2, j 3, eq_ix4 j⟩
  have hb := b.isLt
  have hc := c.isLt
  -- the element's plane in the flattened result
  rw [shapeCast_apply _ h2 (ix4 b c h w) (ix3 ⟨b.val * 192 + c.val, by omega⟩ h w)
    (by rw [Shape.rowMajor_val_three, Shape.rowMajor_val_four]; rfl)]
  show (if (b.val * 192 + c.val) % 2 = 0
        then shapeCast ⟨3, ![768, 224, 224]⟩ x h1 (ix3 ⟨(b.val * 192 + c.val) / 2, _⟩ h w) else zero)
      = if c.val % 2 = 0 then x (ix4 b ⟨c.val / 2, _⟩ h w) else zero
  by_cases hc2 : c.val % 2 = 0
  · -- an even channel: the plane is even, and its half is the argument's plane b * 96 + c / 2
    have hp : (b.val * 192 + c.val) % 2 = 0 := by omega
    have hhalf : (b.val * 192 + c.val) / 2 = b.val * 96 + c.val / 2 := by omega
    rw [if_pos hp, if_pos hc2]
    refine shapeCast_apply x h1 _ _ ?_
    rw [Shape.rowMajor_val_three, Shape.rowMajor_val_four]
    show ((b.val * 96 + c.val / 2) * 224 + h.val) * 224 + w.val
      = ((b.val * 192 + c.val) / 2 * 224 + h.val) * 224 + w.val
    rw [hhalf]
  · -- an odd channel: the plane is odd
    have hp : ¬ (b.val * 192 + c.val) % 2 = 0 := by omega
    rw [if_neg hp, if_neg hc2]

end Cert.Spec
-- ==== Proof.KILaunch.lean ====
/-
  The run of the whole program, from the tiles' body obligation.

  On the TensorCore @main flattens the argument into 768 planes, starts the two SparseCores and waits for them, and
  unflattens the 1536 result planes.  Before the call the two arrays of planes, held whole, are every tile's planes;
  after it the input planes are as they were and the output planes hold the function spread over planes; unflattened,
  that is the argument's channels spread to the even positions.  The argument itself is never written.
-/
import proofs.«204282_g43688407335220_cont_8to1_c_395_12_alg».proof.Proof.KISplit
import proofs.«204282_g43688407335220_cont_8to1_c_395_12_alg».proof.Proof.KIElem
import proofs.«204282_g43688407335220_cont_8to1_c_395_12_alg».proof.Proof.SpecPlanes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays and its two host operations -/

abbrev aLoc (d : Dev nD) : Loc nD τ sig := (SparseCore.T d).loc main_arg0
abbrev rLoc (d : Dev nD) : Loc nD τ sig := (SparseCore.T d).loc main_v2

abbrev a0' : DevRef τ sig := Proc.devRef .tc (main_arg0 : Ref sig .tc)
abbrev w0' : DevRef τ sig := Proc.devRef .tc (main_v0 : Ref sig .tc)
abbrev w1' : DevRef τ sig := Proc.devRef .tc (main_v1 : Ref sig .tc)
abbrev w2' : DevRef τ sig := Proc.devRef .tc (main_v2 : Ref sig .tc)
abbrev opIn : HloOp τ sig (Elt F) := StableHlo.reshape main_arg0 main_v0 rfl shapeCasts_S8x96x224x224_S768x224x224
abbrev opOut : HloOp τ sig (Elt F) := StableHlo.reshape main_v1 main_v2 rfl shapeCasts_S1536x224x224_S8x192x224x224

/-- The TensorCore's arrays, all unscoped: the argument, its planes, the result planes, the result. -/
abbrev S4 : Finset (DevRef τ sig) := {a0', w0', w1', w2'}

/-- What the input planes hold when the kernel starts: the argument, flattened. -/
def yIn (d : Dev nD) : Buf (Elt F) (v0Loc d) := shapeCast S768x224x224 (m (aLoc d)) shapeCasts_S8x96x224x224_S768x224x224
/-- What the output planes then hold: what they held at the launch. -/
def oIn (d : Dev nD) : Buf (Elt F) (v1Loc d) := m (v1Loc d)

omit [FloatOps F] in
theorem held_S4 (d : Dev nD) (W : Valuation τ sig (Elt F)) :
    (held (T d) S4 W : sProp 𝕄)
      = iprop((aLoc d ↦{fullShare} W a0') ∗ (v0Loc d ↦{fullShare} W w0') ∗ (v1Loc d ↦{fullShare} W w1') ∗ rLoc d ↦{fullShare} W w2') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (v0Loc d ↦{fullShare} W main_v0) ∗ (v1Loc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; after the flattening; after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) w1' (res (yIn m) d)

theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a0' = m (aLoc d) := by
  unfold V1
  rw [(opIn (F := F)).result_of_not_mem _ (show a0' ∉ ({w0'} : Finset (DevRef τ sig)) by decide)]; rfl
theorem V1_w0 (d : Dev nD) : V1 m d w0' = yIn m d :=
  (StableHlo.reshape_result main_arg0 main_v0 rfl shapeCasts_S8x96x224x224_S768x224x224 ⟨by decide, rfl⟩ ⟨by decide, rfl⟩ (V0 m d)).trans rfl
theorem V1_w1 (d : Dev nD) : V1 m d w1' = oIn m d := by
  unfold V1
  rw [(opIn (F := F)).result_of_not_mem _ (show w1' ∉ ({w0'} : Finset (DevRef τ sig)) by decide)]; rfl
theorem V1_w2 (d : Dev nD) : V1 m d w2' = m (rLoc d) := by
  unfold V1
  rw [(opIn (F := F)).result_of_not_mem _ (show w2' ∉ ({w0'} : Finset (DevRef τ sig)) by decide)]; rfl

theorem V2_a (d : Dev nD) : V2 m d a0' = m (aLoc d) := (Function.update_of_ne (show a0' ≠ w1' by decide) _ _).trans (V1_a m d)
theorem V2_w0 (d : Dev nD) : V2 m d w0' = yIn m d := (Function.update_of_ne (show w0' ≠ w1' by decide) _ _).trans (V1_w0 m d)
theorem V2_w1 (d : Dev nD) : V2 m d w1' = res (yIn m) d := Function.update_self _ _ _
theorem V2_w2 (d : Dev nD) : V2 m d w2' = m (rLoc d) := (Function.update_of_ne (show w2' ≠ w1' by decide) _ _).trans (V1_w2 m d)

/-- Unflattening the result planes gives the argument's channels spread to the even positions. -/
theorem out_val (d : Dev nD) : (opOut (F := F)).result (V2 m d) w2' = Cert.Spec.spread (F := F) (m (aLoc d)) := by
  refine (StableHlo.reshape_result main_v1 main_v2 rfl shapeCasts_S1536x224x224_S8x192x224x224 ⟨by decide, rfl⟩ ⟨by decide, rfl⟩ (V2 m d)).trans ?_
  show shapeCast S8x192x224x224 (V2 m d w1') shapeCasts_S1536x224x224_S8x192x224x224 = _
  rw [V2_w1]
  exact Cert.Spec.shapeCast_spreadPlanes (m (aLoc d)) _ _

theorem held_V1 (d : Dev nD) :
    (held (T d) S4 ((opIn (F := F)).result (V0 m d)) : sProp 𝕄)
      = iprop((aLoc d ↦{fullShare} m (aLoc d)) ∗ (v0Loc d ↦{fullShare} yIn m d) ∗ (v1Loc d ↦{fullShare} oIn m d) ∗ rLoc d ↦{fullShare} m (rLoc d)) := by
  show held (SparseCore.T d) S4 (V1 m d) = _
  rw [held_S4, V1_a, V1_w0, V1_w1, V1_w2]
theorem held_V3 (d : Dev nD) :
    (held (T d) S4 ((opOut (F := F)).result (V2 m d)) : sProp 𝕄)
      = iprop((aLoc d ↦{fullShare} m (aLoc d)) ∗ (v0Loc d ↦{fullShare} (opOut (F := F)).result (V2 m d) w0')
          ∗ (v1Loc d ↦{fullShare} (opOut (F := F)).result (V2 m d) w1') ∗ rLoc d ↦{fullShare} Cert.Spec.spread (F := F) (m (aLoc d))) := by
  rw [held_S4, out_val, (opOut (F := F)).result_of_not_mem (V2 m d) (b := a0') (show a0' ∉ ({w2'} : Finset (DevRef τ sig)) by decide), V2_a]

theorem hIn : (opIn (F := F)).bufs ⊆ S4 := show ({a0', w0'} : Finset (DevRef τ sig)) ⊆ S4 by decide
theorem hOut : (opOut (F := F)).bufs ⊆ S4 := show ({w1', w2'} : Finset (DevRef τ sig)) ⊆ S4 by decide

/-- What @main leaves the claim: the argument at its launch contents, the result at the function of it. -/
abbrev FIN (d : Dev nD) : sProp 𝕄 :=
  iprop((aLoc d ↦{fullShare} m (aLoc d)) ∗ rLoc d ↦{fullShare} Cert.Spec.spread (F := F) (m (aLoc d)))

/-- @main on device d's TensorCore: the flattening, the call (from the two arrays of planes, whole), the unflattening. -/
theorem hmain (κ : GSem nD τ sig → ℕ) (d : Dev nD) :
    iprop((K (F := F)).ctx EH (P (yIn m) (oIn m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the flattening
  iapply (wp_hlo_within 𝒱 (SparseCore.T d) none Set.univ (op := opIn) (S := S4) hIn (V := V0 m d)) $$ [Hb Hheld]
  · isplitl [Hb] <;> iassumption
  iintro ⟨Hb, Hheld⟩
  rw [wp_ret]; imodintro
  -- the call: the two arrays of planes to the SparseCores and back
  ihave Hh := (Entails.of_eq (held_V1 (F := F) m d)) $$ Hheld
  icases Hh with ⟨Ha, Hv0, Hv1, Hr⟩
  iapply ((K (F := F)).wp_run (D (F := F)) 𝒱 (EH := EH) (P := P (yIn m) (oIn m)) κ d 0) $$ [Hst Hv0 Hv1 Hb Ha Hr]
  isplitr; · iexact Hctx
  isplitl [Hst]; · iexact Hst
  isplitl [Hv0 Hv1]
  · rw [st0_eq]
    isplitl [Hv0]; · iexact Hv0
    iexact Hv1
  iintro ⟨Hst, Hdn⟩
  ihave Hdn' := (Entails.of_eq (dn0_eq (yIn m) (oIn m) d)) $$ Hdn
  icases Hdn' with ⟨Hv0, Hv1⟩
  -- the unflattening
  iapply (wp_hlo_within 𝒱 (SparseCore.T d) none Set.univ (op := opOut) (S := S4) hOut (V := V2 m d)) $$ [Hb Ha Hv0 Hv1 Hr]
  · isplitl [Hb]; · iexact Hb
    rw [held_S4, V2_a, V2_w0, V2_w1, V2_w2]
    isplitl [Ha]; · iexact Ha
    isplitl [Hv0]; · iexact Hv0
    isplitl [Hv1]; · iexact Hv1
    iexact Hr
  iintro ⟨Hb, Hheld⟩
  ihave Hh := (Entails.of_eq (held_V3 (F := F) m d)) $$ Hheld
  icases Hh with ⟨Ha, -, -, Hr⟩
  rw [wp_ret]; imodintro; imodintro
  isplitl [Hst]; · iexact Hst
  isplitl [Ha]; · iexact Ha
  iexact Hr

def fq (d : Dev nD) (s' : Phys nD τ sig (Elt F)) : Prop :=
  s'.mem.mem (rLoc d) = Cert.Spec.spread (F := F) (m (aLoc d)) ∧ s'.mem.mem (aLoc d) = m (aLoc d)

theorem hfin (d : Dev nD) (s' : Phys nD τ sig (Elt F)) : iprop(FIN m d ∗ SI s') ⊢ (⌜fq m d s'⌝ : sProp 𝕄) := by
  have h1 : iprop(FIN m d ∗ SI s') ⊢ (⌜s'.mem.mem (aLoc d) = m (aLoc d)⌝ : sProp 𝕄) := by
    iintro ⟨⟨Ha, -⟩, HSI⟩
    ihave H := (SI_pointsTo_agree (st := s') (ℓ := aLoc d) (I := Finset.univ) (q := fullShare) (f := m (aLoc d))) $$ [HSI Ha]
    · isplitl [HSI] <;> iassumption
    icases H with %hx
    ipureintro; exact funext fun i => hx i (Finset.mem_univ i)
  have h2 : iprop(FIN m d ∗ SI s') ⊢ (⌜s'.mem.mem (rLoc d) = Cert.Spec.spread (F := F) (m (aLoc d))⌝ : sProp 𝕄) := by
    iintro ⟨⟨-, Hr⟩, HSI⟩
    ihave H := (SI_pointsTo_agree (st := s') (ℓ := rLoc d) (I := Finset.univ) (q := fullShare) (f := Cert.Spec.spread (F := F) (m (aLoc d)))) $$ [HSI Hr]
    · isplitl [HSI] <;> iassumption
    icases H with %hx
    ipureintro; exact funext fun i => hx i (Finset.mem_univ i)
  exact fun a ha => ⟨h2 a ha, h1 a ha⟩

/-! ## The program's run -/

/-- Every weakly fair execution of the whole program ends, with the result the argument's channels spread to the even
    positions and the argument unchanged: from the proof of one tile's body, at any contents of the two arrays of planes. -/
theorem run_main [∀ e, Nonempty (Elt F e)] (m : (ℓ : Loc nD τ sig) → Buf (Elt F) ℓ) (ρ : Dev nD → PrngReg)
    (hT : ∀ (y : (d : Dev nD) → Buf (Elt F) (v0Loc d)) (o : (d : Dev nD) → Buf (Elt F) (v1Loc d)), (K (F := F)).TileObl (D (F := F)) 𝒱 (P y o) v₀ 0) :
    θ_run (Cert.KernelIdeal.defs (F := F)) (Cert.KernelIdeal.threads (F := F)) ⟨m, fun _ => 0, ρ⟩
      (fun r => ∀ c : Dev nD,
        r.2.mem ((c.tc : Thread nD τ).loc main_v2) = Cert.Spec.spread (F := F) (m ((c.tc : Thread nD τ).loc main_arg0))
        ∧ r.2.mem ((c.tc : Thread nD τ).loc main_arg0) = m ((c.tc : Thread nD τ).loc main_arg0)) :=
  SparseCore.Cfg.θ_run_sc (K := K (F := F)) (D := D (F := F)) (𝒱 := 𝒱) (EH := EH) (P := P (yIn m) (oIn m)) facts v₀
    (fun q hq => match q with | 0 => nomatch hq)
    (fun q _ => match q with | 0 => hT (yIn m) (oIn m))
    (fun q _ => match q with | 0 => vecSplit (yIn m) (oIn m))
    m ρ main (fun _ => iprop(emp)) (FIN m) (u₀ (F := F)) (hu₀ (yIn m) (oIn m)) (hmain m ρ) (fq m) (hfin m) _ (fun _ h => h)

end Cert.Proof.KI

end
-- ==== Proof.KITilePre.lean ====
/-
  One tile's task.

  The tile starts the copies of its first two input planes into its two plane buffers, fills its 16 x 224 scratch
  with zeros, sends that to its own sixteen rows of the SparseCore's shared buffer and waits for it, and arrives at the
  barrier, handing every tile of the SparseCore a sixteenth read share of those rows.  Leaving the barrier it holds a
  sixteenth share of all 256 rows, all zero.  From then on, for each of its twenty-four planes in turn, it starts a copy
  of rows 0 .. 223 of the shared buffer to the odd output plane (twenty-four copies on one semaphore, none waited for
  until the end; they only READ the shared rows, and write twenty-four different planes), waits for the input plane to
  land in a plane buffer, copies the buffer out to the even output plane, and, once that copy is done, refills the
  buffer with the input plane two steps ahead.  At the end it drains the twenty-four zero copies.

  What it leaves: output plane 2 p holds input plane p, output plane 2 p + 1 holds zeros, for each of its planes p.
-/
import proofs.«204282_g43688407335220_cont_8to1_c_395_12_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A DMA semaphore of the tile, as a cell. -/
abbrev dcell (d : Dev nD) (c : Fin τ.nSC) (i : Fin τ.nSub) (s : DmaSems sig S_) : GSem nD τ sig := (V d c i, .dma s.sem)

omit [FloatOps F] in
theorem bigSep_fin24 (Φ : Fin 24 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [show (Finset.univ : Finset (Fin 24)) = {0, 1, 2, 3, 4, 5, 6, 7, 8, 9, 10, 11, 12, 13, 14, 15, 16, 17, 18, 19, 20, 21, 22, 23} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide),
    bigSep_singleton]
  rfl

omit [FloatOps F] in
theorem ownSems0_V (d : Dev nD) (L : grid0.Coords) :
    (ownSems0 (V d (cV L) (jV L)) : sProp 𝕄)
      = iprop(semVal (dcell d (cV L) (jV L) cc0_scratch4) 0 ∗ semVal (dcell d (cV L) (jV L) cc0_scratch5) 0 ∗ semVal (dcell d (cV L) (jV L) cc0_scratch6) 0 ∗ semVal (dcell d (cV L) (jV L) cc0_scratch7) 0 ∗ semVal (dcell d (cV L) (jV L) cc0_scratch8) 0 ∗ semVal (dcell d (cV L) (jV L) cc0_scoped0) 0
          ∗ bigSep (((((((ownCells (V d (cV L) (jV L))).erase (dcell d (cV L) (jV L) cc0_scratch4)).erase (dcell d (cV L) (jV L) cc0_scratch5)).erase (dcell d (cV L) (jV L) cc0_scratch6)).erase (dcell d (cV L) (jV L) cc0_scratch7)).erase (dcell d (cV L) (jV L) cc0_scratch8)).erase (dcell d (cV L) (jV L) cc0_scoped0)) fun g => semVal g 0) := by
  unfold SparseCore.Cfg.ownSems0
  rw [SparseCore.bigSep_erase' ((mem_ownCells (g := dcell d (cV L) (jV L) cc0_scratch4)).mpr ⟨rfl, by show (SemLoc.dma cc0_scratch4.sem : SemLoc sig).isScoped .scVector = true; decide⟩),
    SparseCore.bigSep_erase' (Finset.mem_erase.mpr ⟨(fun h => absurd (congrArg Prod.snd h) (show (SemLoc.dma cc0_scratch5.sem : SemLoc sig) ≠ SemLoc.dma cc0_scratch4.sem by decide)), (mem_ownCells (g := dcell d (cV L) (jV L) cc0_scratch5)).mpr ⟨rfl, by show (SemLoc.dma cc0_scratch5.sem : SemLoc sig).isScoped .scVector = true; decide⟩⟩),
    SparseCore.bigSep_erase' (Finset.mem_erase.mpr ⟨(fun h => absurd (congrArg Prod.snd h) (show (SemLoc.dma cc0_scratch6.sem : SemLoc sig) ≠ SemLoc.dma cc0_scratch5.sem by decide)), Finset.mem_erase.mpr ⟨(fun h => absurd (congrArg Prod.snd h) (show (SemLoc.dma cc0_scratch6.sem : SemLoc sig) ≠ SemLoc.dma cc0_scratch4.sem by decide)), (mem_ownCells (g := dcell d (cV L) (jV L) cc0_scratch6)).mpr ⟨rfl, by show (SemLoc.dma cc0_scratch6.sem : SemLoc sig).isScoped .scVector = true; decide⟩⟩⟩),
    SparseCore.bigSep_erase' (Finset.mem_erase.mpr ⟨(fun h => absurd (congrArg Prod.snd h) (show (SemLoc.dma cc0_scratch7.sem : SemLoc sig) ≠ SemLoc.dma cc0_scratch6.sem by decide)), Finset.mem_erase.mpr ⟨(fun h => absurd (congrArg Prod.snd h) (show (SemLoc.dma cc0_scratch7.sem : SemLoc sig) ≠ SemLoc.dma cc0_scratch5.sem by decide)), Finset.mem_erase.mpr ⟨(fun h => absurd (congrArg Prod.snd h) (show (SemLoc.dma cc0_scratch7.sem : SemLoc sig) ≠ SemLoc.dma cc0_scratch4.sem by decide)), (mem_ownCells (g := dcell d (cV L) (jV L) cc0_scratch7)).mpr ⟨rfl, by show (SemLoc.dma cc0_scratch7.sem : SemLoc sig).isScoped .scVector = true; decide⟩⟩⟩⟩),
    SparseCore.bigSep_erase' (Finset.mem_erase.mpr ⟨(fun h => absurd (congrArg Prod.snd h) (show (SemLoc.dma cc0_scratch8.sem : SemLoc sig) ≠ SemLoc.dma cc0_scratch7.sem by decide)), Finset.mem_erase.mpr ⟨(fun h => absurd (congrArg Prod.snd h) (show (SemLoc.dma cc0_scratch8.sem : SemLoc sig) ≠ SemLoc.dma cc0_scratch6.sem by decide)), Finset.mem_erase.mpr ⟨(fun h => absurd (congrArg Prod.snd h) (show (SemLoc.dma cc0_scratch8.sem : SemLoc sig) ≠ SemLoc.dma cc0_scratch5.sem by decide)), Finset.mem_erase.mpr ⟨(fun h => absurd (congrArg Prod.snd h) (show (SemLoc.dma cc0_scratch8.sem : SemLoc sig) ≠ SemLoc.dma cc0_scratch4.sem by decide)), (mem_ownCells (g := dcell d (cV L) (jV L) cc0_scratch8)).mpr ⟨rfl, by show (SemLoc.dma cc0_scratch8.sem : SemLoc sig).isScoped .scVector = true; decide⟩⟩⟩⟩⟩),
    SparseCore.bigSep_erase' (Finset.mem_erase.mpr ⟨(fun h => absurd (congrArg Prod.snd h) (show (SemLoc.dma cc0_scoped0.sem : SemLoc sig) ≠ SemLoc.dma cc0_scratch8.sem by decide)), Finset.mem_erase.mpr ⟨(fun h => absurd (congrArg Prod.snd h) (show (SemLoc.dma cc0_scoped0.sem : SemLoc sig) ≠ SemLoc.dma cc0_scratch7.sem by decide)), Finset.mem_erase.mpr ⟨(fun h => absurd (congrArg Prod.snd h) (show (SemLoc.dma cc0_scoped0.sem : SemLoc sig) ≠ SemLoc.dma cc0_scratch6.sem by decide)), Finset.mem_erase.mpr ⟨(fun h => absurd (congrArg Prod.snd h) (show (SemLoc.dma cc0_scoped0.sem : SemLoc sig) ≠ SemLoc.dma cc0_scratch5.sem by decide)), Finset.mem_erase.mpr ⟨(fun h => absurd (congrArg Prod.snd h) (show (SemLoc.dma cc0_scoped0.sem : SemLoc sig) ≠ SemLoc.dma cc0_scratch4.sem by decide)), (mem_ownCells (g := dcell d (cV L) (jV L) cc0_scoped0)).mpr ⟨rfl, by show (SemLoc.dma cc0_scoped0.sem : SemLoc sig).isScoped .scVector = true; decide⟩⟩⟩⟩⟩⟩)]

omit [FloatOps F] in
theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨(fun h => absurd (congrArg (fun b : DevRef τ sig => b.idx.val) h) (show ¬ ((1 : ℕ) = 0) by decide)), SparseCore.Cfg.mem_ownRefs_of_owner (p := Proc.scVector (cV L) (jV L)) (b := (Proc.scVector (cV L) (jV L)).devRef cc0_scratch1) rfl⟩),
    SparseCore.bigSep_erase' (Finset.mem_erase.mpr ⟨(fun h => absurd (congrArg (fun b : DevRef τ sig => b.idx.val) h) (show ¬ ((2 : ℕ) = 1) by decide)), Finset.mem_erase.mpr ⟨(fun h => absurd (congrArg (fun b : DevRef τ sig => b.idx.val) h) (show ¬ ((2 : ℕ) = 0) by decide)), SparseCore.Cfg.mem_ownRefs_of_owner (p := Proc.scVector (cV L) (jV L)) (b := (Proc.scVector (cV L) (jV L)).devRef cc0_scratch2) rfl⟩⟩)]

/-- The tile's own sixteen rows of the shared buffer, as the body slices them. -/
abbrev shRect (L : grid0.Coords) : Rect S256x224 := Rect.unit (s := S256x224) (k0_off3 L) S16x224.size (k0_off3_inb L)
abbrev shMine (L : grid0.Coords) : Memref sig .scVector .shared S16x224 .f32 := (shV).slice (shRect L) (fun _ => rfl)
/-- Rows 0 .. 223 of the shared buffer: the source of every zero plane. -/
abbrev shSrc : Memref sig .scVector .shared S224x224 .f32 :=
  (shV).slice (Rect.unit (s := S256x224) ![0, 0] S224x224.size inb_S256x224_S224x224_0_0) (fun _ => rfl)

omit [FloatOps F] in
theorem shRect_eq (L : grid0.Coords) : shRect L = blk (jL L) := by
  unfold shRect blk Rect.part Rect.block
  congr 1 <;> funext a
  · rw [k0_off3_eq]
    match a with
    | 0 => simp [Shape.partIx, Shape.partSize]; exact Nat.mul_comm _ _
    | 1 => simp [Shape.partIx, Shape.partSize]
  · match a with
    | 0 => simp [Shape.partSize]
    | 1 => simp [Shape.partSize]

omit [FloatOps F] in
theorem set_shMine (L : grid0.Coords) : (shMine L).view.set = blkSet (jL L) := by
  show ((shV).view.slice (shRect L)).set = ((shV).view.slice (blk (jL L))).set
  rw [shRect_eq]

end Cert.Proof.KI

end
-- ==== Proof.KITilePts.lean ====
/-
  The tile's resources respelt as the body addresses them (a plane through the slice at its literal chunk constant, a
  scratch through its whole memref), and what crosses the barrier: a tile's zeroed rows split into sixteen shares going
  out, a share of every tile's rows coming in, regrouped as the window of rows 0 .. 223 the zero copies read and the
  two row blocks beyond it.
-/
import proofs.«204282_g43688407335220_cont_8to1_c_395_12_alg».proof.Proof.KITilePre
import proofs.«204282_g43688407335220_cont_8to1_c_395_12_alg».proof.Proof.KIShares

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid0.Coords)

/-! ## Planes through the body's own slices -/

abbrev inPlW (w : BitVec 32) (h : ∀ a, (k0_off1 L w) a + S1x224x224.size a ≤ S768x224x224.size a) : Memref sig .scVector .hbm S224x224 .f32 :=
  ((xV).slice (Rect.unit (s := S768x224x224) (k0_off1 L w) S1x224x224.size h) (fun _ => rfl)).squeeze S224x224 squeezes_S1x224x224_S224x224
abbrev evPlW (w : BitVec 32) (h : ∀ a, (k0_off5 L w) a + S1x224x224.size a ≤ S1536x224x224.size a) : Memref sig .scVector .hbm S224x224 .f32 :=
  ((oV).slice (Rect.unit (s := S1536x224x224) (k0_off5 L w) S1x224x224.size h) (fun _ => rfl)).squeeze S224x224 squeezes_S1x224x224_S224x224
abbrev odPlW (w : BitVec 32) (h : ∀ a, (k0_off4 L w) a + S1x224x224.size a ≤ S1536x224x224.size a) : Memref sig .scVector .hbm S224x224 .f32 :=
  ((oV).slice (Rect.unit (s := S1536x224x224) (k0_off4 L w) S1x224x224.size h) (fun _ => rfl)).squeeze S224x224 squeezes_S1x224x224_S224x224

omit [FloatOps F] in
theorem pts_inW (w : BitVec 32) (h) (r : Fin 24) (hw : w = BitVec.ofNat 32 (32 * r.val)) (f : Buf (Elt F) (v0Loc d)) :
    ((inPlW L w h).view.loc (V d (cV L) (jV L)) ↦[(inPlW L w h).view.set]{fullShare} f : sProp 𝕄) = v0Loc d ↦[inSet L r]{fullShare} f := by
  subst hw; rfl
omit [FloatOps F] in
theorem pts_evW (w : BitVec 32) (h) (r : Fin 24) (hw : w = BitVec.ofNat 32 (32 * r.val)) (f : Buf (Elt F) (v1Loc d)) :
    ((evPlW L w h).view.loc (V d (cV L) (jV L)) ↦[(evPlW L w h).view.set]{fullShare} f : sProp 𝕄) = v1Loc d ↦[evSet L r]{fullShare} f := by
  subst hw; rfl
omit [FloatOps F] in
theorem pts_odW (w : BitVec 32) (h) (r : Fin 24) (hw : w = BitVec.ofNat 32 (32 * r.val)) (f : Buf (Elt F) (v1Loc d)) :
    ((odPlW L w h).view.loc (V d (cV L) (jV L)) ↦[(odPlW L w h).view.set]{fullShare} f : sProp 𝕄) = v1Loc d ↦[odSet L r]{fullShare} f := by
  subst hw; rfl

omit [FloatOps F] in
theorem pts_b0 (f : Buf (Elt F) ((V d (cV L) (jV L)).loc cc0_scratch0)) :
    ((b0V).view.loc (V d (cV L) (jV L)) ↦{fullShare} f : sProp 𝕄) = (V d (cV L) (jV L)).loc cc0_scratch0 ↦{fullShare} f := rfl
omit [FloatOps F] in
theorem pts_b1 (f : Buf (Elt F) ((V d (cV L) (jV L)).loc cc0_scratch1)) :
    ((b1V).view.loc (V d (cV L) (jV L)) ↦{fullShare} f : sProp 𝕄) = (V d (cV L) (jV L)).loc cc0_scratch1 ↦{fullShare} f := rfl
omit [FloatOps F] in
theorem pts_zs (f : Buf (Elt F) ((V d (cV L) (jV L)).loc cc0_scratch2)) :
    ((zsV).view.loc (V d (cV L) (jV L)) ↦{fullShare} f : sProp 𝕄) = (V d (cV L) (jV L)).loc cc0_scratch2 ↦{fullShare} f := rfl

omit [FloatOps F] in
theorem pts_shMine (f : Buf (Elt F) (shLoc d (cV L))) :
    ((shMine L).view.loc (V d (cV L) (jV L)) ↦[(shMine L).view.set]{fullShare} f : sProp 𝕄) = shLoc d (cV L) ↦[blkSet (jL L)]{fullShare} f := by
  rw [set_shMine]; rfl

/-! ## Across the barrier -/

/-- Arriving: the tile's own rows, zero, at the full share, are one share for each tile's round. -/
theorem pays_intro : (shLoc d (cV L) ↦[blkSet (jL L)]{fullShare} shZ (F := F) d (cV L) : sProp 𝕄)
    ⊢ (bigSep Finset.univ fun j : Fin (grid0.bound 1) => (bRd (F := F)).payload (bcell d (cV L) (j.castLE hsub0)) 0 (jV L).val : sProp 𝕄) := by
  refine (shares16 (F := F) (ℓ := shLoc d (cV L)) (blkSet (jL L)) (shZ (F := F) d (cV L))).1.trans (Entails.of_eq ?_)
  refine bigSep_congr fun j _ => ?_
  show _ = bPay (bcell d (cV L) (j.castLE hsub0)) (jV L).val
  unfold bPay; dsimp only
  rw [dif_pos (show (jV L).val < 16 from (L 1).isLt)]
  rfl

/-- Leaving: what the tile's own round collected is the tile's share of every tile's rows. -/
theorem pays_elim : (bigSep ((bRd (F := F)).duties (bcell d (cV L) (jV L)) 0 \ ∅) fun n => (bRd (F := F)).payload (bcell d (cV L) (jV L)) 0 n)
    ⊢ (bigSep Finset.univ fun n : Fin 16 => shBlk (F := F) d (cV L) n (jL L).val : sProp 𝕄) := by
  rw [Finset.sdiff_empty, bRd_duties₀, SparseCore.bigSep_image_of_injOn (fun a _ b _ e => Fin.val_injective e)]
  refine Entails.of_eq (bigSep_congr fun n _ => ?_)
  show bPay (bcell d (cV L) (jV L)) n.val = _
  unfold bPay; dsimp only
  rw [dif_pos n.isLt]
  rfl

end Cert.Proof.KI

end
-- ==== Proof.KIZeroFill.lean ====
/-
  The zero fill of a tile's 16 x 224 scratch.

  Two nested counted loops store a vector of sixteen zeros at row k1, columns 16 k2 .. 16 k2 + 15, for
  k1 < 16 and k2 < 14.  Before outer trip k1 rows 0 .. k1 - 1 are zero; within it, before inner trip k2,
  the entries (k1, c) with c < 16 k2 are zero as well.  A store of the zero vector at row k1, columns
  16 k2 .. 16 k2 + 15 extends that by sixteen entries; 14 * 16 = 224 closes a row, sixteen rows close the
  buffer.
-/
import proofs.«204282_g43688407335220_cont_8to1_c_395_12_alg».proof.Proof.KISetup
import Idealize.ShloMosaic.Lib.WritesUnit

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The all-zero contents of the tile's 16 x 224 scratch. -/
def zsZ (d : Dev nD) (L : grid0.Coords) : Buf (Elt F) ((V d (cV L) (jV L)).loc cc0_scratch2) := fun _ => (Cert.Spec.zero : F .f32)

theorem trips1 : Scf.trips k0_t1_loop.lb k0_t1_loop.ub k0_t1_loop.st = 16 := by decide
theorem trips2 : Scf.trips k0_t2_loop.lb k0_t2_loop.ub k0_t2_loop.st = 14 := by decide

/-- The entries known to be zero before inner trip k2 of outer trip k1: the rows above k1, and the first 16 k2
    entries of row k1. -/
def Done (k1 k2 : ℕ) (y : S16x224.Idx) : Prop := (y 0).val < k1 ∨ ((y 0).val = k1 ∧ (y 1).val < 16 * k2)

/-- The scratch held whole at some contents that are zero on the entries done. -/
def zinv (d : Dev nD) (L : grid0.Coords) (k1 k2 : ℕ) : sProp 𝕄 :=
  iprop(∃ g : Buf (Elt F) ((zsV).view.loc (V d (cV L) (jV L))),
    ((zsV).view.loc (V d (cV L) (jV L)) ↦{fullShare} g)
      ∗ ⌜∀ y : S16x224.Idx, Done k1 k2 y → (zsV).view.read (Elt F) g y = (Cert.Spec.zero : F .f32)⌝)

theorem done_start (y : S16x224.Idx) : ¬ Done 0 0 y := by
  unfold Done; omega

theorem done_row_end (k1 : ℕ) (y : S16x224.Idx) (h : Done (k1 + 1) 0 y) : Done k1 14 y := by
  have h1 : (y 1).val < 224 := (y 1).isLt
  unfold Done at *; omega

theorem done_all (y : S16x224.Idx) : Done 16 0 y := by
  have h0 : (y 0).val < 16 := (y 0).isLt
  unfold Done; omega

/-- One store of the zero vector at row k1, columns 16 k2 .. 16 k2 + 15: the entries done before inner trip k2 + 1
    read zero, the sixteen new ones off the payload, the others as before. -/
theorem read_store_zero {κ : Kind} {sp : Space} (v : View sig κ sp S16x224 .f32) (g : v.ty.Contents (Elt F))
    (k1 : Fin k0_t1_loop.trips) (k2 : Fin k0_t2_loop.trips)
    (hg : ∀ y : S16x224.Idx, Done k1.val k2.val y → v.read (Elt F) g y = (Cert.Spec.zero : F .f32))
    (y : S16x224.Idx) (hy : Done k1.val (k2.val + 1) y) :
    v.read (Elt F) (v.writes (Elt F) g [⟨Rect.unit (s := S16x224) (k0_off2 k1 k2) S1x16.size (k0_off2_inb k1 k2), k0_pay1 (F := F)⟩]) y
      = (Cert.Spec.zero : F .f32) := by
  rw [View.read_writes_cons_unit v g (k0_off2_inb k1 k2) _ [] y (k0_off2_eq k1 k2)]
  split
  · rfl
  · next h =>
    rw [View.writes_nil]
    apply hg
    by_contra hnd
    apply h
    refine Fin.forall_fin_two.mpr ⟨?_, ?_⟩
    · show k1.val ≤ (y 0).val ∧ (y 0).val < k1.val + 1
      unfold Done at *; omega
    · show 16 * k2.val ≤ (y 1).val ∧ (y 1).val < 16 * k2.val + 16
      unfold Done at *; omega

theorem zero_fill (d : Dev nD) (L : grid0.Coords) (f : Buf (Elt F) ((V d (cV L) (jV L)).loc cc0_scratch2)) (Q : Unit → sProp 𝕄) :
    iprop(((zsV).view.loc (V d (cV L) (jV L)) ↦{fullShare} f) ∗ (((zsV).view.loc (V d (cV L) (jV L)) ↦{fullShare} zsZ (F := F) d L) -∗ Q ⟨⟩))
      ⊢ wp frame (wpE (defs₀ (F := F)) 𝒱₀ (V d (cV L) (jV L)) none) Set.univ
          (Scf.Loop.for k0_t1_loop k0_t1_ok ⟨⟩ (k0_t1_body L xV (Memref.isWhole_whole _) oV (Memref.isWhole_whole _) b0V (Memref.isWhole_whole _) b1V (Memref.isWhole_whole _)
            zsV (Memref.isWhole_whole _) shV (Memref.isWhole_whole _) cc0_scratch4 cc0_scratch5 cc0_scratch6 cc0_scratch7 cc0_scratch8 cc0_scoped0)) Q := by
  iintro ⟨Hz, HQ⟩
  sl_for (fun k1 (_ : Unit) => zinv (F := F) d L k1 0) $$ [Hz HQ]
  case region =>
    intro k1 _
    unfold zinv
    iintro ⟨%g, Hz, %hg⟩
    sl_exec
    sl_for (fun k2 (_ : PUnit) => zinv (F := F) d L k1.val k2) $$ [Hz]
    case region =>
      intro k2 _
      unfold zinv
      iintro ⟨%g', Hz, %hg'⟩
      sl_exec
      sl_step
      iexists _
      isplitl [Hz]; · iexact Hz
      ipureintro
      exact fun y hy => read_store_zero (F := F) (zsV).view g' k1 k2 hg' y hy
    · unfold zinv
      iexists g
      isplitl [Hz]; · iexact Hz
      ipureintro; exact hg
    iintro %_ HI
    unfold zinv
    icases HI with ⟨%g', Hz, %hg'⟩
    sl_exec
    sl_step
    iexists g'
    isplitl [Hz]; · iexact Hz
    ipureintro
    intro y hy
    apply hg'
    rw [trips2]
    exact done_row_end k1.val y hy
  · isplitl [Hz]
    · unfold zinv
      iexists f
      isplitl [Hz]; · iexact Hz
      ipureintro
      exact fun y hy => absurd hy (done_start y)
    · iintro %_ HI
      unfold zinv
      icases HI with ⟨%g, Hz, %hg⟩
      rw [trips1] at hg
      obtain rfl : g = zsZ (F := F) d L := funext fun y => hg y (done_all y)
      iapply HQ
      iexact Hz

end Cert.Proof.KI

end
-- ==== Proof.KIReads.lean ====
/-
  What the tile's memrefs read off the contents the proof names.

  A buffer held by the elements under a memref's view is determined, there, by what the view reads: two contents
  that read the same through the view agree on every element under it.

  The views of a tile's planes.  Entry x of a unit-thick slab at leading coordinate p of an [n, 224, 224] array,
  squeezed to a plane, is the array's entry (p, x 0, x 1).  So through the tile's r-th even output plane the final
  contents read what its r-th input plane reads off the input (output plane 2 p is input plane p), through the r-th
  odd output plane they read zero, and constant contents read constant through any view.
-/
import proofs.«204282_g43688407335220_cont_8to1_c_395_12_alg».proof.Proof.KITilePre
import proofs.«204282_g43688407335220_cont_8to1_c_395_12_alg».proof.Proof.KIPlanes
import proofs.«204282_g43688407335220_cont_8to1_c_395_12_alg».proof.Proof.KIZeroFill

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI

variable {F : FTy → Type}

local notation "𝕄" => MT nD τ sig (HIx 1) (Elt F) ℕ UU ℕ

/-! ## Held by a memref's own elements, a buffer is what the memref reads -/

/-- Contents that read the same through a memref's view are the same buffer, held by the view's own elements. -/
theorem pts_of_read {cs : Space} {s : Shape} {e : EltTy} (c : Thread nD τ) (m : Memref sig c.2.kind cs s e)
    (g g' : Buf (Elt F) (m.view.loc c)) (q : PosShare TreeShare) (h : m.view.read (Elt F) g = m.view.read (Elt F) g') :
    (m.view.loc c ↦[m.view.set]{q} g : sProp 𝕄) = m.view.loc c ↦[m.view.set]{q} g' :=
  pointsTo_congr fun i hi => by
    obtain ⟨x, -, rfl⟩ := Finset.mem_map.mp hi
    have hx := congrFun h x
    rw [View.read_apply, View.read_apply] at hx
    exact (cast_inj _).mp hx

variable [FloatOps F]

/-! ## Constant contents read constant -/

theorem read_shZ_src (d : Dev nD) (c : Fin τ.nSC) :
    (shSrc).view.read (Elt F) (shZ (F := F) d c) = fun _ => (Cert.Spec.zero : F .f32) := rfl

theorem read_shZ_mine (d : Dev nD) (c : Fin τ.nSC) (L : grid0.Coords) :
    (shMine L).view.read (Elt F) (shZ (F := F) d c) = fun _ => (Cert.Spec.zero : F .f32) := rfl

theorem read_zsZ (d : Dev nD) (L : grid0.Coords) :
    (zsV).view.read (Elt F) (zsZ (F := F) d L) = fun _ => (Cert.Spec.zero : F .f32) := rfl

/-! ## The odd output planes read zero -/

theorem read_res_od (y : (d : Dev nD) → Buf (Elt F) (v0Loc d)) (d : Dev nD) (L : grid0.Coords) (r : Fin 24) :
    (odPl L r).view.read (Elt F) (res y d) = fun _ => (Cert.Spec.zero : F .f32) := by
  funext x
  show Cert.Spec.spreadPlanes (F := F) (y d) ((odPl L r).view.emb x) = Cert.Spec.zero
  exact spreadPlanes_of_mem_odSet (y d) (View.emb_mem_set _ x)

/-! ## The even output planes read the input planes -/

/-- Squeezing a plane out of a unit-thick slab: the plane's entry x is the slab's entry (0, x 0, x 1). -/
theorem squeeze_idx (h : S224x224.numel = S1x224x224.numel) (x : S224x224.Idx) :
    Shape.reshapeEquiv h x = (Fin.cons ⟨0, Nat.one_pos⟩ x : S1x224x224.Idx) :=
  Shape.reshapeEquiv_cons_one (n := 2) (d := ![224, 224]) h x

/-- Entry x of the plane squeezed out of the unit-thick slab at leading coordinate p of an [n, 224, 224] array is the
    array's entry (p, x 0, x 1). -/
theorem slab_emb {n : ℕ} (off : Fin 3 → ℕ) (p : ℕ) (hoff : off = ![p, 0, 0])
    (inb : ∀ a, off a + S1x224x224.size a ≤ (⟨3, ![n, 224, 224]⟩ : Shape).size a)
    (h : S224x224.numel = S1x224x224.numel) (x : S224x224.Idx) :
    (((Rect.unit (s := ⟨3, ![n, 224, 224]⟩) off S1x224x224.size inb).emb (Shape.reshapeEquiv h x)) 0).val = p
      ∧ (((Rect.unit (s := ⟨3, ![n, 224, 224]⟩) off S1x224x224.size inb).emb (Shape.reshapeEquiv h x)) 1).val = (x 0).val
      ∧ (((Rect.unit (s := ⟨3, ![n, 224, 224]⟩) off S1x224x224.size inb).emb (Shape.reshapeEquiv h x)) 2).val = (x 1).val := by
  subst hoff
  rw [squeeze_idx h x]
  refine ⟨?_, ?_, ?_⟩
  · show p + 1 * 0 = p; omega
  · show 0 + 1 * (x 0).val = (x 0).val; omega
  · show 0 + 1 * (x 1).val = (x 1).val; omega

theorem read_res_ev (y : (d : Dev nD) → Buf (Elt F) (v0Loc d)) (d : Dev nD) (L : grid0.Coords) (r : Fin 24) :
    (evPl L r).view.read (Elt F) (res y d) = (inPl L r).view.read (Elt F) (y d) := by
  funext x
  show Cert.Spec.spreadPlanes (F := F) (y d) ((evPl L r).view.emb x) = y d ((inPl L r).view.emb x)
  rw [spreadPlanes_of_mem_evSet (y d) (View.emb_mem_set _ x)]
  obtain ⟨-, e1, e2⟩ := slab_emb (n := 1536) _ _ (k0_off5_eq L r) (k0_off5_inb L r) squeezes_S1x224x224_S224x224.numel_eq x
  obtain ⟨i0, i1, i2⟩ := slab_emb (n := 768) _ _ (k0_off1_eq L r) (k0_off1_inb L r) squeezes_S1x224x224_S224x224.numel_eq x
  refine congrArg (y d) (funext fun a => ?_)
  match a with
  | ⟨0, _⟩ => exact Fin.ext i0.symm
  | ⟨1, _⟩ => exact Fin.ext (e1.trans i1.symm)
  | ⟨2, _⟩ => exact Fin.ext (e2.trans i2.symm)

end Cert.Proof.KI

end
-- ==== Proof.KIShRegroup.lean ====
/-
  The shared buffer's sixteen row blocks, regrouped.

  Block n of the 256 x 224 shared buffer is rows 16 n .. 16 n + 15: an element lies in block n exactly when its row
  divided by 16 is n.  The window of rows 0 .. 223 that every zero plane is copied from is therefore blocks 0 .. 13
  together (224 = 14 * 16), and the sixteen blocks are that window, block 14 and block 15.  The blocks are pairwise
  disjoint, so holding the buffer block by block at one share is holding the window, block 14 and block 15 at that
  share, and the other way round.
-/
import proofs.«204282_g43688407335220_cont_8to1_c_395_12_alg».proof.Proof.KITilePre

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The element sets -/

/-- A block's elements are its rectangle's. -/
theorem blkSet_eq (n : Fin 16) : blkSet n = (blk n).set := by
  show ((View.whole (cc0_scratch3 : Ref sig .scVector)).slice (blk n)).set = _
  rw [View.set_slice]; exact Finset.map_refl

/-- An element lies in block n exactly when its row divided by 16 is n. -/
theorem mem_blkSet (n : Fin 16) (i : S256x224.Idx) : i ∈ blkSet n ↔ (i 0).val / 16 = n.val := by
  have h0 : (i 0).val < 256 := (i 0).isLt
  have h1 : (i 1).val < 224 := (i 1).isLt
  have hn : n.val < 16 := n.isLt
  rw [blkSet_eq]
  show i ∈ (Rect.unit (s := S256x224) _ _ _).set ↔ _
  rw [Rect.mem_set_unit, Fin.forall_fin_two]
  show (n.val * 16 ≤ (i 0).val ∧ (i 0).val < n.val * 16 + 16) ∧ (0 * 224 ≤ (i 1).val ∧ (i 1).val < 0 * 224 + 224) ↔ _
  constructor
  · intro h; omega
  · intro h; omega

/-- The window's elements are its rectangle's. -/
theorem srcSet_eq_rect :
    (shSrc).view.set = (Rect.unit (s := S256x224) ![0, 0] S224x224.size inb_S256x224_S224x224_0_0).set := by
  show ((View.whole (cc0_scratch3 : Ref sig .scVector)).slice _).set = _
  rw [View.set_slice]; exact Finset.map_refl

/-- An element lies in the window exactly when its row is below 224. -/
theorem mem_srcSet (i : S256x224.Idx) : i ∈ (shSrc).view.set ↔ (i 0).val < 224 := by
  have h1 : (i 1).val < 224 := (i 1).isLt
  rw [srcSet_eq_rect, Rect.mem_set_unit, Fin.forall_fin_two]
  show (0 ≤ (i 0).val ∧ (i 0).val < 0 + 224) ∧ (0 ≤ (i 1).val ∧ (i 1).val < 0 + 224) ↔ _
  constructor
  · intro h; omega
  · intro h; omega

/-- The window is blocks 0 .. 13 together. -/
theorem srcSet_eq : (shSrc).view.set = (Finset.univ.filter fun n : Fin 16 => n.val < 14).biUnion blkSet := by
  ext i
  rw [mem_srcSet, Finset.mem_biUnion]
  have h0 : (i 0).val < 256 := (i 0).isLt
  constructor
  · intro h
    refine ⟨⟨(i 0).val / 16, by omega⟩, Finset.mem_filter.2 ⟨Finset.mem_univ _, ?_⟩, (mem_blkSet _ i).2 rfl⟩
    show (i 0).val / 16 < 14
    omega
  · rintro ⟨n, hn, hi⟩
    have hn' : n.val < 14 := (Finset.mem_filter.1 hn).2
    have hi' := (mem_blkSet n i).1 hi
    omega

/-- Different blocks share no element. -/
theorem blk_disjoint (s : Finset (Fin 16)) :
    ∀ n ∈ s, ∀ n' ∈ s, n ≠ n' → Disjoint (blkSet n) (blkSet n') :=
  fun n _ n' _ h => by rw [blkSet_eq, blkSet_eq]; exact Rect.part_disjoint hdiv h

/-! ## The regrouping -/

variable [FloatOps F]

/-- The sixteen row blocks at one share are the window of rows 0 .. 223, block 14 and block 15 at that share. -/
theorem src_split (d : Dev nD) (c : Fin τ.nSC) (k : ℕ) :
    (bigSep Finset.univ fun n : Fin 16 => shBlk (F := F) d c n k : sProp 𝕄)
      ⊣⊢ iprop((shLoc d c ↦[(shSrc).view.set]{σ k} shZ (F := F) d c) ∗ shBlk (F := F) d c 14 k ∗ shBlk (F := F) d c 15 k) := by
  have h : (bigSep Finset.univ fun n : Fin 16 => shBlk (F := F) d c n k : sProp 𝕄)
      = iprop((shLoc d c ↦[(shSrc).view.set]{σ k} shZ (F := F) d c) ∗ shBlk (F := F) d c 14 k ∗ shBlk (F := F) d c 15 k) := by
    rw [show (Finset.univ : Finset (Fin 16)) = (Finset.univ.filter fun n : Fin 16 => n.val < 14) ∪ {14, 15} from by decide,
      bigSep_union (by decide), bigSep_insert (by decide), bigSep_singleton, srcSet_eq,
      pointsTo_biUnion (Finset.univ.filter fun n : Fin 16 => n.val < 14) (ℓ := shLoc d c) blkSet (blk_disjoint _)]
    rfl
  exact BIBase.BiEntails.of_eq h

end Cert.Proof.KI

end
-- ==== Proof.KIValue.lean ====
/-
  What the copies leave, restated as the result.

  A plane held by its own elements is determined by what its view reads.  An even output plane was written whole with
  what a plane buffer read, and the buffer had been written whole with what the input plane's view reads of the input:
  so the even plane reads the input plane, which is what the result reads there.  An odd output plane was written whole
  with what rows 0 .. 223 of the shared buffer read, all zero: what the result reads there.  The tile's own sixteen
  shared rows were written whole with what its zeroed scratch reads.
-/
import proofs.«204282_g43688407335220_cont_8to1_c_395_12_alg».proof.Proof.KITilePts
import proofs.«204282_g43688407335220_cont_8to1_c_395_12_alg».proof.Proof.KIReads
import proofs.«204282_g43688407335220_cont_8to1_c_395_12_alg».proof.Proof.KIShRegroup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable [∀ e, Nonempty (Elt F e)]
variable (y : (d : Dev nD) → Buf (Elt F) (v0Loc d))
variable (d : Dev nD) (L : grid0.Coords)

/-- An even output plane after its copy: the result there. -/
theorem ev_final (w : BitVec 32) (h) (h') (r : Fin 24) (hw : w = BitVec.ofNat 32 (32 * r.val)) (p : S224x224.Idx → Elt F .f32)
    (hp : p = (inPlW L w h').view.read (Elt F) (y d)) (fo : Buf (Elt F) (v1Loc d)) :
    ((evPlW L w h).view.loc (V d (cV L) (jV L)) ↦[(evPlW L w h).view.set]{fullShare}
        (evPlW L w h).view.writes (Elt F) fo [⟨Rect.whole S224x224, p⟩] : sProp 𝕄)
      = v1Loc d ↦[evSet L r]{fullShare} res y d := by
  subst hw; subst hp
  rw [pts_of_read (F := F) (V d (cV L) (jV L)) (evPl L r) _ (res y d) fullShare (by rw [View.read_writes_whole]; exact (read_res_ev (F := F) y d L r).symm)]

/-- An odd output plane after its copy: the result there, zero. -/
theorem od_final (w : BitVec 32) (h) (r : Fin 24) (hw : w = BitVec.ofNat 32 (32 * r.val)) (p : S224x224.Idx → Elt F .f32)
    (hp : p = fun _ => (Cert.Spec.zero : F .f32)) (fo : Buf (Elt F) (v1Loc d)) :
    ((odPlW L w h).view.loc (V d (cV L) (jV L)) ↦[(odPlW L w h).view.set]{fullShare}
        (odPlW L w h).view.writes (Elt F) fo [⟨Rect.whole S224x224, p⟩] : sProp 𝕄)
      = v1Loc d ↦[odSet L r]{fullShare} res y d := by
  subst hw; subst hp
  rw [pts_of_read (F := F) (V d (cV L) (jV L)) (odPl L r) _ (res y d) fullShare (by rw [View.read_writes_whole]; exact (read_res_od (F := F) y d L r).symm)]

/-- The tile's own shared rows after the copy of its zeroed scratch: zero. -/
theorem sh_final (p : S16x224.Idx → Elt F .f32) (hp : p = fun _ => (Cert.Spec.zero : F .f32)) (fo : Buf (Elt F) (shLoc d (cV L))) :
    ((shMine L).view.loc (V d (cV L) (jV L)) ↦[(shMine L).view.set]{fullShare}
        (shMine L).view.writes (Elt F) fo [⟨Rect.whole S16x224, p⟩] : sProp 𝕄)
      = shLoc d (cV L) ↦[blkSet (jL L)]{fullShare} shZ (F := F) d (cV L) := by
  subst hp
  rw [pts_of_read (F := F) (V d (cV L) (jV L)) (shMine L) _ (shZ (F := F) d (cV L)) fullShare (by rw [View.read_writes_whole]; exact (read_shZ_mine (F := F) d (cV L) L).symm)]
  exact pts_shMine (F := F) d L _

omit [∀ e, Nonempty (Elt F e)] [FloatOps F] in
/-- A wait at the kernel's own index stays within the bound on the waits recorded. -/
theorem wb_none {W W' : Waits sig (HIx 1)} (a : SemLoc sig) (h : ∀ p ∈ W', p ∈ W ∨ p.2 = none ∨ p.2 = some (0 : Fin 1)) :
    ∀ p ∈ insert (a, (default : HIx 1)) W', p ∈ W ∨ p.2 = none ∨ p.2 = some (0 : Fin 1) := by
  intro p hp
  rcases Finset.mem_insert.mp hp with rfl | hp
  · exact .inr (.inl rfl)
  · exact h p hp
omit [∀ e, Nonempty (Elt F e)] [FloatOps F] in
/-- So does the barrier's wait, at the call's index. -/
theorem wb_call {W W' : Waits sig (HIx 1)} (a : SemLoc sig) (h : ∀ p ∈ W', p ∈ W ∨ p.2 = none ∨ p.2 = some (0 : Fin 1)) :
    ∀ p ∈ insert (a, (some 0 : HIx 1)) W', p ∈ W ∨ p.2 = none ∨ p.2 = some (0 : Fin 1) := by
  intro p hp
  rcases Finset.mem_insert.mp hp with rfl | hp
  · exact .inr (.inr rfl)
  · exact h p hp

end Cert.Proof.KI

end
-- ==== Proof.KITile.lean ====
/-
  One tile's task.

  The tile starts the copies of its first two input planes into its two plane buffers, fills its 16 x 224 scratch
  with zeros, sends that to its own sixteen rows of the SparseCore's shared buffer and waits for it, and arrives at the
  barrier, handing every tile of the SparseCore a sixteenth read share of those rows.  Leaving the barrier it holds a
  sixteenth share of all 256 rows, all zero.  From then on, for each of its twenty-four planes in turn, it starts a copy
  of rows 0 .. 223 of the shared buffer to the odd output plane (twenty-four copies on one semaphore, none waited for
  until the end; they only READ the shared rows, and write twenty-four different planes), waits for the input plane to
  land in a plane buffer, copies the buffer out to the even output plane, and, once that copy is done, refills the
  buffer with the input plane two steps ahead.  At the end it drains the twenty-four zero copies.

  What it leaves: output plane 2 p holds input plane p, output plane 2 p + 1 holds zeros, for each of its planes p.
-/
import proofs.«204282_g43688407335220_cont_8to1_c_395_12_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (y : (d : Dev nD) → Buf (Elt F) (v0Loc d)) (o : (d : Dev nD) → Buf (Elt F) (v1Loc d))
variable (d : Dev nD) (L : grid0.Coords)

set_option maxHeartbeats 8000000 in
theorem tile_body [∀ e, Nonempty (Elt F e)] (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit d (cV L) (jV L)
        ∗ (goH y o d L ∗ ∃ f, shLoc d (cV L) ↦[blkSet (jL L)]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__body L xV (Memref.isWhole_whole _) oV (Memref.isWhole_whole _) b0V (Memref.isWhole_whole _) b1V (Memref.isWhole_whole _) zsV (Memref.isWhole_whole _) shV (Memref.isWhole_whole _) cc0_scratch4 cc0_scratch5 cc0_scratch6 cc0_scratch7 cc0_scratch8 cc0_scoped0)
          fun _ => iprop((tdH y d L ∗ bigSep Finset.univ fun n : Fin 16 => shBlk (F := F) d (cV L) n (jL L).val)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold bkit goH tdH
  rw [bigSep_fin24, bigSep_fin24]
  iintro ⟨#Hlv, ⟨⟨%κ, #Hinv⟩, Htoks, #Hrch, Hat, Hcred⟩, ⟨⟨⟨Hi0, He0, Ho0⟩, ⟨Hi1, He1, Ho1⟩, ⟨Hi2, He2, Ho2⟩, ⟨Hi3, He3, Ho3⟩, ⟨Hi4, He4, Ho4⟩, ⟨Hi5, He5, Ho5⟩, ⟨Hi6, He6, Ho6⟩, ⟨Hi7, He7, Ho7⟩, ⟨Hi8, He8, Ho8⟩, ⟨Hi9, He9, Ho9⟩, ⟨Hi10, He10, Ho10⟩, ⟨Hi11, He11, Ho11⟩, ⟨Hi12, He12, Ho12⟩, ⟨Hi13, He13, Ho13⟩, ⟨Hi14, He14, Ho14⟩, ⟨Hi15, He15, Ho15⟩, ⟨Hi16, He16, Ho16⟩, ⟨Hi17, He17, Ho17⟩, ⟨Hi18, He18, Ho18⟩, ⟨Hi19, He19, Ho19⟩, ⟨Hi20, He20, Ho20⟩, ⟨Hi21, He21, Ho21⟩, ⟨Hi22, He22, Ho22⟩, ⟨Hi23, He23, Ho23⟩⟩, %fsh, Hsh⟩, ⟨⟨%f0, Hb0⟩, ⟨%f1, Hb1⟩, ⟨%fz, Hzs⟩, Hbufs⟩, ⟨Hs4, Hs5, Hs6, Hs7, Hs8, Hsc, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hsh' := (Entails.of_eq (pts_shMine (F := F) d L _).symm) $$ Hsh
  ihave Hb0' := (Entails.of_eq (pts_b0 (F := F) d L _).symm) $$ Hb0
  ihave Hb1' := (Entails.of_eq (pts_b1 (F := F) d L _).symm) $$ Hb1
  ihave Hzs' := (Entails.of_eq (pts_zs (F := F) d L _).symm) $$ Hzs
  ihave Hi0' := (Entails.of_eq (pts_inW (F := F) d L 0#32 (k0_off1_inb L 0) 0 rfl _).symm) $$ Hi0
  ihave He0' := (Entails.of_eq (pts_evW (F := F) d L 0#32 (k0_off5_inb L 0) 0 rfl _).symm) $$ He0
  ihave Ho0' := (Entails.of_eq (pts_odW (F := F) d L 0#32 (k0_off4_inb L 0) 0 rfl _).symm) $$ Ho0
  ihave Hi1' := (Entails.of_eq (pts_inW (F := F) d L 32#32 (k0_off1_inb L 1) 1 rfl _).symm) $$ Hi1
  ihave He1' := (Entails.of_eq (pts_evW (F := F) d L 32#32 (k0_off5_inb L 1) 1 rfl _).symm) $$ He1
  ihave Ho1' := (Entails.of_eq (pts_odW (F := F) d L 32#32 (k0_off4_inb L 1) 1 rfl _).symm) $$ Ho1
  ihave Hi2' := (Entails.of_eq (pts_inW (F := F) d L 64#32 (k0_off1_inb L 2) 2 rfl _).symm) $$ Hi2
  ihave He2' := (Entails.of_eq (pts_evW (F := F) d L 64#32 (k0_off5_inb L 2) 2 rfl _).symm) $$ He2
  ihave Ho2' := (Entails.of_eq (pts_odW (F := F) d L 64#32 (k0_off4_inb L 2) 2 rfl _).symm) $$ Ho2
  ihave Hi3' := (Entails.of_eq (pts_inW (F := F) d L 96#32 (k0_off1_inb L 3) 3 rfl _).symm) $$ Hi3
  ihave He3' := (Entails.of_eq (pts_evW (F := F) d L 96#32 (k0_off5_inb L 3) 3 rfl _).symm) $$ He3
  ihave Ho3' := (Entails.of_eq (pts_odW (F := F) d L 96#32 (k0_off4_inb L 3) 3 rfl _).symm) $$ Ho3
  ihave Hi4' := (Entails.of_eq (pts_inW (F := F) d L 128#32 (k0_off1_inb L 4) 4 rfl _).symm) $$ Hi4
  ihave He4' := (Entails.of_eq (pts_evW (F := F) d L 128#32 (k0_off5_inb L 4) 4 rfl _).symm) $$ He4
  ihave Ho4' := (Entails.of_eq (pts_odW (F := F) d L 128#32 (k0_off4_inb L 4) 4 rfl _).symm) $$ Ho4
  ihave Hi5' := (Entails.of_eq (pts_inW (F := F) d L 160#32 (k0_off1_inb L 5) 5 rfl _).symm) $$ Hi5
  ihave He5' := (Entails.of_eq (pts_evW (F := F) d L 160#32 (k0_off5_inb L 5) 5 rfl _).symm) $$ He5
  ihave Ho5' := (Entails.of_eq (pts_odW (F := F) d L 160#32 (k0_off4_inb L 5) 5 rfl _).symm) $$ Ho5
  ihave Hi6' := (Entails.of_eq (pts_inW (F := F) d L 192#32 (k0_off1_inb L 6) 6 rfl _).symm) $$ Hi6
  ihave He6' := (Entails.of_eq (pts_evW (F := F) d L 192#32 (k0_off5_inb L 6) 6 rfl _).symm) $$ He6
  ihave Ho6' := (Entails.of_eq (pts_odW (F := F) d L 192#32 (k0_off4_inb L 6) 6 rfl _).symm) $$ Ho6
  ihave Hi7' := (Entails.of_eq (pts_inW (F := F) d L 224#32 (k0_off1_inb L 7) 7 rfl _).symm) $$ Hi7
  ihave He7' := (Entails.of_eq (pts_evW (F := F) d L 224#32 (k0_off5_inb L 7) 7 rfl _).symm) $$ He7
  ihave Ho7' := (Entails.of_eq (pts_odW (F := F) d L 224#32 (k0_off4_inb L 7) 7 rfl _).symm) $$ Ho7
  ihave Hi8' := (Entails.of_eq (pts_inW (F := F) d L 256#32 (k0_off1_inb L 8) 8 rfl _).symm) $$ Hi8
  ihave He8' := (Entails.of_eq (pts_evW (F := F) d L 256#32 (k0_off5_inb L 8) 8 rfl _).symm) $$ He8
  ihave Ho8' := (Entails.of_eq (pts_odW (F := F) d L 256#32 (k0_off4_inb L 8) 8 rfl _).symm) $$ Ho8
  ihave Hi9' := (Entails.of_eq (pts_inW (F := F) d L 288#32 (k0_off1_inb L 9) 9 rfl _).symm) $$ Hi9
  ihave He9' := (Entails.of_eq (pts_evW (F := F) d L 288#32 (k0_off5_inb L 9) 9 rfl _).symm) $$ He9
  ihave Ho9' := (Entails.of_eq (pts_odW (F := F) d L 288#32 (k0_off4_inb L 9) 9 rfl _).symm) $$ Ho9
  ihave Hi10' := (Entails.of_eq (pts_inW (F := F) d L 320#32 (k0_off1_inb L 10) 10 rfl _).symm) $$ Hi10
  ihave He10' := (Entails.of_eq (pts_evW (F := F) d L 320#32 (k0_off5_inb L 10) 10 rfl _).symm) $$ He10
  ihave Ho10' := (Entails.of_eq (pts_odW (F := F) d L 320#32 (k0_off4_inb L 10) 10 rfl _).symm) $$ Ho10
  ihave Hi11' := (Entails.of_eq (pts_inW (F := F) d L 352#32 (k0_off1_inb L 11) 11 rfl _).symm) $$ Hi11
  ihave He11' := (Entails.of_eq (pts_evW (F := F) d L 352#32 (k0_off5_inb L 11) 11 rfl _).symm) $$ He11
  ihave Ho11' := (Entails.of_eq (pts_odW (F := F) d L 352#32 (k0_off4_inb L 11) 11 rfl _).symm) $$ Ho11
  ihave Hi12' := (Entails.of_eq (pts_inW (F := F) d L 384#32 (k0_off1_inb L 12) 12 rfl _).symm) $$ Hi12
  ihave He12' := (Entails.of_eq (pts_evW (F := F) d L 384#32 (k0_off5_inb L 12) 12 rfl _).symm) $$ He12
  ihave Ho12' := (Entails.of_eq (pts_odW (F := F) d L 384#32 (k0_off4_inb L 12) 12 rfl _).symm) $$ Ho12
  ihave Hi13' := (Entails.of_eq (pts_inW (F := F) d L 416#32 (k0_off1_inb L 13) 13 rfl _).symm) $$ Hi13
  ihave He13' := (Entails.of_eq (pts_evW (F := F) d L 416#32 (k0_off5_inb L 13) 13 rfl _).symm) $$ He13
  ihave Ho13' := (Entails.of_eq (pts_odW (F := F) d L 416#32 (k0_off4_inb L 13) 13 rfl _).symm) $$ Ho13
  ihave Hi14' := (Entails.of_eq (pts_inW (F := F) d L 448#32 (k0_off1_inb L 14) 14 rfl _).symm) $$ Hi14
  ihave He14' := (Entails.of_eq (pts_evW (F := F) d L 448#32 (k0_off5_inb L 14) 14 rfl _).symm) $$ He14
  ihave Ho14' := (Entails.of_eq (pts_odW (F := F) d L 448#32 (k0_off4_inb L 14) 14 rfl _).symm) $$ Ho14
  ihave Hi15' := (Entails.of_eq (pts_inW (F := F) d L 480#32 (k0_off1_inb L 15) 15 rfl _).symm) $$ Hi15
  ihave He15' := (Entails.of_eq (pts_evW (F := F) d L 480#32 (k0_off5_inb L 15) 15 rfl _).symm) $$ He15
  ihave Ho15' := (Entails.of_eq (pts_odW (F := F) d L 480#32 (k0_off4_inb L 15) 15 rfl _).symm) $$ Ho15
  ihave Hi16' := (Entails.of_eq (pts_inW (F := F) d L 512#32 (k0_off1_inb L 16) 16 rfl _).symm) $$ Hi16
  ihave He16' := (Entails.of_eq (pts_evW (F := F) d L 512#32 (k0_off5_inb L 16) 16 rfl _).symm) $$ He16
  ihave Ho16' := (Entails.of_eq (pts_odW (F := F) d L 512#32 (k0_off4_inb L 16) 16 rfl _).symm) $$ Ho16
  ihave Hi17' := (Entails.of_eq (pts_inW (F := F) d L 544#32 (k0_off1_inb L 17) 17 rfl _).symm) $$ Hi17
  ihave He17' := (Entails.of_eq (pts_evW (F := F) d L 544#32 (k0_off5_inb L 17) 17 rfl _).symm) $$ He17
  ihave Ho17' := (Entails.of_eq (pts_odW (F := F) d L 544#32 (k0_off4_inb L 17) 17 rfl _).symm) $$ Ho17
  ihave Hi18' := (Entails.of_eq (pts_inW (F := F) d L 576#32 (k0_off1_inb L 18) 18 rfl _).symm) $$ Hi18
  ihave He18' := (Entails.of_eq (pts_evW (F := F) d L 576#32 (k0_off5_inb L 18) 18 rfl _).symm) $$ He18
  ihave Ho18' := (Entails.of_eq (pts_odW (F := F) d L 576#32 (k0_off4_inb L 18) 18 rfl _).symm) $$ Ho18
  ihave Hi19' := (Entails.of_eq (pts_inW (F := F) d L 608#32 (k0_off1_inb L 19) 19 rfl _).symm) $$ Hi19
  ihave He19' := (Entails.of_eq (pts_evW (F := F) d L 608#32 (k0_off5_inb L 19) 19 rfl _).symm) $$ He19
  ihave Ho19' := (Entails.of_eq (pts_odW (F := F) d L 608#32 (k0_off4_inb L 19) 19 rfl _).symm) $$ Ho19
  ihave Hi20' := (Entails.of_eq (pts_inW (F := F) d L 640#32 (k0_off1_inb L 20) 20 rfl _).symm) $$ Hi20
  ihave He20' := (Entails.of_eq (pts_evW (F := F) d L 640#32 (k0_off5_inb L 20) 20 rfl _).symm) $$ He20
  ihave Ho20' := (Entails.of_eq (pts_odW (F := F) d L 640#32 (k0_off4_inb L 20) 20 rfl _).symm) $$ Ho20
  ihave Hi21' := (Entails.of_eq (pts_inW (F := F) d L 672#32 (k0_off1_inb L 21) 21 rfl _).symm) $$ Hi21
  ihave He21' := (Entails.of_eq (pts_evW (F := F) d L 672#32 (k0_off5_inb L 21) 21 rfl _).symm) $$ He21
  ihave Ho21' := (Entails.of_eq (pts_odW (F := F) d L 672#32 (k0_off4_inb L 21) 21 rfl _).symm) $$ Ho21
  ihave Hi22' := (Entails.of_eq (pts_inW (F := F) d L 704#32 (k0_off1_inb L 22) 22 rfl _).symm) $$ Hi22
  ihave He22' := (Entails.of_eq (pts_evW (F := F) d L 704#32 (k0_off5_inb L 22) 22 rfl _).symm) $$ He22
  ihave Ho22' := (Entails.of_eq (pts_odW (F := F) d L 704#32 (k0_off4_inb L 22) 22 rfl _).symm) $$ Ho22
  ihave Hi23' := (Entails.of_eq (pts_inW (F := F) d L 736#32 (k0_off1_inb L 23) 23 rfl _).symm) $$ Hi23
  ihave He23' := (Entails.of_eq (pts_evW (F := F) d L 736#32 (k0_off5_inb L 23) 23 rfl _).symm) $$ He23
  ihave Ho23' := (Entails.of_eq (pts_odW (F := F) d L 736#32 (k0_off4_inb L 23) 23 rfl _).symm) $$ Ho23
  have hB : Transfers.BatchOf (V d (cV L) (jV L)) (SemLoc.dma (sig := sig) cc0_scratch8.sem) 24 true := trivial
  sl_exec
  rw [wp_bind]
  iapply (zero_fill (F := F) d L fz _)
  isplitl [Hzs']; · iexact Hzs'
  iintro Hzs'
  sl_exec
  have hz2 : tile_body.sl.dma0_2 d L = fun _ => (Cert.Spec.zero : F .f32) := by
    unfold tile_body.sl.dma0_2; exact read_zsZ (F := F) d L
  ihave Hsh2 := (Entails.of_eq (sh_final (F := F) d L _ hz2 fsh)) $$ Hsh'
  ihave Hpays := (pays_intro (F := F) d L) $$ [Hsh2]
  · iexact Hsh2
  iapply (SparseCore.wp_subcoreBarrier 𝒱₀ none EB (bRd (F := F)) d (sc := cV L) (i := jV L) sc_bar0 (grid0.bound 1) hsub0 (L 1) rfl κ (fun _ => 0) (jV L).val
      (fun j => bRd_mem₀ d _ _ _) (fun _ => rfl) (bRd_expect d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim (F := F) d L) $$ Hgot
  ihave Hsp := (src_split (F := F) d (cV L) (jL L).val).1 $$ Hall
  icases Hsp with ⟨Hsrc, Hb14, Hb15⟩
  ihave Hsrc' := (show (shLoc d (cV L) ↦[(shSrc).view.set]{σ (jL L).val} shZ (F := F) d (cV L) : sProp 𝕄)
      ⊢ (shSrc).view.loc (V d (cV L) (jV L)) ↦[(shSrc).view.set]{σ (jL L).val} shZ (F := F) d (cV L) from Entails.of_eq rfl) $$ Hsrc
  sl_exec
  sl_step
  have hz3 : tile_body.sl.dma0_3 d L = fun _ => (Cert.Spec.zero : F .f32) := by
    unfold tile_body.sl.dma0_3; exact read_shZ_src (F := F) d (cV L)
  have hp0 : tile_body.sl.dma0_4 y d L f0 = (inPlW L 0#32 (k0_off1_inb L 0)).view.read (Elt F) (y d) := by
    unfold tile_body.sl.dma0_4
    show View.read (Elt F) _ (View.write (Elt F) _ _ _ Finset.univ) = _
    rw [View.read_write_univ]; rfl
  have hp1 : tile_body.sl.dma0_6 y d L f1 = (inPlW L 32#32 (k0_off1_inb L 1)).view.read (Elt F) (y d) := by
    unfold tile_body.sl.dma0_6
    show View.read (Elt F) _ (View.write (Elt F) _ _ _ Finset.univ) = _
    rw [View.read_write_univ]; rfl
  have hp2 : tile_body.sl.dma0_8 y d L f0 = (inPlW L 64#32 (k0_off1_inb L 2)).view.read (Elt F) (y d) := by
    unfold tile_body.sl.dma0_8
    show View.read (Elt F) _ (View.write (Elt F) _ _ _ Finset.univ) = _
    rw [View.read_write_univ]; rfl
  have hp3 : tile_body.sl.dma0_10 y d L f1 = (inPlW L 96#32 (k0_off1_inb L 3)).view.read (Elt F) (y d) := by
    unfold tile_body.sl.dma0_10
    show View.read (Elt F) _ (View.write (Elt F) _ _ _ Finset.univ) = _
    rw [View.read_write_univ]; rfl
  have hp4 : tile_body.sl.dma0_12 y d L f0 = (inPlW L 128#32 (k0_off1_inb L 4)).view.read (Elt F) (y d) := by
    unfold tile_body.sl.dma0_12
    show View.read (Elt F) _ (View.write (Elt F) _ _ _ Finset.univ) = _
    rw [View.read_write_univ]; rfl
  have hp5 : tile_body.sl.dma0_14 y d L f1 = (inPlW L 160#32 (k0_off1_inb L 5)).view.read (Elt F) (y d) := by
    unfold tile_body.sl.dma0_14
    show View.read (Elt F) _ (View.write (Elt F) _ _ _ Finset.univ) = _
    rw [View.read_write_univ]; rfl
  have hp6 : tile_body.sl.dma0_16 y d L f0 = (inPlW L 192#32 (k0_off1_inb L 6)).view.read (Elt F) (y d) := by
    unfold tile_body.sl.dma0_16
    show View.read (Elt F) _ (View.write (Elt F) _ _ _ Finset.univ) = _
    rw [View.read_write_univ]; rfl
  have hp7 : tile_body.sl.dma0_18 y d L f1 = (inPlW L 224#32 (k0_off1_inb L 7)).view.read (Elt F) (y d) := by
    unfold tile_body.sl.dma0_18
    show View.read (Elt F) _ (View.write (Elt F) _ _ _ Finset.univ) = _
    rw [View.read_write_univ]; rfl
  have hp8 : tile_body.sl.dma0_20 y d L f0 = (inPlW L 256#32 (k0_off1_inb L 8)).view.read (Elt F) (y d) := by
    unfold tile_body.sl.dma0_20
    show View.read (Elt F) _ (View.write (Elt F) _ _ _ Finset.univ) = _
    rw [View.read_write_univ]; rfl
  have hp9 : tile_body.sl.dma0_22 y d L f1 = (inPlW L 288#32 (k0_off1_inb L 9)).view.read (Elt F) (y d) := by
    unfold tile_body.sl.dma0_22
    show View.read (Elt F) _ (View.write (Elt F) _ _ _ Finset.univ) = _
    rw [View.read_write_univ]; rfl
  have hp10 : tile_body.sl.dma0_24 y d L f0 = (inPlW L 320#32 (k0_off1_inb L 10)).view.read (Elt F) (y d) := by
    unfold tile_body.sl.dma0_24
    show View.read (Elt F) _ (View.write (Elt F) _ _ _ Finset.univ) = _
    rw [View.read_write_univ]; rfl
  have hp11 : tile_body.sl.dma0_26 y d L f1 = (inPlW L 352#32 (k0_off1_inb L 11)).view.read (Elt F) (y d) := by
    unfold tile_body.sl.dma0_26
    show View.read (Elt F) _ (View.write (Elt F) _ _ _ Finset.univ) = _
    rw [View.read_write_univ]; rfl
  have hp12 : tile_body.sl.dma0_28 y d L f0 = (inPlW L 384#32 (k0_off1_inb L 12)).view.read (Elt F) (y d) := by
    unfold tile_body.sl.dma0_28
    show View.read (Elt F) _ (View.write (Elt F) _ _ _ Finset.univ) = _
    rw [View.read_write_univ]; rfl
  have hp13 : tile_body.sl.dma0_30 y d L f1 = (inPlW L 416#32 (k0_off1_inb L 13)).view.read (Elt F) (y d) := by
    unfold tile_body.sl.dma0_30
    show View.read (Elt F) _ (View.write (Elt F) _ _ _ Finset.univ) = _
    rw [View.read_write_univ]; rfl
  have hp14 : tile_body.sl.dma0_32 y d L f0 = (inPlW L 448#32 (k0_off1_inb L 14)).view.read (Elt F) (y d) := by
    unfold tile_body.sl.dma0_32
    show View.read (Elt F) _ (View.write (Elt F) _ _ _ Finset.univ) = _
    rw [View.read_write_univ]; rfl
  have hp15 : tile_body.sl.dma0_34 y d L f1 = (inPlW L 480#32 (k0_off1_inb L 15)).view.read (Elt F) (y d) := by
    unfold tile_body.sl.dma0_34
    show View.read (Elt F) _ (View.write (Elt F) _ _ _ Finset.univ) = _
    rw [View.read_write_univ]; rfl
  have hp16 : tile_body.sl.dma0_36 y d L f0 = (inPlW L 512#32 (k0_off1_inb L 16)).view.read (Elt F) (y d) := by
    unfold tile_body.sl.dma0_36
    show View.read (Elt F) _ (View.write (Elt F) _ _ _ Finset.univ) = _
    rw [View.read_write_univ]; rfl
  have hp17 : tile_body.sl.dma0_38 y d L f1 = (inPlW L 544#32 (k0_off1_inb L 17)).view.read (Elt F) (y d) := by
    unfold tile_body.sl.dma0_38
    show View.read (Elt F) _ (View.write (Elt F) _ _ _ Finset.univ) = _
    rw [View.read_write_univ]; rfl
  have hp18 : tile_body.sl.dma0_40 y d L f0 = (inPlW L 576#32 (k0_off1_inb L 18)).view.read (Elt F) (y d) := by
    unfold tile_body.sl.dma0_40
    show View.read (Elt F) _ (View.write (Elt F) _ _ _ Finset.univ) = _
    rw [View.read_write_univ]; rfl
  have hp19 : tile_body.sl.dma0_42 y d L f1 = (inPlW L 608#32 (k0_off1_inb L 19)).view.read (Elt F) (y d) := by
    unfold tile_body.sl.dma0_42
    show View.read (Elt F) _ (View.write (Elt F) _ _ _ Finset.univ) = _
    rw [View.read_write_univ]; rfl
  have hp20 : tile_body.sl.dma0_44 y d L f0 = (inPlW L 640#32 (k0_off1_inb L 20)).view.read (Elt F) (y d) := by
    unfold tile_body.sl.dma0_44
    show View.read (Elt F) _ (View.write (Elt F) _ _ _ Finset.univ) = _
    rw [View.read_write_univ]; rfl
  have hp21 : tile_body.sl.dma0_46 y d L f1 = (inPlW L 672#32 (k0_off1_inb L 21)).view.read (Elt F) (y d) := by
    unfold tile_body.sl.dma0_46
    show View.read (Elt F) _ (View.write (Elt F) _ _ _ Finset.univ) = _
    rw [View.read_write_univ]; rfl
  have hp22 : tile_body.sl.dma0_48 y d L f0 = (inPlW L 704#32 (k0_off1_inb L 22)).view.read (Elt F) (y d) := by
    unfold tile_body.sl.dma0_48
    show View.read (Elt F) _ (View.write (Elt F) _ _ _ Finset.univ) = _
    rw [View.read_write_univ]; rfl
  have hp23 : tile_body.sl.dma0_49 y d L f1 = (inPlW L 736#32 (k0_off1_inb L 23)).view.read (Elt F) (y d) := by
    unfold tile_body.sl.dma0_49
    show View.read (Elt F) _ (View.write (Elt F) _ _ _ Finset.univ) = _
    rw [View.read_write_univ]; rfl
  isplitl [Hi0' He0' Ho0' Hi1' He1' Ho1' Hi2' He2' Ho2' Hi3' He3' Ho3' Hi4' He4' Ho4' Hi5' He5' Ho5' Hi6' He6' Ho6' Hi7' He7' Ho7' Hi8' He8' Ho8' Hi9' He9' Ho9' Hi10' He10' Ho10' Hi11' He11' Ho11' Hi12' He12' Ho12' Hi13' He13' Ho13' Hi14' He14' Ho14' Hi15' He15' Ho15' Hi16' He16' Ho16' Hi17' He17' Ho17' Hi18' He18' Ho18' Hi19' He19' Ho19' Hi20' He20' Ho20' Hi21' He21' Ho21' Hi22' He22' Ho22' Hi23' He23' Ho23' Hsrc' Hb14 Hb15]
  · isplitl [Hi0' He0' Ho0' Hi1' He1' Ho1' Hi2' He2' Ho2' Hi3' He3' Ho3' Hi4' He4' Ho4' Hi5' He5' Ho5' Hi6' He6' Ho6' Hi7' He7' Ho7' Hi8' He8' Ho8' Hi9' He9' Ho9' Hi10' He10' Ho10' Hi11' He11' Ho11' Hi12' He12' Ho12' Hi13' He13' Ho13' Hi14' He14' Ho14' Hi15' He15' Ho15' Hi16' He16' Ho16' Hi17' He17' Ho17' Hi18' He18' Ho18' Hi19' He19' Ho19' Hi20' He20' Ho20' Hi21' He21' Ho21' Hi22' He22' Ho22' Hi23' He23' Ho23']
    ·
      isplitl [Hi0' He0' Ho0']
      ·
          isplitl [Hi0']; · iapply (Entails.of_eq (pts_inW (F := F) d L 0#32 (k0_off1_inb L 0) 0 rfl _)); iexact Hi0'
          isplitl [He0']; · iapply (Entails.of_eq (ev_final (F := F) y d L 0#32 (k0_off5_inb L 0) (k0_off1_inb L 0) 0 rfl _ hp0 _)); iexact He0'
          iapply (Entails.of_eq (od_final (F := F) y d L 0#32 (k0_off4_inb L 0) 0 rfl _ hz3 _)); iexact Ho0'
      isplitl [Hi1' He1' Ho1']
      ·
          isplitl [Hi1']; · iapply (Entails.of_eq (pts_inW (F := F) d L 32#32 (k0_off1_inb L 1) 1 rfl _)); iexact Hi1'
          isplitl [He1']; · iapply (Entails.of_eq (ev_final (F := F) y d L 32#32 (k0_off5_inb L 1) (k0_off1_inb L 1) 1 rfl _ hp1 _)); iexact He1'
          iapply (Entails.of_eq (od_final (F := F) y d L 32#32 (k0_off4_inb L 1) 1 rfl _ hz3 _)); iexact Ho1'
      isplitl [Hi2' He2' Ho2']
      ·
          isplitl [Hi2']; · iapply (Entails.of_eq (pts_inW (F := F) d L 64#32 (k0_off1_inb L 2) 2 rfl _)); iexact Hi2'
          isplitl [He2']; · iapply (Entails.of_eq (ev_final (F := F) y d L 64#32 (k0_off5_inb L 2) (k0_off1_inb L 2) 2 rfl _ hp2 _)); iexact He2'
          iapply (Entails.of_eq (od_final (F := F) y d L 64#32 (k0_off4_inb L 2) 2 rfl _ hz3 _)); iexact Ho2'
      isplitl [Hi3' He3' Ho3']
      ·
          isplitl [Hi3']; · iapply (Entails.of_eq (pts_inW (F := F) d L 96#32 (k0_off1_inb L 3) 3 rfl _)); iexact Hi3'
          isplitl [He3']; · iapply (Entails.of_eq (ev_final (F := F) y d L 96#32 (k0_off5_inb L 3) (k0_off1_inb L 3) 3 rfl _ hp3 _)); iexact He3'
          iapply (Entails.of_eq (od_final (F := F) y d L 96#32 (k0_off4_inb L 3) 3 rfl _ hz3 _)); iexact Ho3'
      isplitl [Hi4' He4' Ho4']
      ·
          isplitl [Hi4']; · iapply (Entails.of_eq (pts_inW (F := F) d L 128#32 (k0_off1_inb L 4) 4 rfl _)); iexact Hi4'
          isplitl [He4']; · iapply (Entails.of_eq (ev_final (F := F) y d L 128#32 (k0_off5_inb L 4) (k0_off1_inb L 4) 4 rfl _ hp4 _)); iexact He4'
          iapply (Entails.of_eq (od_final (F := F) y d L 128#32 (k0_off4_inb L 4) 4 rfl _ hz3 _)); iexact Ho4'
      isplitl [Hi5' He5' Ho5']
      ·
          isplitl [Hi5']; · iapply (Entails.of_eq (pts_inW (F := F) d L 160#32 (k0_off1_inb L 5) 5 rfl _)); iexact Hi5'
          isplitl [He5']; · iapply (Entails.of_eq (ev_final (F := F) y d L 160#32 (k0_off5_inb L 5) (k0_off1_inb L 5) 5 rfl _ hp5 _)); iexact He5'
          iapply (Entails.of_eq (od_final (F := F) y d L 160#32 (k0_off4_inb L 5) 5 rfl _ hz3 _)); iexact Ho5'
      isplitl [Hi6' He6' Ho6']
      ·
          isplitl [Hi6']; · iapply (Entails.of_eq (pts_inW (F := F) d L 192#32 (k0_off1_inb L 6) 6 rfl _)); iexact Hi6'
          isplitl [He6']; · iapply (Entails.of_eq (ev_final (F := F) y d L 192#32 (k0_off5_inb L 6) (k0_off1_inb L 6) 6 rfl _ hp6 _)); iexact He6'
          iapply (Entails.of_eq (od_final (F := F) y d L 192#32 (k0_off4_inb L 6) 6 rfl _ hz3 _)); iexact Ho6'
      isplitl [Hi7' He7' Ho7']
      ·
          isplitl [Hi7']; · iapply (Entails.of_eq (pts_inW (F := F) d L 224#32 (k0_off1_inb L 7) 7 rfl _)); iexact Hi7'
          isplitl [He7']; · iapply (Entails.of_eq (ev_final (F := F) y d L 224#32 (k0_off5_inb L 7) (k0_off1_inb L 7) 7 rfl _ hp7 _)); iexact He7'
          iapply (Entails.of_eq (od_final (F := F) y d L 224#32 (k0_off4_inb L 7) 7 rfl _ hz3 _)); iexact Ho7'
      isplitl [Hi8' He8' Ho8']
      ·
          isplitl [Hi8']; · iapply (Entails.of_eq (pts_inW (F := F) d L 256#32 (k0_off1_inb L 8) 8 rfl _)); iexact Hi8'
          isplitl [He8']; · iapply (Entails.of_eq (ev_final (F := F) y d L 256#32 (k0_off5_inb L 8) (k0_off1_inb L 8) 8 rfl _ hp8 _)); iexact He8'
          iapply (Entails.of_eq (od_final (F := F) y d L 256#32 (k0_off4_inb L 8) 8 rfl _ hz3 _)); iexact Ho8'
      isplitl [Hi9' He9' Ho9']
      ·
          isplitl [Hi9']; · iapply (Entails.of_eq (pts_inW (F := F) d L 288#32 (k0_off1_inb L 9) 9 rfl _)); iexact Hi9'
          isplitl [He9']; · iapply (Entails.of_eq (ev_final (F := F) y d L 288#32 (k0_off5_inb L 9) (k0_off1_inb L 9) 9 rfl _ hp9 _)); iexact He9'
          iapply (Entails.of_eq (od_final (F := F) y d L 288#32 (k0_off4_inb L 9) 9 rfl _ hz3 _)); iexact Ho9'
      isplitl [Hi10' He10' Ho10']
      ·
          isplitl [Hi10']; · iapply (Entails.of_eq (pts_inW (F := F) d L 320#32 (k0_off1_inb L 10) 10 rfl _)); iexact Hi10'
          isplitl [He10']; · iapply (Entails.of_eq (ev_final (F := F) y d L 320#32 (k0_off5_inb L 10) (k0_off1_inb L 10) 10 rfl _ hp10 _)); iexact He10'
          iapply (Entails.of_eq (od_final (F := F) y d L 320#32 (k0_off4_inb L 10) 10 rfl _ hz3 _)); iexact Ho10'
      isplitl [Hi11' He11' Ho11']
      ·
          isplitl [Hi11']; · iapply (Entails.of_eq (pts_inW (F := F) d L 352#32 (k0_off1_inb L 11) 11 rfl _)); iexact Hi11'
          isplitl [He11']; · iapply (Entails.of_eq (ev_final (F := F) y d L 352#32 (k0_off5_inb L 11) (k0_off1_inb L 11) 11 rfl _ hp11 _)); iexact He11'
          iapply (Entails.of_eq (od_final (F := F) y d L 352#32 (k0_off4_inb L 11) 11 rfl _ hz3 _)); iexact Ho11'
      isplitl [Hi12' He12' Ho12']
      ·
          isplitl [Hi12']; · iapply (Entails.of_eq (pts_inW (F := F) d L 384#32 (k0_off1_inb L 12) 12 rfl _)); iexact Hi12'
          isplitl [He12']; · iapply (Entails.of_eq (ev_final (F := F) y d L 384#32 (k0_off5_inb L 12) (k0_off1_inb L 12) 12 rfl _ hp12 _)); iexact He12'
          iapply (Entails.of_eq (od_final (F := F) y d L 384#32 (k0_off4_inb L 12) 12 rfl _ hz3 _)); iexact Ho12'
      isplitl [Hi13' He13' Ho13']
      ·
          isplitl [Hi13']; · iapply (Entails.of_eq (pts_inW (F := F) d L 416#32 (k0_off1_inb L 13) 13 rfl _)); iexact Hi13'
          isplitl [He13']; · iapply (Entails.of_eq (ev_final (F := F) y d L 416#32 (k0_off5_inb L 13) (k0_off1_inb L 13) 13 rfl _ hp13 _)); iexact He13'
          iapply (Entails.of_eq (od_final (F := F) y d L 416#32 (k0_off4_inb L 13) 13 rfl _ hz3 _)); iexact Ho13'
      isplitl [Hi14' He14' Ho14']
      ·
          isplitl [Hi14']; · iapply (Entails.of_eq (pts_inW (F := F) d L 448#32 (k0_off1_inb L 14) 14 rfl _)); iexact Hi14'
          isplitl [He14']; · iapply (Entails.of_eq (ev_final (F := F) y d L 448#32 (k0_off5_inb L 14) (k0_off1_inb L 14) 14 rfl _ hp14 _)); iexact He14'
          iapply (Entails.of_eq (od_final (F := F) y d L 448#32 (k0_off4_inb L 14) 14 rfl _ hz3 _)); iexact Ho14'
      isplitl [Hi15' He15' Ho15']
      ·
          isplitl [Hi15']; · iapply (Entails.of_eq (pts_inW (F := F) d L 480#32 (k0_off1_inb L 15) 15 rfl _)); iexact Hi15'
          isplitl [He15']; · iapply (Entails.of_eq (ev_final (F := F) y d L 480#32 (k0_off5_inb L 15) (k0_off1_inb L 15) 15 rfl _ hp15 _)); iexact He15'
          iapply (Entails.of_eq (od_final (F := F) y d L 480#32 (k0_off4_inb L 15) 15 rfl _ hz3 _)); iexact Ho15'
      isplitl [Hi16' He16' Ho16']
      ·
          isplitl [Hi16']; · iapply (Entails.of_eq (pts_inW (F := F) d L 512#32 (k0_off1_inb L 16) 16 rfl _)); iexact Hi16'
          isplitl [He16']; · iapply (Entails.of_eq (ev_final (F := F) y d L 512#32 (k0_off5_inb L 16) (k0_off1_inb L 16) 16 rfl _ hp16 _)); iexact He16'
          iapply (Entails.of_eq (od_final (F := F) y d L 512#32 (k0_off4_inb L 16) 16 rfl _ hz3 _)); iexact Ho16'
      isplitl [Hi17' He17' Ho17']
      ·
          isplitl [Hi17']; · iapply (Entails.of_eq (pts_inW (F := F) d L 544#32 (k0_off1_inb L 17) 17 rfl _)); iexact Hi17'
          isplitl [He17']; · iapply (Entails.of_eq (ev_final (F := F) y d L 544#32 (k0_off5_inb L 17) (k0_off1_inb L 17) 17 rfl _ hp17 _)); iexact He17'
          iapply (Entails.of_eq (od_final (F := F) y d L 544#32 (k0_off4_inb L 17) 17 rfl _ hz3 _)); iexact Ho17'
      isplitl [Hi18' He18' Ho18']
      ·
          isplitl [Hi18']; · iapply (Entails.of_eq (pts_inW (F := F) d L 576#32 (k0_off1_inb L 18) 18 rfl _)); iexact Hi18'
          isplitl [He18']; · iapply (Entails.of_eq (ev_final (F := F) y d L 576#32 (k0_off5_inb L 18) (k0_off1_inb L 18) 18 rfl _ hp18 _)); iexact He18'
          iapply (Entails.of_eq (od_final (F := F) y d L 576#32 (k0_off4_inb L 18) 18 rfl _ hz3 _)); iexact Ho18'
      isplitl [Hi19' He19' Ho19']
      ·
          isplitl [Hi19']; · iapply (Entails.of_eq (pts_inW (F := F) d L 608#32 (k0_off1_inb L 19) 19 rfl _)); iexact Hi19'
          isplitl [He19']; · iapply (Entails.of_eq (ev_final (F := F) y d L 608#32 (k0_off5_inb L 19) (k0_off1_inb L 19) 19 rfl _ hp19 _)); iexact He19'
          iapply (Entails.of_eq (od_final (F := F) y d L 608#32 (k0_off4_inb L 19) 19 rfl _ hz3 _)); iexact Ho19'
      isplitl [Hi20' He20' Ho20']
      ·
          isplitl [Hi20']; · iapply (Entails.of_eq (pts_inW (F := F) d L 640#32 (k0_off1_inb L 20) 20 rfl _)); iexact Hi20'
          isplitl [He20']; · iapply (Entails.of_eq (ev_final (F := F) y d L 640#32 (k0_off5_inb L 20) (k0_off1_inb L 20) 20 rfl _ hp20 _)); iexact He20'
          iapply (Entails.of_eq (od_final (F := F) y d L 640#32 (k0_off4_inb L 20) 20 rfl _ hz3 _)); iexact Ho20'
      isplitl [Hi21' He21' Ho21']
      ·
          isplitl [Hi21']; · iapply (Entails.of_eq (pts_inW (F := F) d L 672#32 (k0_off1_inb L 21) 21 rfl _)); iexact Hi21'
          isplitl [He21']; · iapply (Entails.of_eq (ev_final (F := F) y d L 672#32 (k0_off5_inb L 21) (k0_off1_inb L 21) 21 rfl _ hp21 _)); iexact He21'
          iapply (Entails.of_eq (od_final (F := F) y d L 672#32 (k0_off4_inb L 21) 21 rfl _ hz3 _)); iexact Ho21'
      isplitl [Hi22' He22' Ho22']
      ·
          isplitl [Hi22']; · iapply (Entails.of_eq (pts_inW (F := F) d L 704#32 (k0_off1_inb L 22) 22 rfl _)); iexact Hi22'
          isplitl [He22']; · iapply (Entails.of_eq (ev_final (F := F) y d L 704#32 (k0_off5_inb L 22) (k0_off1_inb L 22) 22 rfl _ hp22 _)); iexact He22'
          iapply (Entails.of_eq (od_final (F := F) y d L 704#32 (k0_off4_inb L 22) 22 rfl _ hz3 _)); iexact Ho22'
      isplitl [Hi23']; · iapply (Entails.of_eq (pts_inW (F := F) d L 736#32 (k0_off1_inb L 23) 23 rfl _)); iexact Hi23'
      isplitl [He23']; · iapply (Entails.of_eq (ev_final (F := F) y d L 736#32 (k0_off5_inb L 23) (k0_off1_inb L 23) 23 rfl _ hp23 _)); iexact He23'
      iapply (Entails.of_eq (od_final (F := F) y d L 736#32 (k0_off4_inb L 23) 23 rfl _ hz3 _)); iexact Ho23'
    · iapply (src_split (F := F) d (cV L) (jL L).val).2
      isplitl [Hsrc']; · iexact Hsrc'
      isplitl [Hb14]; · iexact Hb14
      iexact Hb15
  isplitl [Hb0' Hb1' Hzs' Hbufs]
  · isplitl [Hb0']; · iexists _; iexact Hb0'
    isplitl [Hb1']; · iexists _; iexact Hb1'
    isplitl [Hzs']; · iexists _; iexact Hzs'
    iexact Hbufs
  isplitl [Hs4 Hs5 Hs6 Hs7 Hs8 Hsc Hsems]
  · isplitl [Hs4]; · iexact Hs4
    isplitl [Hs5]; · iexact Hs5
    isplitl [Hs6]; · iexact Hs6
    isplitl [Hs7]; · iexact Hs7
    isplitl [Hs8]; · iexact Hs8
    isplitl [Hsc]; · iexact Hsc
    iexact Hsems
  iexists _; isplitr
  swap; · iexact HO
  ipureintro
  repeat' (first | exact (fun p hp => Or.inl hp) | refine wb_none _ ?_ | refine wb_call _ ?_)

/-! ## The obligation -/

theorem defs₀_vector (c : Fin τ.nSC) (s : Fin τ.nSub) :
    defs₀ (F := F) (.scVector c s) 0 ()
      = SparseCore.onTile hcore0 hsub0 (fun c s => cc0__body (coordsV c s)
          xV (Memref.isWhole_whole _) oV (Memref.isWhole_whole _) b0V (Memref.isWhole_whole _) b1V (Memref.isWhole_whole _) zsV (Memref.isWhole_whole _) shV (Memref.isWhole_whole _) cc0_scratch4 cc0_scratch5 cc0_scratch6 cc0_scratch7 cc0_scratch8 cc0_scoped0) ⟨⟩ c s := rfl

set_option maxRecDepth 16384 in
theorem tileObl [∀ e, Nonempty (Elt F e)] (hF : (K (F := F)).Facts) : (K (F := F)).TileObl (D (F := F)) 𝒱 (P y o) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P y o).ox 0 (V d ((K (F := F)).core 0 c) ((K (F := F)).sub 0 i)) = oxV d ((K (F := F)).core 0 c) from if_pos hc,
    show (P y o).x 0 (V d ((K (F := F)).core 0 c) ((K (F := F)).sub 0 i)) = bkit d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body y o d (coordsV ⟨_, hci.1⟩ ⟨_, hci.2⟩) hF O W hO hOlev

end Cert.Proof.KI

end
-- ==== Proof.KBSetup.lean ====
/-
  The kernel as the launch theorem sees it, and the resources its threads exchange.

  Thirty-two tiles (two SparseCores of sixteen) each own twenty-four of the 768 input planes: tile (c, s) has
  worker number w = 2 s + c and planes 32 r + w for r < 24.  It copies plane p to output plane 2 p and a block
  of zeros to output plane 2 p + 1.  The zeros live in the SparseCore's shared memory: tile s fills rows
  16 s .. 16 s + 15 of a 256-row buffer with zeros, all tiles meet at the barrier, and afterwards every tile
  reads rows 0 .. 223 as the source of its zero planes.

  So the barrier must carry READ access: when tile n arrives it hands each tile j one sixteenth share of its
  own sixteen rows, known to be zero; when tile j leaves it holds a sixteenth share of all 256 rows, all zero,
  which is enough to read them for as long as it likes while the fifteen other tiles do the same.
-/
import proofs.«204282_g43688407335220_cont_8to1_c_395_12_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Batch
import proofs.«204282_g43688407335220_cont_8to1_c_395_12_alg».proof.Proof.Gen.Kernel
import proofs.«204282_g43688407335220_cont_8to1_c_395_12_alg».proof.Proof.Gen.Kernel.Skeleton
import proofs.«204282_g43688407335220_cont_8to1_c_395_12_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- The 768 input planes and the 1536 output planes, in HBM. -/
abbrev v0Loc (d : Dev nD) : Loc nD τ sig := (SparseCore.T d).loc main_v0
abbrev v1Loc (d : Dev nD) : Loc nD τ sig := (SparseCore.T d).loc main_v1

abbrev xV : Memref sig .scVector .hbm S768x224x224 .f32 := Memref.whole main_v0_scv
abbrev oV : Memref sig .scVector .hbm S1536x224x224 .f32 := Memref.whole main_v1_scv
abbrev b0V : Memref sig .scVector .vmem S224x224 .f32 := Memref.whole cc0_scratch0
abbrev b1V : Memref sig .scVector .vmem S224x224 .f32 := Memref.whole cc0_scratch1
abbrev zsV : Memref sig .scVector .vmem S16x224 .f32 := Memref.whole cc0_scratch2
abbrev shV : Memref sig .scVector .shared S256x224 .f32 := Memref.whole cc0_scratch3

theorem nSub_eq : τ.nSub = 16 := rfl
theorem bound_zero : grid0.bound 0 = 2 := rfl
theorem bound_one : grid0.bound 1 = 16 := rfl

/-- SparseCore `c`'s shared buffer, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The shared buffer's sixteen row blocks: block n is rows 16 n .. 16 n + 15. -/
theorem hdiv : 16 ∣ S256x224.size 0 := ⟨16, rfl⟩
abbrev blk (n : Fin 16) : Rect S256x224 := Rect.part (s := S256x224) (a₀ := 0) hdiv n
abbrev blkSet (n : Fin 16) : Finset S256x224.Idx := ((shV).view.slice (blk n)).set

variable [FloatOps F]

/-- The all-zero contents of the shared buffer. -/
def shZ (d : Dev nD) (c : Fin τ.nSC) : Buf (Elt F) (shLoc d c) := fun _ => (Cert.Spec.zero : F .f32)

/-! ## Sixteen read shares of one buffer -/

/-- The k-th of sixteen pairwise disjoint shares that together are the full share: the full share halved again
    and again, each time giving away the right half; the last keeps what is left. -/
def σ (k : ℕ) : PosShare TreeShare := if k < 15 then Transfers.shareTokN fullShare k else Transfers.shareDrop fullShare 15

/-! ## The barrier cells -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Block n of the shared buffer of SparseCore c, read-shared at share k, holding zeros. -/
abbrev shBlk (d : Dev nD) (c : Fin τ.nSC) (n : Fin 16) (k : ℕ) : sProp 𝕄 := shLoc d c ↦[blkSet n]{σ k} shZ (F := F) d c

/-- What tile n's duty in tile j's round hands over: the j-th share of tile n's own rows, zero. -/
def bPay (g : GSem nD τ sig) (n : ℕ) : sProp 𝕄 :=
  match g with
  | ((d, .scVector c j), _) => if h : n < 16 then shBlk (F := F) d c ⟨n, h⟩ j.val else iprop(emp)
  | _ => iprop(emp)

/-- One round on each barrier cell, one unit duty per tile of the SparseCore, named by the tile's number. -/
def bRd : Rounds.Schedule (GSem nD τ sig) ℕ 𝕄 where
  duties g r := if isBar g ∧ r = 0 then (Finset.univ : Finset (Fin τ.nSub)).image Fin.val else ∅
  amount _ _ _ := 1
  payload g _ n := bPay g n
  amount_pos _ _ _ _ := Nat.one_pos

instance bRd_payload_storable (g : GSem nD τ sig) (r n : ℕ) : BI.Storable (upEmb : UEmb _ 𝕄) ((bRd (F := F)).payload g r n) := by
  show BI.Storable upEmb (bPay g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F)).duties (bcell d c j) 0 = (Finset.univ : Finset (Fin τ.nSub)).image Fin.val := by
  simp [bRd, isBar]
theorem bRd_mem₀ (d : Dev nD) (c : Fin τ.nSC) (j i : Fin τ.nSub) : i.val ∈ (bRd (F := F)).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F)).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every cell invariant of its SparseCore, its duty token in every tile's round, that each cell
    has reached round 0, its own position at the origin, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F)) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## A tile's planes, as the body slices them -/

abbrev cV (L : grid0.Coords) : Fin τ.nSC := (L 0).castLE hcore0
abbrev jV (L : grid0.Coords) : Fin τ.nSub := (L 1).castLE hsub0
abbrev jL (L : grid0.Coords) : Fin 16 := Fin.cast bound_one (L 1)

/-- Input plane 32 r + w of the tile at L. -/
abbrev inPl (L : grid0.Coords) (r : Fin 24) : Memref sig .scVector .hbm S224x224 .f32 :=
  ((xV).slice (Rect.unit (s := S768x224x224) (k0_off1 L (BitVec.ofNat 32 (32 * r.val))) S1x224x224.size (k0_off1_inb L r)) (fun _ => rfl)).squeeze S224x224 squeezes_S1x224x224_S224x224
/-- Output plane 2 (32 r + w): where the copy of the input plane goes. -/
abbrev evPl (L : grid0.Coords) (r : Fin 24) : Memref sig .scVector .hbm S224x224 .f32 :=
  ((oV).slice (Rect.unit (s := S1536x224x224) (k0_off5 L (BitVec.ofNat 32 (32 * r.val))) S1x224x224.size (k0_off5_inb L r)) (fun _ => rfl)).squeeze S224x224 squeezes_S1x224x224_S224x224
/-- Output plane 2 (32 r + w) + 1: where the zeros go. -/
abbrev odPl (L : grid0.Coords) (r : Fin 24) : Memref sig .scVector .hbm S224x224 .f32 :=
  ((oV).slice (Rect.unit (s := S1536x224x224) (k0_off4 L (BitVec.ofNat 32 (32 * r.val))) S1x224x224.size (k0_off4_inb L r)) (fun _ => rfl)).squeeze S224x224 squeezes_S1x224x224_S224x224

abbrev inSet (L : grid0.Coords) (r : Fin 24) : Finset S768x224x224.Idx := (inPl L r).view.set
abbrev evSet (L : grid0.Coords) (r : Fin 24) : Finset S1536x224x224.Idx := (evPl L r).view.set
abbrev odSet (L : grid0.Coords) (r : Fin 24) : Finset S1536x224x224.Idx := (odPl L r).view.set

/-- The grid point of core c, tile s. -/
def coordsV (c : Fin (grid0.bound 0)) (s : Fin (grid0.bound 1)) : grid0.Coords :=
  fun | 0 => c | 1 => s | ⟨_ + 2, h⟩ => absurd h (Nat.not_lt.2 (Nat.le_add_left _ _))

/-! ## What the handshakes carry

`y` is the contents of the input planes when the kernel starts, `o` what the output planes then hold. -/

variable (y : (d : Dev nD) → Buf (Elt F) (v0Loc d)) (o : (d : Dev nD) → Buf (Elt F) (v1Loc d))

/-- What the output planes hold at the end: plane 2 p is input plane p, plane 2 p + 1 is zero. -/
def res (d : Dev nD) : Buf (Elt F) (v1Loc d) := Cert.Spec.spreadPlanes (F := F) (y d)

/-- The planes a tile is handed: its twenty-four input planes and the forty-eight output planes it will write. -/
def goH (d : Dev nD) (L : grid0.Coords) : sProp 𝕄 :=
  bigSep Finset.univ fun r : Fin 24 =>
    iprop((v0Loc d ↦[inSet L r]{fullShare} y d) ∗ (v1Loc d ↦[evSet L r]{fullShare} o d) ∗ (v1Loc d ↦[odSet L r]{fullShare} o d))
/-- The planes it hands back: the input planes as they were, the output planes at their final contents. -/
def tdH (d : Dev nD) (L : grid0.Coords) : sProp 𝕄 :=
  bigSep Finset.univ fun r : Fin 24 =>
    iprop((v0Loc d ↦[inSet L r]{fullShare} y d) ∗ (v1Loc d ↦[evSet L r]{fullShare} res y d) ∗ (v1Loc d ↦[odSet L r]{fullShare} res y d))

/-- The grid point of the launch theorem's core and tile numbers. -/
abbrev LL (c : Fin ((K (F := F)).nCore 0)) (i : Fin ((K (F := F)).nSub 0)) : grid0.Coords :=
  coordsV (Fin.cast nCore_zero c) (Fin.cast nSub_zero i)

/-- A tile is handed its planes and its own sixteen rows of the shared buffer (whatever they hold); it hands back the
    planes and a sixteenth share of every row block of the shared buffer, zero.  A SparseCore is handed, and hands back,
    what its sixteen tiles are.  Each tile's proof consumes its barrier kit and owes its sixteen arrivals. -/
def P : (K (F := F)).Pay (nD := nD) (Val := Elt F) (Name := ℕ) (U := UU) where
  st := fun q d c => match q with | 0 => bigSep Finset.univ fun i : Fin ((K (F := F)).nSub 0) => goH y o d (LL c i)
  dn := fun q d c => match q with | 0 => bigSep Finset.univ fun i : Fin ((K (F := F)).nSub 0) => tdH y d (LL c i)
  go := fun q d c i => match q with
    | 0 => iprop(goH y o d (LL c i) ∗ ∃ f, shLoc d (coreOf c) ↦[blkSet (Fin.cast nSub_zero i)]{fullShare} f)
  td := fun q d c i => match q with
    | 0 => iprop(tdH y d (LL c i) ∗ bigSep Finset.univ fun n : Fin 16 => shBlk (F := F) d (coreOf c) n i.val)
  x := fun _ thr => match thr with
    | (d, .scVector c i) => if c.val < 2 then bkit d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance goH_storable (d : Dev nD) (L : grid0.Coords) : BI.Storable (upEmb : UEmb _ 𝕄) (goH y o d L) := by unfold goH; infer_instance
instance tdH_storable (d : Dev nD) (L : grid0.Coords) : BI.Storable (upEmb : UEmb _ 𝕄) (tdH y d L) := by unfold tdH; infer_instance

instance P_storable : (P (F := F) y o).IsStorable where
  st q d c := match q with
    | 0 => (inferInstance : BI.Storable (upEmb : UEmb _ 𝕄) (bigSep Finset.univ fun i : Fin ((K (F := F)).nSub 0) => goH y o d (LL c i)))
  dn q d c := match q with
    | 0 => (inferInstance : BI.Storable (upEmb : UEmb _ 𝕄) (bigSep Finset.univ fun i : Fin ((K (F := F)).nSub 0) => tdH y d (LL c i)))
  go q d c i := match q with
    | 0 => (inferInstance : BI.Storable (upEmb : UEmb _ 𝕄)
      iprop(goH y o d (LL c i) ∗ ∃ f, shLoc d (coreOf c) ↦[blkSet (Fin.cast nSub_zero i)]{fullShare} f))
  td q d c i := match q with
    | 0 => (inferInstance : BI.Storable (upEmb : UEmb _ 𝕄)
      iprop(tdH y d (LL c i) ∗ bigSep Finset.univ fun n : Fin 16 => shBlk (F := F) d (coreOf c) n i.val))

end Cert.Proof.KB

end
-- ==== Proof.KBPlanes.lean ====
/-
  Which planes a tile owns, as sets of elements of the two arrays in HBM.

  The tile at grid point L (core L 0 < 2, subcore L 1 < 16) has worker number w = 2 (L 1) + (L 0) < 32.  For r < 24
  its r-th input plane is plane 32 r + w of 768, the copy goes to output plane 2 (32 r + w) = 64 r + 4 (L 1) + 2 (L 0)
  of 1536, and the zeros go to the plane after it.  A plane, as a set of elements of the array, is every element
  whose leading coordinate is the plane's number.

  Every p < 768 is 32 r + 2 s + c for exactly one (c, s, r) with c < 2, s < 16, r < 24 (r = p / 32, s = p % 32 / 2,
  c = p % 2), so the input planes of all tiles partition the input array.  Every q < 1536 is either even, and then
  the copy's destination for exactly one (c, s, r), or odd, and then the zeros' destination for exactly one: the even
  and the odd planes of all tiles together partition the output array.

  On an even output plane the function spread over planes reads the input plane of half its number; on an odd one
  it is zero.
-/
import proofs.«204282_g43688407335220_cont_8to1_c_395_12_alg».proof.Proof.KBSetup

noncomputable section

namespace Cert.Proof.KB

open Cert.Kernel Cert.Kernel.Gen

open Idealize.ShloMosaic Idealize.ShloMosaic.ValueIdx

variable {F : FTy → Type}

/-! ## A plane as a set of elements -/

/-- The elements of a unit-thick slab at leading coordinate p of an [n, 224, 224] array: those whose leading
    coordinate is p. -/
theorem mem_slab {n : ℕ} (off : Fin 3 → ℕ) (p : ℕ) (hoff : off = ![p, 0, 0])
    (inb : ∀ a, off a + S1x224x224.size a ≤ (⟨3, ![n, 224, 224]⟩ : Shape).size a) (j : (⟨3, ![n, 224, 224]⟩ : Shape).Idx) :
    j ∈ (Rect.unit (s := ⟨3, ![n, 224, 224]⟩) off S1x224x224.size inb).set ↔ (j 0).val = p := by
  subst hoff
  rw [Rect.mem_set_unit]
  constructor
  · intro h
    have h0 := h 0
    change p ≤ (j 0).val ∧ (j 0).val < p + 1 at h0
    omega
  · intro h a
    have h1 : (j 1).val < 224 := (j 1).isLt
    have h2 : (j 2).val < 224 := (j 2).isLt
    match a with
    | ⟨0, _⟩ => change p ≤ (j 0).val ∧ (j 0).val < p + 1; omega
    | ⟨1, _⟩ => change 0 ≤ (j 1).val ∧ (j 1).val < 0 + 224; omega
    | ⟨2, _⟩ => change 0 ≤ (j 2).val ∧ (j 2).val < 0 + 224; omega

/-- A tile's plane is the slab the body's slice names. -/
theorem inSet_eq (L : grid0.Coords) (r : Fin 24) :
    inSet L r = (Rect.unit (s := S768x224x224) (k0_off1 L (BitVec.ofNat 32 (32 * r.val))) S1x224x224.size (k0_off1_inb L r)).set := by
  show (((View.whole (main_v0_scv : Ref sig .scVector)).slice _).reshape _ _).set = _
  rw [View.set_reshape, View.set_slice_whole]
theorem evSet_eq (L : grid0.Coords) (r : Fin 24) :
    evSet L r = (Rect.unit (s := S1536x224x224) (k0_off5 L (BitVec.ofNat 32 (32 * r.val))) S1x224x224.size (k0_off5_inb L r)).set := by
  show (((View.whole (main_v1_scv : Ref sig .scVector)).slice _).reshape _ _).set = _
  rw [View.set_reshape, View.set_slice_whole]
theorem odSet_eq (L : grid0.Coords) (r : Fin 24) :
    odSet L r = (Rect.unit (s := S1536x224x224) (k0_off4 L (BitVec.ofNat 32 (32 * r.val))) S1x224x224.size (k0_off4_inb L r)).set := by
  show (((View.whole (main_v1_scv : Ref sig .scVector)).slice _).reshape _ _).set = _
  rw [View.set_reshape, View.set_slice_whole]

theorem mem_inSet (L : grid0.Coords) (r : Fin 24) (j : S768x224x224.Idx) :
    j ∈ inSet L r ↔ (j 0).val = 32 * r.val + 2 * (L 1).val + (L 0).val := by
  rw [inSet_eq]
  exact mem_slab _ _ (k0_off1_eq L r) _ j

theorem mem_evSet (L : grid0.Coords) (r : Fin 24) (j : S1536x224x224.Idx) :
    j ∈ evSet L r ↔ (j 0).val = 64 * r.val + 4 * (L 1).val + 2 * (L 0).val := by
  rw [evSet_eq]
  exact mem_slab _ _ (k0_off5_eq L r) _ j

theorem mem_odSet (L : grid0.Coords) (r : Fin 24) (j : S1536x224x224.Idx) :
    j ∈ odSet L r ↔ (j 0).val = 64 * r.val + 4 * (L 1).val + 2 * (L 0).val + 1 := by
  rw [odSet_eq]
  exact mem_slab _ _ (k0_off4_eq L r) _ j

/-! ## The planes of all tiles partition the arrays -/

/-- Core, subcore, trip. -/
abbrev TI : Type := Fin (grid0.bound 0) × Fin (grid0.bound 1) × Fin 24

abbrev inFam (t : TI) : Finset S768x224x224.Idx := inSet (coordsV t.1 t.2.1) t.2.2
abbrev evFam (t : TI) : Finset S1536x224x224.Idx := evSet (coordsV t.1 t.2.1) t.2.2
abbrev odFam (t : TI) : Finset S1536x224x224.Idx := odSet (coordsV t.1 t.2.1) t.2.2

theorem mem_inFam (c : Fin (grid0.bound 0)) (s : Fin (grid0.bound 1)) (r : Fin 24) (j : S768x224x224.Idx) :
    j ∈ inFam (c, s, r) ↔ (j 0).val = 32 * r.val + 2 * s.val + c.val := mem_inSet _ _ j
theorem mem_evFam (c : Fin (grid0.bound 0)) (s : Fin (grid0.bound 1)) (r : Fin 24) (j : S1536x224x224.Idx) :
    j ∈ evFam (c, s, r) ↔ (j 0).val = 64 * r.val + 4 * s.val + 2 * c.val := mem_evSet _ _ j
theorem mem_odFam (c : Fin (grid0.bound 0)) (s : Fin (grid0.bound 1)) (r : Fin 24) (j : S1536x224x224.Idx) :
    j ∈ odFam (c, s, r) ↔ (j 0).val = 64 * r.val + 4 * s.val + 2 * c.val + 1 := mem_odSet _ _ j

theorem inFam_disjoint : ∀ t ∈ (Finset.univ : Finset TI), ∀ t' ∈ (Finset.univ : Finset TI), t ≠ t' → Disjoint (inFam t) (inFam t') := by
  rintro ⟨c, s, r⟩ - ⟨c', s', r'⟩ - hne
  refine Finset.disjoint_left.2 fun j h1 h2 => hne ?_
  have e1 := (mem_inFam c s r j).1 h1
  have e2 := (mem_inFam c' s' r' j).1 h2
  have hc : c.val < 2 := c.isLt
  have hc' : c'.val < 2 := c'.isLt
  have hs : s.val < 16 := s.isLt
  have hs' : s'.val < 16 := s'.isLt
  have h : c.val = c'.val ∧ s.val = s'.val ∧ r.val = r'.val := by omega
  exact Prod.ext (Fin.ext h.1) (Prod.ext (Fin.ext h.2.1) (Fin.ext h.2.2))

theorem evFam_disjoint : ∀ t ∈ (Finset.univ : Finset TI), ∀ t' ∈ (Finset.univ : Finset TI), t ≠ t' → Disjoint (evFam t) (evFam t') := by
  rintro ⟨c, s, r⟩ - ⟨c', s', r'⟩ - hne
  refine Finset.disjoint_left.2 fun j h1 h2 => hne ?_
  have e1 := (mem_evFam c s r j).1 h1
  have e2 := (mem_evFam c' s' r' j).1 h2
  have hc : c.val < 2 := c.isLt
  have hc' : c'.val < 2 := c'.isLt
  have hs : s.val < 16 := s.isLt
  have hs' : s'.val < 16 := s'.isLt
  have h : c.val = c'.val ∧ s.val = s'.val ∧ r.val = r'.val := by omega
  exact Prod.ext (Fin.ext h.1) (Prod.ext (Fin.ext h.2.1) (Fin.ext h.2.2))

theorem odFam_disjoint : ∀ t ∈ (Finset.univ : Finset TI), ∀ t' ∈ (Finset.univ : Finset TI), t ≠ t' → Disjoint (odFam t) (odFam t') := by
  rintro ⟨c, s, r⟩ - ⟨c', s', r'⟩ - hne
  refine Finset.disjoint_left.2 fun j h1 h2 => hne ?_
  have e1 := (mem_odFam c s r j).1 h1
  have e2 := (mem_odFam c' s' r' j).1 h2
  have hc : c.val < 2 := c.isLt
  have hc' : c'.val < 2 := c'.isLt
  have hs : s.val < 16 := s.isLt
  have hs' : s'.val < 16 := s'.isLt
  have h : c.val = c'.val ∧ s.val = s'.val ∧ r.val = r'.val := by omega
  exact Prod.ext (Fin.ext h.1) (Prod.ext (Fin.ext h.2.1) (Fin.ext h.2.2))

/-- An even plane is no odd plane. -/
theorem evFam_odFam_disjoint : Disjoint ((Finset.univ : Finset TI).biUnion evFam) ((Finset.univ : Finset TI).biUnion odFam) := by
  refine (Finset.disjoint_biUnion_left _ _ _).2 fun t _ => (Finset.disjoint_biUnion_right _ _ _).2 fun t' _ => ?_
  obtain ⟨c, s, r⟩ := t
  obtain ⟨c', s', r'⟩ := t'
  refine Finset.disjoint_left.2 fun j h1 h2 => ?_
  have e1 := (mem_evFam c s r j).1 h1
  have e2 := (mem_odFam c' s' r' j).1 h2
  omega

theorem inFam_cover : (Finset.univ : Finset TI).biUnion inFam = Finset.univ := by
  ext j
  simp only [Finset.mem_biUnion, Finset.mem_univ, true_and, iff_true]
  have hp : (j 0).val < 768 := (j 0).isLt
  refine ⟨(⟨(j 0).val % 2, ?_⟩, ⟨(j 0).val % 32 / 2, ?_⟩, ⟨(j 0).val / 32, by omega⟩), ?_⟩
  · show (j 0).val % 2 < 2; omega
  · show (j 0).val % 32 / 2 < 16; omega
  · rw [mem_inFam]; show (j 0).val = 32 * ((j 0).val / 32) + 2 * ((j 0).val % 32 / 2) + (j 0).val % 2; omega

theorem evFam_odFam_cover : (Finset.univ : Finset TI).biUnion evFam ∪ (Finset.univ : Finset TI).biUnion odFam = Finset.univ := by
  ext j
  simp only [Finset.mem_union, Finset.mem_biUnion, Finset.mem_univ, true_and, iff_true]
  have hq : (j 0).val < 1536 := (j 0).isLt
  have hc : (j 0).val % 4 / 2 < grid0.bound 0 := by show (j 0).val % 4 / 2 < 2; omega
  have hs : (j 0).val % 64 / 4 < grid0.bound 1 := by show (j 0).val % 64 / 4 < 16; omega
  have hr : (j 0).val / 64 < 24 := by omega
  by_cases h2 : (j 0).val % 2 = 0
  · refine Or.inl ⟨(⟨_, hc⟩, ⟨_, hs⟩, ⟨_, hr⟩), ?_⟩
    rw [mem_evFam]; show (j 0).val = 64 * ((j 0).val / 64) + 4 * ((j 0).val % 64 / 4) + 2 * ((j 0).val % 4 / 2); omega
  · refine Or.inr ⟨(⟨_, hc⟩, ⟨_, hs⟩, ⟨_, hr⟩), ?_⟩
    rw [mem_odFam]; show (j 0).val = 64 * ((j 0).val / 64) + 4 * ((j 0).val % 64 / 4) + 2 * ((j 0).val % 4 / 2) + 1; omega

/-! ## The function on a tile's output planes -/

variable [FloatOps F]

/-- The number of a tile's r-th input plane is a plane of the input array. -/
theorem plane_lt (L : grid0.Coords) (r : Fin 24) : 32 * r.val + 2 * (L 1).val + (L 0).val < 768 := by
  have hc : (L 0).val < 2 := (L 0).isLt
  have hs : (L 1).val < 16 := (L 1).isLt
  omega

/-- On the even output plane of the tile's r-th trip the function reads the tile's r-th input plane, same row and column. -/
theorem spreadPlanes_of_mem_evSet (y : FVec F ⟨3, ![768, 224, 224]⟩ .f32) {L : grid0.Coords} {r : Fin 24} {j : S1536x224x224.Idx}
    (hj : j ∈ evSet L r) :
    Cert.Spec.spreadPlanes y j = y (ix3 ⟨32 * r.val + 2 * (L 1).val + (L 0).val, plane_lt L r⟩ (j 1) (j 2)) := by
  have h0 := (mem_evSet L r j).1 hj
  have hlt : (j 0).val < 1536 := (j 0).isLt
  show (if (j 0).val % 2 = 0 then y (ix3 ⟨(j 0).val / 2, by omega⟩ (j 1) (j 2)) else Cert.Spec.zero) = _
  rw [if_pos (by omega)]
  exact congrArg (fun a => y (ix3 a (j 1) (j 2))) (Fin.ext (by show (j 0).val / 2 = 32 * r.val + 2 * (L 1).val + (L 0).val; omega))

/-- On the odd output plane of the tile's r-th trip the function is zero. -/
theorem spreadPlanes_of_mem_odSet (y : FVec F ⟨3, ![768, 224, 224]⟩ .f32) {L : grid0.Coords} {r : Fin 24} {j : S1536x224x224.Idx}
    (hj : j ∈ odSet L r) : Cert.Spec.spreadPlanes y j = Cert.Spec.zero := by
  have h0 := (mem_odSet L r j).1 hj
  have hlt : (j 0).val < 1536 := (j 0).isLt
  show (if (j 0).val % 2 = 0 then y (ix3 ⟨(j 0).val / 2, by omega⟩ (j 1) (j 2)) else Cert.Spec.zero) = _
  rw [if_neg (by omega)]

end Cert.Proof.KB

end
-- ==== Proof.KBShares.lean ====
/-
  Sixteen read shares of one buffer.

  The full share of a set of elements of a buffer is the separating conjunction of the sixteen shares σ 0 .. σ 15:
  σ k for k < 15 is the right half of the full share halved k times, and σ 15 is the full share halved fifteen times,
  what is left after the fifteen right halves are given away.
-/
import proofs.«204282_g43688407335220_cont_8to1_c_395_12_alg».proof.Proof.KBSetup

noncomputable section

namespace Cert.Proof.KB

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The sixteen shares, listed over the numbers below sixteen: the last one and the fifteen before it. -/
theorem bigSep_σ {ℓ : Loc nD τ sig} (S : Finset (Idx ℓ)) (f : Buf (Elt F) ℓ) :
    (bigSep Finset.univ fun k : Fin 16 => (ℓ ↦[S]{σ k.val} f : sProp 𝕄))
      = iprop((ℓ ↦[S]{Transfers.shareDrop fullShare 15} f)
          ∗ bigSep (Finset.range 15) (fun i => ℓ ↦[S]{Transfers.shareTokN fullShare i} f)) := by
  rw [show (bigSep Finset.univ fun k : Fin 16 => (ℓ ↦[S]{σ k.val} f : sProp 𝕄))
      = bigSep (Finset.range 16) (fun i => ℓ ↦[S]{σ i} f)
    by rw [← Nat.Iio_eq_range, ← Fin.map_valEmbedding_univ, BI.bigSep_map]; rfl]
  rw [show (16 : ℕ) = 15 + 1 from rfl, Finset.range_add_one, BI.bigSep_insert Finset.notMem_range_self]
  rw [show σ 15 = Transfers.shareDrop fullShare 15 from if_neg (lt_irrefl 15)]
  rw [bigSep_congr (Ψ := fun i => (ℓ ↦[S]{Transfers.shareTokN fullShare i} f : sProp 𝕄)) fun i hi => by
    rw [show σ i = Transfers.shareTokN fullShare i from if_pos (Finset.mem_range.1 hi)]]
  rfl

/-- The full share of a set of elements is its sixteen shares σ 0 .. σ 15 together. -/
theorem shares16 {ℓ : Loc nD τ sig} (S : Finset (Idx ℓ)) (f : Buf (Elt F) ℓ) :
    (ℓ ↦[S]{fullShare} f : sProp 𝕄) ⊣⊢ bigSep Finset.univ fun k : Fin 16 => ℓ ↦[S]{σ k.val} f := by
  rw [bigSep_σ]
  exact Transfers.pointsTo_toks_range fullShare 15

end Cert.Proof.KB

end
-- ==== Proof.KBSplit.lean ====
/-
  How the arrays split among the tiles and join back.

  The input array is the disjoint union of the input planes of all thirty-two tiles, and the output array is the
  disjoint union of their even and odd output planes, so holding the two arrays whole is holding every tile's planes,
  at any contents.  The shared buffer of a SparseCore is the disjoint union of its sixteen row blocks: whole, at any
  contents, it is one block for each tile; and when every tile hands back a sixteenth share of every block, all zero,
  the sixteen shares of a block are the block at the full share and the sixteen blocks are the buffer, all zero.
-/
import proofs.«204282_g43688407335220_cont_8to1_c_395_12_alg».proof.Proof.KBPlanes
import proofs.«204282_g43688407335220_cont_8to1_c_395_12_alg».proof.Proof.KBShares

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Reindexing: the launch theorem's core and tile numbers are the grid's -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- Over cores, tiles of a core and trips is over the triples. -/
theorem bigSep_tiles (Φ : TI → sProp 𝕄) :
    (bigSep Finset.univ fun c : Fin ((K (F := F)).nCore 0) => bigSep Finset.univ fun i : Fin ((K (F := F)).nSub 0) =>
      bigSep Finset.univ fun r : Fin 24 => Φ (Fin.cast nCore_zero c, Fin.cast nSub_zero i, r)) = bigSep Finset.univ Φ := by
  rw [bigSep_univ_prod Φ]
  refine bigSep_congr fun c _ => ?_
  rw [bigSep_univ_prod]
  exact bigSep_congr fun i _ => bigSep_congr fun r _ => congrArg Φ (Prod.ext (Fin.ext rfl) (Prod.ext (Fin.ext rfl) rfl))

/-! ## The arrays in HBM -/

omit [FloatOps F] in
/-- Every tile's planes, at contents f of the input array and g of the output array, are the two arrays whole. -/
theorem planes_eq (d : Dev nD) (f : Buf (Elt F) (v0Loc d)) (g : Buf (Elt F) (v1Loc d)) :
    (bigSep Finset.univ fun c : Fin ((K (F := F)).nCore 0) => bigSep Finset.univ fun i : Fin ((K (F := F)).nSub 0) =>
      bigSep Finset.univ fun r : Fin 24 =>
        iprop((v0Loc d ↦[inSet (LL c i) r]{fullShare} f) ∗ (v1Loc d ↦[evSet (LL c i) r]{fullShare} g) ∗ (v1Loc d ↦[odSet (LL c i) r]{fullShare} g)))
      = (iprop((v0Loc d ↦{fullShare} f) ∗ (v1Loc d ↦{fullShare} g)) : sProp 𝕄) := by
  refine (bigSep_tiles (F := F) (fun t : TI =>
    iprop((v0Loc d ↦[inFam t]{fullShare} f) ∗ (v1Loc d ↦[evFam t]{fullShare} g) ∗ (v1Loc d ↦[odFam t]{fullShare} g)))).trans ?_
  rw [bigSep_sep', bigSep_sep', ← pointsTo_biUnion Finset.univ (ℓ := v0Loc d) inFam inFam_disjoint,
    ← pointsTo_biUnion Finset.univ (ℓ := v1Loc d) evFam evFam_disjoint, ← pointsTo_biUnion Finset.univ (ℓ := v1Loc d) odFam odFam_disjoint, inFam_cover]
  have hu : (v1Loc d ↦[(Finset.univ : Finset TI).biUnion evFam ∪ (Finset.univ : Finset TI).biUnion odFam]{fullShare} g : sProp 𝕄)
      ⊣⊢ iprop((v1Loc d ↦[(Finset.univ : Finset TI).biUnion evFam]{fullShare} g) ∗ v1Loc d ↦[(Finset.univ : Finset TI).biUnion odFam]{fullShare} g) :=
    pointsTo_union evFam_odFam_disjoint
  rw [← BI.equiv_iff.mp ⟨hu.1, hu.2⟩, evFam_odFam_cover]

variable (y : (d : Dev nD) → Buf (Elt F) (v0Loc d)) (o : (d : Dev nD) → Buf (Elt F) (v1Loc d))

/-! ## What the handshakes carry, as equations -/

theorem P_st (d : Dev nD) (c : Fin ((K (F := F)).nCore 0)) :
    (P y o).st 0 d c = bigSep Finset.univ fun i : Fin ((K (F := F)).nSub 0) => goH y o d (LL c i) := rfl
theorem P_dn (d : Dev nD) (c : Fin ((K (F := F)).nCore 0)) :
    (P y o).dn 0 d c = bigSep Finset.univ fun i : Fin ((K (F := F)).nSub 0) => tdH y d (LL c i) := rfl
theorem P_go (d : Dev nD) (c : Fin ((K (F := F)).nCore 0)) (i : Fin ((K (F := F)).nSub 0)) :
    (P y o).go 0 d c i = iprop(goH y o d (LL c i) ∗ ∃ f, shLoc d (coreOf c) ↦[blkSet (Fin.cast nSub_zero i)]{fullShare} f) := rfl
theorem P_td (d : Dev nD) (c : Fin ((K (F := F)).nCore 0)) (i : Fin ((K (F := F)).nSub 0)) :
    (P y o).td 0 d c i = iprop(tdH y d (LL c i) ∗ bigSep Finset.univ fun n : Fin 16 => shBlk (F := F) d (coreOf c) n i.val) := rfl

/-- The call's operands: the two arrays whole, at the contents the call starts from. -/
theorem st0_eq (d : Dev nD) :
    (bigSep Finset.univ fun c : Fin ((K (F := F)).nCore 0) => (P y o).st 0 d c)
      = (iprop((v0Loc d ↦{fullShare} y d) ∗ (v1Loc d ↦{fullShare} o d)) : sProp 𝕄) := by
  simp only [P_st]
  unfold goH
  exact planes_eq d (y d) (o d)

/-- The call's results: the input array as it was, the output array at the function of it. -/
theorem dn0_eq (d : Dev nD) :
    (bigSep Finset.univ fun c : Fin ((K (F := F)).nCore 0) => (P y o).dn 0 d c)
      = (iprop((v0Loc d ↦{fullShare} y d) ∗ (v1Loc d ↦{fullShare} res y d)) : sProp 𝕄) := by
  simp only [P_dn]
  unfold tdH
  exact planes_eq d (y d) (res y d)

/-! ## The shared buffer -/

omit [FloatOps F] in
theorem blkSet_eq (n : Fin 16) : blkSet n = (blk n).set := by
  show ((View.whole (cc0_scratch3 : Ref sig .scVector)).slice (blk n)).set = _
  rw [View.set_slice]; exact Finset.map_refl
omit [FloatOps F] in
theorem blks_disjoint : ∀ i ∈ (Finset.univ : Finset (Fin 16)), ∀ j ∈ (Finset.univ : Finset (Fin 16)), i ≠ j → Disjoint (blkSet i) (blkSet j) :=
  fun i _ j _ h => by rw [blkSet_eq, blkSet_eq]; exact Rect.part_disjoint hdiv h
omit [FloatOps F] in
theorem blks_cover : (Finset.univ : Finset (Fin 16)).biUnion blkSet = Finset.univ :=
  (Finset.biUnion_congr rfl fun i _ => blkSet_eq i).trans (Rect.biUnion_part hdiv)

omit [FloatOps F] in
/-- The shared buffer is its sixteen row blocks. -/
theorem shPts_blks (d : Dev nD) (c : Fin τ.nSC) (f : Buf (Elt F) (shLoc d c)) :
    (shLoc d c ↦{fullShare} f : sProp 𝕄) = bigSep Finset.univ fun n : Fin 16 => shLoc d c ↦[blkSet n]{fullShare} f := by
  rw [← pointsTo_biUnion Finset.univ (ℓ := shLoc d c) blkSet blks_disjoint, blks_cover]; try rfl

omit [FloatOps F] in
/-- Whole, at any contents, it is a block for each tile. -/
theorem sh_deal (d : Dev nD) (c : Fin τ.nSC) (f : Buf (Elt F) (shLoc d c)) :
    (shLoc d c ↦{fullShare} f : sProp 𝕄)
      ⊢ bigSep Finset.univ fun i : Fin ((K (F := F)).nSub 0) => iprop(∃ f', shLoc d c ↦[blkSet (Fin.cast nSub_zero i)]{fullShare} f') := by
  rw [bigSep_tasks (F := F) (fun i => iprop(∃ f', shLoc d c ↦[blkSet i]{fullShare} f')), shPts_blks d c f]
  exact bigSep_mono fun i _ => BI.BIClass.exists_intro (Φ := fun f' => (shLoc d c ↦[blkSet i]{fullShare} f' : sProp 𝕄)) f

/-- Every tile's sixteenth share of every block, all zero, is the buffer whole, all zero. -/
theorem sh_collect (d : Dev nD) (c : Fin τ.nSC) :
    (bigSep Finset.univ fun i : Fin ((K (F := F)).nSub 0) => bigSep Finset.univ fun n : Fin 16 => shBlk (F := F) d c n i.val)
      ⊢ (iprop(∃ f, shLoc d c ↦{fullShare} f) : sProp 𝕄) := by
  rw [bigSep_univ_comm]
  have h : ∀ n : Fin 16, (bigSep Finset.univ fun i : Fin ((K (F := F)).nSub 0) => shBlk (F := F) d c n i.val)
      ⊢ (shLoc d c ↦[blkSet n]{fullShare} shZ (F := F) d c : sProp 𝕄) := fun n =>
    (Entails.of_eq (bigSep_tasks (F := F) (fun k : Fin 16 => shBlk (F := F) d c n k.val))).trans (shares16 (ℓ := shLoc d c) (blkSet n) (shZ (F := F) d c)).2
  refine (bigSep_mono fun n _ => h n).trans ?_
  rw [← shPts_blks]
  exact BI.BIClass.exists_intro (Φ := fun f => (shLoc d c ↦{fullShare} f : sProp 𝕄)) (shZ (F := F) d c)

omit [FloatOps F] in
/-- The shared buffer is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- A SparseCore's operands to its tiles, its results from theirs: the planes are the tiles' as they stand; the shared
    buffer goes out block by block and comes back share by share. -/
theorem vecSplit : (K (F := F)).VecSplit (P y o) 0 := by
  intro d c
  rw [P_st, P_dn]
  simp only [P_go, P_td]
  rw [bigSep_sep', bigSep_sep', ownBufs_S]
  iintro ⟨Hgo, ⟨%fsh, Hsh⟩, Hrest⟩; imodintro
  isplitl [Hgo Hsh]
  · isplitl [Hgo]; · iexact Hgo
    iapply (sh_deal d (coreOf c) fsh); iexact Hsh
  iintro ⟨Htd, Hsh⟩
  isplitl [Htd]; · iexact Htd
  isplitl [Hsh]; · iapply (sh_collect d (coreOf c)); iexact Hsh
  iexact Hrest

end Cert.Proof.KB

end
-- ==== Proof.KBElem.lean ====
/-
  The launch element of the ghost state, and what the launch hands each thread.

  Every tile of both SparseCores has a barrier cell.  From the element's barrier component every cell gets its round
  state, the fact that it has reached round 0, its position at the origin and, for each pair of tiles of a SparseCore,
  the first tile's duty token in the second's round; the cells' semaphores are at zero, so every cell's invariant is
  allocated; the credit for what the tiles owe regroups into sixteen units on each tile's own cell.  Dealt out, each
  tile has its barrier kit.
-/
import proofs.«204282_g43688407335220_cont_8to1_c_395_12_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (y : (d : Dev nD) → Buf (Elt F) (v0Loc d)) (o : (d : Dev nD) → Buf (Elt F) (v1Loc d))

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F)) g 0)
    ⊢ |={Set.univ}=> iprop(∃ κ : GSem nD τ sig → ℕ, bigSep bCells fun g => cellInv EB (bRd (F := F)) (κ g) g) := by
  refine (Rounds.bodies_intro EB (bRd (F := F)) bCells).trans ((inv_alloc_family bCells (Rounds.body EB (bRd (F := F))) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile of SparseCores 0 and 1 the sixteen units of its own cell. -/
theorem creds_b : ((P (F := F) y o).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) y o).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) y o).oxFrom 0 (V d c i) = oxV d c := fun i => by
      rw [show (0 : ℕ) = (0 : Fin 1).val from rfl, (P y o).oxFrom_step, (P y o).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) y o).x q (SparseCore.T d)) = iprop(emp) :=
  bigSep_univ_of_subsingleton (0 : Fin 1)
theorem Px_S (d : Dev nD) (c : Fin τ.nSC) : (bigSep Finset.univ fun q : Fin 1 => (P (F := F) y o).x q (S d c)) = iprop(emp) :=
  bigSep_univ_of_subsingleton (0 : Fin 1)
theorem Px_V (d : Dev nD) (c : Fin τ.nSC) (i : Fin τ.nSub) :
    (bigSep Finset.univ fun q : Fin 1 => (P (F := F) y o).x q (V d c i)) = if c.val < 2 then bkit d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F)) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's kit out of those. -/
theorem kit_intro (dci : DCI) : iprop(shared (F := F) ∗ mine dci) ⊢ (if dci.2.1.val < 2 then bkit (F := F) dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F)) (κ (bcell₃ x)) (bcell₃ x)) fun j _ =>
          sep_elim_left.trans (bigSep_elim (Φ := fun x : DCI => (cellInv EB (bRd (F := F)) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its kit. -/
theorem kits_deal :
    iprop(shared (F := F) ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) y o).x q thr : sProp 𝕄) := by
  rw [SparseCore.Cfg.bigSep_threads (fun thr : Thread nD τ => bigSep Finset.univ fun q : Fin 1 => (P y o).x q thr)]
  simp only [Px_T, Px_S, Px_V, bigSep_emp']
  iintro ⟨#Hsh, Hat, Htok, Hcred⟩
  isplitr; · iempintro
  isplitr; · iempintro
  iapply (bigSep_mono_frame (R := shared (F := F)) (Φ := mine (F := F)) fun dci _ => kit_intro (F := F) dci)
  isplitr; · iexact Hsh
  unfold mine
  rw [bigSep_sep', bigSep_sep']
  isplitl [Hat]; · iexact Hat
  isplitl [Htok]; · iexact Htok
  iexact Hcred

/-- The launch element: the handshakes' component kept for the launch theorem, every thread's own start dealt. -/
theorem hu₀ : iprop(ownU (u₀ (F := F)) ∗ (P (F := F) y o).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P y o).x q thr) : sProp 𝕄) := by
  unfold u₀
  iintro ⟨Hu, Hcred, Hfree⟩
  ihave H := (ownU_split _ _) $$ Hu
  icases H with ⟨HH, HB⟩
  imod (Rounds.fund EB (bRd (F := F)) bCells bToks) $$ HB with ⟨Hst, #Hr, Hat, Htok⟩
  ihave Hsems := (sems_b (F := F)) $$ Hfree
  imod (invs_b (F := F)) $$ [Hsems Hst] with ⟨%κ, #Hinv⟩
  · isplitl [Hsems] <;> iassumption
  ihave Hcred' := (creds_b y o) $$ Hcred
  ihave Hinv' := (Entails.of_eq (bCells_eq (F := F) fun g => cellInv EB (bRd (F := F)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal y o)
  isplitr
  · isplitl; · iexists κ; iexact Hinv'
    iexact Hr'
  isplitl [Hat']; · iexact Hat'
  isplitl [Htok']; · iexact Htok'
  iexact Hcred'

end Cert.Proof.KB

end
-- ==== Proof.KBLaunch.lean ====
/-
  The run of the whole program, from the tiles' body obligation.

  On the TensorCore @main flattens the argument into 768 planes, starts the two SparseCores and waits for them, and
  unflattens the 1536 result planes.  Before the call the two arrays of planes, held whole, are every tile's planes;
  after it the input planes are as they were and the output planes hold the function spread over planes; unflattened,
  that is the argument's channels spread to the even positions.  The argument itself is never written.
-/
import proofs.«204282_g43688407335220_cont_8to1_c_395_12_alg».proof.Proof.KBSplit
import proofs.«204282_g43688407335220_cont_8to1_c_395_12_alg».proof.Proof.KBElem
import proofs.«204282_g43688407335220_cont_8to1_c_395_12_alg».proof.Proof.SpecPlanes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays and its two host operations -/

abbrev aLoc (d : Dev nD) : Loc nD τ sig := (SparseCore.T d).loc main_arg0
abbrev rLoc (d : Dev nD) : Loc nD τ sig := (SparseCore.T d).loc main_v2

abbrev a0' : DevRef τ sig := Proc.devRef .tc (main_arg0 : Ref sig .tc)
abbrev w0' : DevRef τ sig := Proc.devRef .tc (main_v0 : Ref sig .tc)
abbrev w1' : DevRef τ sig := Proc.devRef .tc (main_v1 : Ref sig .tc)
abbrev w2' : DevRef τ sig := Proc.devRef .tc (main_v2 : Ref sig .tc)
abbrev opIn : HloOp τ sig (Elt F) := StableHlo.reshape main_arg0 main_v0 rfl shapeCasts_S8x96x224x224_S768x224x224
abbrev opOut : HloOp τ sig (Elt F) := StableHlo.reshape main_v1 main_v2 rfl shapeCasts_S1536x224x224_S8x192x224x224

/-- The TensorCore's arrays, all unscoped: the argument, its planes, the result planes, the result. -/
abbrev S4 : Finset (DevRef τ sig) := {a0', w0', w1', w2'}

/-- What the input planes hold when the kernel starts: the argument, flattened. -/
def yIn (d : Dev nD) : Buf (Elt F) (v0Loc d) := shapeCast S768x224x224 (m (aLoc d)) shapeCasts_S8x96x224x224_S768x224x224
/-- What the output planes then hold: what they held at the launch. -/
def oIn (d : Dev nD) : Buf (Elt F) (v1Loc d) := m (v1Loc d)

omit [FloatOps F] in
theorem held_S4 (d : Dev nD) (W : Valuation τ sig (Elt F)) :
    (held (T d) S4 W : sProp 𝕄)
      = iprop((aLoc d ↦{fullShare} W a0') ∗ (v0Loc d ↦{fullShare} W w0') ∗ (v1Loc d ↦{fullShare} W w1') ∗ rLoc d ↦{fullShare} W w2') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (v0Loc d ↦{fullShare} W main_v0) ∗ (v1Loc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; after the flattening; after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) w1' (res (yIn m) d)

theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a0' = m (aLoc d) := by
  unfold V1
  rw [(opIn (F := F)).result_of_not_mem _ (show a0' ∉ ({w0'} : Finset (DevRef τ sig)) by decide)]; rfl
theorem V1_w0 (d : Dev nD) : V1 m d w0' = yIn m d :=
  (StableHlo.reshape_result main_arg0 main_v0 rfl shapeCasts_S8x96x224x224_S768x224x224 ⟨by decide, rfl⟩ ⟨by decide, rfl⟩ (V0 m d)).trans rfl
theorem V1_w1 (d : Dev nD) : V1 m d w1' = oIn m d := by
  unfold V1
  rw [(opIn (F := F)).result_of_not_mem _ (show w1' ∉ ({w0'} : Finset (DevRef τ sig)) by decide)]; rfl
theorem V1_w2 (d : Dev nD) : V1 m d w2' = m (rLoc d) := by
  unfold V1
  rw [(opIn (F := F)).result_of_not_mem _ (show w2' ∉ ({w0'} : Finset (DevRef τ sig)) by decide)]; rfl

theorem V2_a (d : Dev nD) : V2 m d a0' = m (aLoc d) := (Function.update_of_ne (show a0' ≠ w1' by decide) _ _).trans (V1_a m d)
theorem V2_w0 (d : Dev nD) : V2 m d w0' = yIn m d := (Function.update_of_ne (show w0' ≠ w1' by decide) _ _).trans (V1_w0 m d)
theorem V2_w1 (d : Dev nD) : V2 m d w1' = res (yIn m) d := Function.update_self _ _ _
theorem V2_w2 (d : Dev nD) : V2 m d w2' = m (rLoc d) := (Function.update_of_ne (show w2' ≠ w1' by decide) _ _).trans (V1_w2 m d)

/-- Unflattening the result planes gives the argument's channels spread to the even positions. -/
theorem out_val (d : Dev nD) : (opOut (F := F)).result (V2 m d) w2' = Cert.Spec.spread (F := F) (m (aLoc d)) := by
  refine (StableHlo.reshape_result main_v1 main_v2 rfl shapeCasts_S1536x224x224_S8x192x224x224 ⟨by decide, rfl⟩ ⟨by decide, rfl⟩ (V2 m d)).trans ?_
  show shapeCast S8x192x224x224 (V2 m d w1') shapeCasts_S1536x224x224_S8x192x224x224 = _
  rw [V2_w1]
  exact Cert.Spec.shapeCast_spreadPlanes (m (aLoc d)) _ _

theorem held_V1 (d : Dev nD) :
    (held (T d) S4 ((opIn (F := F)).result (V0 m d)) : sProp 𝕄)
      = iprop((aLoc d ↦{fullShare} m (aLoc d)) ∗ (v0Loc d ↦{fullShare} yIn m d) ∗ (v1Loc d ↦{fullShare} oIn m d) ∗ rLoc d ↦{fullShare} m (rLoc d)) := by
  show held (SparseCore.T d) S4 (V1 m d) = _
  rw [held_S4, V1_a, V1_w0, V1_w1, V1_w2]
theorem held_V3 (d : Dev nD) :
    (held (T d) S4 ((opOut (F := F)).result (V2 m d)) : sProp 𝕄)
      = iprop((aLoc d ↦{fullShare} m (aLoc d)) ∗ (v0Loc d ↦{fullShare} (opOut (F := F)).result (V2 m d) w0')
          ∗ (v1Loc d ↦{fullShare} (opOut (F := F)).result (V2 m d) w1') ∗ rLoc d ↦{fullShare} Cert.Spec.spread (F := F) (m (aLoc d))) := by
  rw [held_S4, out_val, (opOut (F := F)).result_of_not_mem (V2 m d) (b := a0') (show a0' ∉ ({w2'} : Finset (DevRef τ sig)) by decide), V2_a]

theorem hIn : (opIn (F := F)).bufs ⊆ S4 := show ({a0', w0'} : Finset (DevRef τ sig)) ⊆ S4 by decide
theorem hOut : (opOut (F := F)).bufs ⊆ S4 := show ({w1', w2'} : Finset (DevRef τ sig)) ⊆ S4 by decide

/-- What @main leaves the claim: the argument at its launch contents, the result at the function of it. -/
abbrev FIN (d : Dev nD) : sProp 𝕄 :=
  iprop((aLoc d ↦{fullShare} m (aLoc d)) ∗ rLoc d ↦{fullShare} Cert.Spec.spread (F := F) (m (aLoc d)))

/-- @main on device d's TensorCore: the flattening, the call (from the two arrays of planes, whole), the unflattening. -/
theorem hmain (κ : GSem nD τ sig → ℕ) (d : Dev nD) :
    iprop((K (F := F)).ctx EH (P (yIn m) (oIn m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the flattening
  iapply (wp_hlo_within 𝒱 (SparseCore.T d) none Set.univ (op := opIn) (S := S4) hIn (V := V0 m d)) $$ [Hb Hheld]
  · isplitl [Hb] <;> iassumption
  iintro ⟨Hb, Hheld⟩
  rw [wp_ret]; imodintro
  -- the call: the two arrays of planes to the SparseCores and back
  ihave Hh := (Entails.of_eq (held_V1 (F := F) m d)) $$ Hheld
  icases Hh with ⟨Ha, Hv0, Hv1, Hr⟩
  iapply ((K (F := F)).wp_run (D (F := F)) 𝒱 (EH := EH) (P := P (yIn m) (oIn m)) κ d 0) $$ [Hst Hv0 Hv1 Hb Ha Hr]
  isplitr; · iexact Hctx
  isplitl [Hst]; · iexact Hst
  isplitl [Hv0 Hv1]
  · rw [st0_eq]
    isplitl [Hv0]; · iexact Hv0
    iexact Hv1
  iintro ⟨Hst, Hdn⟩
  ihave Hdn' := (Entails.of_eq (dn0_eq (yIn m) (oIn m) d)) $$ Hdn
  icases Hdn' with ⟨Hv0, Hv1⟩
  -- the unflattening
  iapply (wp_hlo_within 𝒱 (SparseCore.T d) none Set.univ (op := opOut) (S := S4) hOut (V := V2 m d)) $$ [Hb Ha Hv0 Hv1 Hr]
  · isplitl [Hb]; · iexact Hb
    rw [held_S4, V2_a, V2_w0, V2_w1, V2_w2]
    isplitl [Ha]; · iexact Ha
    isplitl [Hv0]; · iexact Hv0
    isplitl [Hv1]; · iexact Hv1
    iexact Hr
  iintro ⟨Hb, Hheld⟩
  ihave Hh := (Entails.of_eq (held_V3 (F := F) m d)) $$ Hheld
  icases Hh with ⟨Ha, -, -, Hr⟩
  rw [wp_ret]; imodintro; imodintro
  isplitl [Hst]; · iexact Hst
  isplitl [Ha]; · iexact Ha
  iexact Hr

def fq (d : Dev nD) (s' : Phys nD τ sig (Elt F)) : Prop :=
  s'.mem.mem (rLoc d) = Cert.Spec.spread (F := F) (m (aLoc d)) ∧ s'.mem.mem (aLoc d) = m (aLoc d)

theorem hfin (d : Dev nD) (s' : Phys nD τ sig (Elt F)) : iprop(FIN m d ∗ SI s') ⊢ (⌜fq m d s'⌝ : sProp 𝕄) := by
  have h1 : iprop(FIN m d ∗ SI s') ⊢ (⌜s'.mem.mem (aLoc d) = m (aLoc d)⌝ : sProp 𝕄) := by
    iintro ⟨⟨Ha, -⟩, HSI⟩
    ihave H := (SI_pointsTo_agree (st := s') (ℓ := aLoc d) (I := Finset.univ) (q := fullShare) (f := m (aLoc d))) $$ [HSI Ha]
    · isplitl [HSI] <;> iassumption
    icases H with %hx
    ipureintro; exact funext fun i => hx i (Finset.mem_univ i)
  have h2 : iprop(FIN m d ∗ SI s') ⊢ (⌜s'.mem.mem (rLoc d) = Cert.Spec.spread (F := F) (m (aLoc d))⌝ : sProp 𝕄) := by
    iintro ⟨⟨-, Hr⟩, HSI⟩
    ihave H := (SI_pointsTo_agree (st := s') (ℓ := rLoc d) (I := Finset.univ) (q := fullShare) (f := Cert.Spec.spread (F := F) (m (aLoc d)))) $$ [HSI Hr]
    · isplitl [HSI] <;> iassumption
    icases H with %hx
    ipureintro; exact funext fun i => hx i (Finset.mem_univ i)
  exact fun a ha => ⟨h2 a ha, h1 a ha⟩

/-! ## The program's run -/

/-- Every weakly fair execution of the whole program ends, with the result the argument's channels spread to the even
    positions and the argument unchanged: from the proof of one tile's body, at any contents of the two arrays of planes. -/
theorem run_main [∀ e, Nonempty (Elt F e)] (m : (ℓ : Loc nD τ sig) → Buf (Elt F) ℓ) (ρ : Dev nD → PrngReg)
    (hT : ∀ (y : (d : Dev nD) → Buf (Elt F) (v0Loc d)) (o : (d : Dev nD) → Buf (Elt F) (v1Loc d)), (K (F := F)).TileObl (D (F := F)) 𝒱 (P y o) v₀ 0) :
    θ_run (Cert.Kernel.defs (F := F)) (Cert.Kernel.threads (F := F)) ⟨m, fun _ => 0, ρ⟩
      (fun r => ∀ c : Dev nD,
        r.2.mem ((c.tc : Thread nD τ).loc main_v2) = Cert.Spec.spread (F := F) (m ((c.tc : Thread nD τ).loc main_arg0))
        ∧ r.2.mem ((c.tc : Thread nD τ).loc main_arg0) = m ((c.tc : Thread nD τ).loc main_arg0)) :=
  SparseCore.Cfg.θ_run_sc (K := K (F := F)) (D := D (F := F)) (𝒱 := 𝒱) (EH := EH) (P := P (yIn m) (oIn m)) facts v₀
    (fun q hq => match q with | 0 => nomatch hq)
    (fun q _ => match q with | 0 => hT (yIn m) (oIn m))
    (fun q _ => match q with | 0 => vecSplit (yIn m) (oIn m))
    m ρ main (fun _ => iprop(emp)) (FIN m) (u₀ (F := F)) (hu₀ (yIn m) (oIn m)) (hmain m ρ) (fq m) (hfin m) _ (fun _ h => h)

end Cert.Proof.KB

end
-- ==== Proof.KBTilePre.lean ====
/-
  One tile's task.

  The tile starts the copies of its first two input planes into its two plane buffers, fills its 16 x 224 scratch
  with zeros, sends that to its own sixteen rows of the SparseCore's shared buffer and waits for it, and arrives at the
  barrier, handing every tile of the SparseCore a sixteenth read share of those rows.  Leaving the barrier it holds a
  sixteenth share of all 256 rows, all zero.  From then on, for each of its twenty-four planes in turn, it starts a copy
  of rows 0 .. 223 of the shared buffer to the odd output plane (twenty-four copies on one semaphore, none waited for
  until the end; they only READ the shared rows, and write twenty-four different planes), waits for the input plane to
  land in a plane buffer, copies the buffer out to the even output plane, and, once that copy is done, refills the
  buffer with the input plane two steps ahead.  At the end it drains the twenty-four zero copies.

  What it leaves: output plane 2 p holds input plane p, output plane 2 p + 1 holds zeros, for each of its planes p.
-/
import proofs.«204282_g43688407335220_cont_8to1_c_395_12_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A DMA semaphore of the tile, as a cell. -/
abbrev dcell (d : Dev nD) (c : Fin τ.nSC) (i : Fin τ.nSub) (s : DmaSems sig S_) : GSem nD τ sig := (V d c i, .dma s.sem)

omit [FloatOps F] in
theorem bigSep_fin24 (Φ : Fin 24 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [show (Finset.univ : Finset (Fin 24)) = {0, 1, 2, 3, 4, 5, 6, 7, 8, 9, 10, 11, 12, 13, 14, 15, 16, 17, 18, 19, 20, 21, 22, 23} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide),
    bigSep_singleton]
  rfl

omit [FloatOps F] in
theorem ownSems0_V (d : Dev nD) (L : grid0.Coords) :
    (ownSems0 (V d (cV L) (jV L)) : sProp 𝕄)
      = iprop(semVal (dcell d (cV L) (jV L) cc0_scratch4) 0 ∗ semVal (dcell d (cV L) (jV L) cc0_scratch5) 0 ∗ semVal (dcell d (cV L) (jV L) cc0_scratch6) 0 ∗ semVal (dcell d (cV L) (jV L) cc0_scratch7) 0 ∗ semVal (dcell d (cV L) (jV L) cc0_scratch8) 0 ∗ semVal (dcell d (cV L) (jV L) cc0_scoped0) 0
          ∗ bigSep (((((((ownCells (V d (cV L) (jV L))).erase (dcell d (cV L) (jV L) cc0_scratch4)).erase (dcell d (cV L) (jV L) cc0_scratch5)).erase (dcell d (cV L) (jV L) cc0_scratch6)).erase (dcell d (cV L) (jV L) cc0_scratch7)).erase (dcell d (cV L) (jV L) cc0_scratch8)).erase (dcell d (cV L) (jV L) cc0_scoped0)) fun g => semVal g 0) := by
  unfold SparseCore.Cfg.ownSems0
  rw [SparseCore.bigSep_erase' ((mem_ownCells (g := dcell d (cV L) (jV L) cc0_scratch4)).mpr ⟨rfl, by show (SemLoc.dma cc0_scratch4.sem : SemLoc sig).isScoped .scVector = true; decide⟩),
    SparseCore.bigSep_erase' (Finset.mem_erase.mpr ⟨(fun h => absurd (congrArg Prod.snd h) (show (SemLoc.dma cc0_scratch5.sem : SemLoc sig) ≠ SemLoc.dma cc0_scratch4.sem by decide)), (mem_ownCells (g := dcell d (cV L) (jV L) cc0_scratch5)).mpr ⟨rfl, by show (SemLoc.dma cc0_scratch5.sem : SemLoc sig).isScoped .scVector = true; decide⟩⟩),
    SparseCore.bigSep_erase' (Finset.mem_erase.mpr ⟨(fun h => absurd (congrArg Prod.snd h) (show (SemLoc.dma cc0_scratch6.sem : SemLoc sig) ≠ SemLoc.dma cc0_scratch5.sem by decide)), Finset.mem_erase.mpr ⟨(fun h => absurd (congrArg Prod.snd h) (show (SemLoc.dma cc0_scratch6.sem : SemLoc sig) ≠ SemLoc.dma cc0_scratch4.sem by decide)), (mem_ownCells (g := dcell d (cV L) (jV L) cc0_scratch6)).mpr ⟨rfl, by show (SemLoc.dma cc0_scratch6.sem : SemLoc sig).isScoped .scVector = true; decide⟩⟩⟩),
    SparseCore.bigSep_erase' (Finset.mem_erase.mpr ⟨(fun h => absurd (congrArg Prod.snd h) (show (SemLoc.dma cc0_scratch7.sem : SemLoc sig) ≠ SemLoc.dma cc0_scratch6.sem by decide)), Finset.mem_erase.mpr ⟨(fun h => absurd (congrArg Prod.snd h) (show (SemLoc.dma cc0_scratch7.sem : SemLoc sig) ≠ SemLoc.dma cc0_scratch5.sem by decide)), Finset.mem_erase.mpr ⟨(fun h => absurd (congrArg Prod.snd h) (show (SemLoc.dma cc0_scratch7.sem : SemLoc sig) ≠ SemLoc.dma cc0_scratch4.sem by decide)), (mem_ownCells (g := dcell d (cV L) (jV L) cc0_scratch7)).mpr ⟨rfl, by show (SemLoc.dma cc0_scratch7.sem : SemLoc sig).isScoped .scVector = true; decide⟩⟩⟩⟩),
    SparseCore.bigSep_erase' (Finset.mem_erase.mpr ⟨(fun h => absurd (congrArg Prod.snd h) (show (SemLoc.dma cc0_scratch8.sem : SemLoc sig) ≠ SemLoc.dma cc0_scratch7.sem by decide)), Finset.mem_erase.mpr ⟨(fun h => absurd (congrArg Prod.snd h) (show (SemLoc.dma cc0_scratch8.sem : SemLoc sig) ≠ SemLoc.dma cc0_scratch6.sem by decide)), Finset.mem_erase.mpr ⟨(fun h => absurd (congrArg Prod.snd h) (show (SemLoc.dma cc0_scratch8.sem : SemLoc sig) ≠ SemLoc.dma cc0_scratch5.sem by decide)), Finset.mem_erase.mpr ⟨(fun h => absurd (congrArg Prod.snd h) (show (SemLoc.dma cc0_scratch8.sem : SemLoc sig) ≠ SemLoc.dma cc0_scratch4.sem by decide)), (mem_ownCells (g := dcell d (cV L) (jV L) cc0_scratch8)).mpr ⟨rfl, by show (SemLoc.dma cc0_scratch8.sem : SemLoc sig).isScoped .scVector = true; decide⟩⟩⟩⟩⟩),
    SparseCore.bigSep_erase' (Finset.mem_erase.mpr ⟨(fun h => absurd (congrArg Prod.snd h) (show (SemLoc.dma cc0_scoped0.sem : SemLoc sig) ≠ SemLoc.dma cc0_scratch8.sem by decide)), Finset.mem_erase.mpr ⟨(fun h => absurd (congrArg Prod.snd h) (show (SemLoc.dma cc0_scoped0.sem : SemLoc sig) ≠ SemLoc.dma cc0_scratch7.sem by decide)), Finset.mem_erase.mpr ⟨(fun h => absurd (congrArg Prod.snd h) (show (SemLoc.dma cc0_scoped0.sem : SemLoc sig) ≠ SemLoc.dma cc0_scratch6.sem by decide)), Finset.mem_erase.mpr ⟨(fun h => absurd (congrArg Prod.snd h) (show (SemLoc.dma cc0_scoped0.sem : SemLoc sig) ≠ SemLoc.dma cc0_scratch5.sem by decide)), Finset.mem_erase.mpr ⟨(fun h => absurd (congrArg Prod.snd h) (show (SemLoc.dma cc0_scoped0.sem : SemLoc sig) ≠ SemLoc.dma cc0_scratch4.sem by decide)), (mem_ownCells (g := dcell d (cV L) (jV L) cc0_scoped0)).mpr ⟨rfl, by show (SemLoc.dma cc0_scoped0.sem : SemLoc sig).isScoped .scVector = true; decide⟩⟩⟩⟩⟩⟩)]

omit [FloatOps F] in
theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨(fun h => absurd (congrArg (fun b : DevRef τ sig => b.idx.val) h) (show ¬ ((1 : ℕ) = 0) by decide)), SparseCore.Cfg.mem_ownRefs_of_owner (p := Proc.scVector (cV L) (jV L)) (b := (Proc.scVector (cV L) (jV L)).devRef cc0_scratch1) rfl⟩),
    SparseCore.bigSep_erase' (Finset.mem_erase.mpr ⟨(fun h => absurd (congrArg (fun b : DevRef τ sig => b.idx.val) h) (show ¬ ((2 : ℕ) = 1) by decide)), Finset.mem_erase.mpr ⟨(fun h => absurd (congrArg (fun b : DevRef τ sig => b.idx.val) h) (show ¬ ((2 : ℕ) = 0) by decide)), SparseCore.Cfg.mem_ownRefs_of_owner (p := Proc.scVector (cV L) (jV L)) (b := (Proc.scVector (cV L) (jV L)).devRef cc0_scratch2) rfl⟩⟩)]

/-- The tile's own sixteen rows of the shared buffer, as the body slices them. -/
abbrev shRect (L : grid0.Coords) : Rect S256x224 := Rect.unit (s := S256x224) (k0_off3 L) S16x224.size (k0_off3_inb L)
abbrev shMine (L : grid0.Coords) : Memref sig .scVector .shared S16x224 .f32 := (shV).slice (shRect L) (fun _ => rfl)
/-- Rows 0 .. 223 of the shared buffer: the source of every zero plane. -/
abbrev shSrc : Memref sig .scVector .shared S224x224 .f32 :=
  (shV).slice (Rect.unit (s := S256x224) ![0, 0] S224x224.size inb_S256x224_S224x224_0_0) (fun _ => rfl)

omit [FloatOps F] in
theorem shRect_eq (L : grid0.Coords) : shRect L = blk (jL L) := by
  unfold shRect blk Rect.part Rect.block
  congr 1 <;> funext a
  · rw [k0_off3_eq]
    match a with
    | 0 => simp [Shape.partIx, Shape.partSize]; exact Nat.mul_comm _ _
    | 1 => simp [Shape.partIx, Shape.partSize]
  · match a with
    | 0 => simp [Shape.partSize]
    | 1 => simp [Shape.partSize]

omit [FloatOps F] in
theorem set_shMine (L : grid0.Coords) : (shMine L).view.set = blkSet (jL L) := by
  show ((shV).view.slice (shRect L)).set = ((shV).view.slice (blk (jL L))).set
  rw [shRect_eq]

end Cert.Proof.KB

end
-- ==== Proof.KBTilePts.lean ====
/-
  The tile's resources respelt as the body addresses them (a plane through the slice at its literal chunk constant, a
  scratch through its whole memref), and what crosses the barrier: a tile's zeroed rows split into sixteen shares going
  out, a share of every tile's rows coming in, regrouped as the window of rows 0 .. 223 the zero copies read and the
  two row blocks beyond it.
-/
import proofs.«204282_g43688407335220_cont_8to1_c_395_12_alg».proof.Proof.KBTilePre
import proofs.«204282_g43688407335220_cont_8to1_c_395_12_alg».proof.Proof.KBShares

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid0.Coords)

/-! ## Planes through the body's own slices -/

abbrev inPlW (w : BitVec 32) (h : ∀ a, (k0_off1 L w) a + S1x224x224.size a ≤ S768x224x224.size a) : Memref sig .scVector .hbm S224x224 .f32 :=
  ((xV).slice (Rect.unit (s := S768x224x224) (k0_off1 L w) S1x224x224.size h) (fun _ => rfl)).squeeze S224x224 squeezes_S1x224x224_S224x224
abbrev evPlW (w : BitVec 32) (h : ∀ a, (k0_off5 L w) a + S1x224x224.size a ≤ S1536x224x224.size a) : Memref sig .scVector .hbm S224x224 .f32 :=
  ((oV).slice (Rect.unit (s := S1536x224x224) (k0_off5 L w) S1x224x224.size h) (fun _ => rfl)).squeeze S224x224 squeezes_S1x224x224_S224x224
abbrev odPlW (w : BitVec 32) (h : ∀ a, (k0_off4 L w) a + S1x224x224.size a ≤ S1536x224x224.size a) : Memref sig .scVector .hbm S224x224 .f32 :=
  ((oV).slice (Rect.unit (s := S1536x224x224) (k0_off4 L w) S1x224x224.size h) (fun _ => rfl)).squeeze S224x224 squeezes_S1x224x224_S224x224

omit [FloatOps F] in
theorem pts_inW (w : BitVec 32) (h) (r : Fin 24) (hw : w = BitVec.ofNat 32 (32 * r.val)) (f : Buf (Elt F) (v0Loc d)) :
    ((inPlW L w h).view.loc (V d (cV L) (jV L)) ↦[(inPlW L w h).view.set]{fullShare} f : sProp 𝕄) = v0Loc d ↦[inSet L r]{fullShare} f := by
  subst hw; rfl
omit [FloatOps F] in
theorem pts_evW (w : BitVec 32) (h) (r : Fin 24) (hw : w = BitVec.ofNat 32 (32 * r.val)) (f : Buf (Elt F) (v1Loc d)) :
    ((evPlW L w h).view.loc (V d (cV L) (jV L)) ↦[(evPlW L w h).view.set]{fullShare} f : sProp 𝕄) = v1Loc d ↦[evSet L r]{fullShare} f := by
  subst hw; rfl
omit [FloatOps F] in
theorem pts_odW (w : BitVec 32) (h) (r : Fin 24) (hw : w = BitVec.ofNat 32 (32 * r.val)) (f : Buf (Elt F) (v1Loc d)) :
    ((odPlW L w h).view.loc (V d (cV L) (jV L)) ↦[(odPlW L w h).view.set]{fullShare} f : sProp 𝕄) = v1Loc d ↦[odSet L r]{fullShare} f := by
  subst hw; rfl

omit [FloatOps F] in
theorem pts_b0 (f : Buf (Elt F) ((V d (cV L) (jV L)).loc cc0_scratch0)) :
    ((b0V).view.loc (V d (cV L) (jV L)) ↦{fullShare} f : sProp 𝕄) = (V d (cV L) (jV L)).loc cc0_scratch0 ↦{fullShare} f := rfl
omit [FloatOps F] in
theorem pts_b1 (f : Buf (Elt F) ((V d (cV L) (jV L)).loc cc0_scratch1)) :
    ((b1V).view.loc (V d (cV L) (jV L)) ↦{fullShare} f : sProp 𝕄) = (V d (cV L) (jV L)).loc cc0_scratch1 ↦{fullShare} f := rfl
omit [FloatOps F] in
theorem pts_zs (f : Buf (Elt F) ((V d (cV L) (jV L)).loc cc0_scratch2)) :
    ((zsV).view.loc (V d (cV L) (jV L)) ↦{fullShare} f : sProp 𝕄) = (V d (cV L) (jV L)).loc cc0_scratch2 ↦{fullShare} f := rfl

omit [FloatOps F] in
theorem pts_shMine (f : Buf (Elt F) (shLoc d (cV L))) :
    ((shMine L).view.loc (V d (cV L) (jV L)) ↦[(shMine L).view.set]{fullShare} f : sProp 𝕄) = shLoc d (cV L) ↦[blkSet (jL L)]{fullShare} f := by
  rw [set_shMine]; rfl

/-! ## Across the barrier -/

/-- Arriving: the tile's own rows, zero, at the full share, are one share for each tile's round. -/
theorem pays_intro : (shLoc d (cV L) ↦[blkSet (jL L)]{fullShare} shZ (F := F) d (cV L) : sProp 𝕄)
    ⊢ (bigSep Finset.univ fun j : Fin (grid0.bound 1) => (bRd (F := F)).payload (bcell d (cV L) (j.castLE hsub0)) 0 (jV L).val : sProp 𝕄) := by
  refine (shares16 (F := F) (ℓ := shLoc d (cV L)) (blkSet (jL L)) (shZ (F := F) d (cV L))).1.trans (Entails.of_eq ?_)
  refine bigSep_congr fun j _ => ?_
  show _ = bPay (bcell d (cV L) (j.castLE hsub0)) (jV L).val
  unfold bPay; dsimp only
  rw [dif_pos (show (jV L).val < 16 from (L 1).isLt)]
  rfl

/-- Leaving: what the tile's own round collected is the tile's share of every tile's rows. -/
theorem pays_elim : (bigSep ((bRd (F := F)).duties (bcell d (cV L) (jV L)) 0 \ ∅) fun n => (bRd (F := F)).payload (bcell d (cV L) (jV L)) 0 n)
    ⊢ (bigSep Finset.univ fun n : Fin 16 => shBlk (F := F) d (cV L) n (jL L).val : sProp 𝕄) := by
  rw [Finset.sdiff_empty, bRd_duties₀, SparseCore.bigSep_image_of_injOn (fun a _ b _ e => Fin.val_injective e)]
  refine Entails.of_eq (bigSep_congr fun n _ => ?_)
  show bPay (bcell d (cV L) (jV L)) n.val = _
  unfold bPay; dsimp only
  rw [dif_pos n.isLt]
  rfl

end Cert.Proof.KB

end
-- ==== Proof.KBZeroFill.lean ====
/-
  The zero fill of a tile's 16 x 224 scratch.

  Two nested counted loops store a vector of sixteen zeros at row k1, columns 16 k2 .. 16 k2 + 15, for
  k1 < 16 and k2 < 14.  Before outer trip k1 rows 0 .. k1 - 1 are zero; within it, before inner trip k2,
  the entries (k1, c) with c < 16 k2 are zero as well.  A store of the zero vector at row k1, columns
  16 k2 .. 16 k2 + 15 extends that by sixteen entries; 14 * 16 = 224 closes a row, sixteen rows close the
  buffer.
-/
import proofs.«204282_g43688407335220_cont_8to1_c_395_12_alg».proof.Proof.KBSetup
import Idealize.ShloMosaic.Lib.WritesUnit

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The all-zero contents of the tile's 16 x 224 scratch. -/
def zsZ (d : Dev nD) (L : grid0.Coords) : Buf (Elt F) ((V d (cV L) (jV L)).loc cc0_scratch2) := fun _ => (Cert.Spec.zero : F .f32)

theorem trips1 : Scf.trips k0_t1_loop.lb k0_t1_loop.ub k0_t1_loop.st = 16 := by decide
theorem trips2 : Scf.trips k0_t2_loop.lb k0_t2_loop.ub k0_t2_loop.st = 14 := by decide

/-- The entries known to be zero before inner trip k2 of outer trip k1: the rows above k1, and the first 16 k2
    entries of row k1. -/
def Done (k1 k2 : ℕ) (y : S16x224.Idx) : Prop := (y 0).val < k1 ∨ ((y 0).val = k1 ∧ (y 1).val < 16 * k2)

/-- The scratch held whole at some contents that are zero on the entries done. -/
def zinv (d : Dev nD) (L : grid0.Coords) (k1 k2 : ℕ) : sProp 𝕄 :=
  iprop(∃ g : Buf (Elt F) ((zsV).view.loc (V d (cV L) (jV L))),
    ((zsV).view.loc (V d (cV L) (jV L)) ↦{fullShare} g)
      ∗ ⌜∀ y : S16x224.Idx, Done k1 k2 y → (zsV).view.read (Elt F) g y = (Cert.Spec.zero : F .f32)⌝)

theorem done_start (y : S16x224.Idx) : ¬ Done 0 0 y := by
  unfold Done; omega

theorem done_row_end (k1 : ℕ) (y : S16x224.Idx) (h : Done (k1 + 1) 0 y) : Done k1 14 y := by
  have h1 : (y 1).val < 224 := (y 1).isLt
  unfold Done at *; omega

theorem done_all (y : S16x224.Idx) : Done 16 0 y := by
  have h0 : (y 0).val < 16 := (y 0).isLt
  unfold Done; omega

/-- One store of the zero vector at row k1, columns 16 k2 .. 16 k2 + 15: the entries done before inner trip k2 + 1
    read zero, the sixteen new ones off the payload, the others as before. -/
theorem read_store_zero {κ : Kind} {sp : Space} (v : View sig κ sp S16x224 .f32) (g : v.ty.Contents (Elt F))
    (k1 : Fin k0_t1_loop.trips) (k2 : Fin k0_t2_loop.trips)
    (hg : ∀ y : S16x224.Idx, Done k1.val k2.val y → v.read (Elt F) g y = (Cert.Spec.zero : F .f32))
    (y : S16x224.Idx) (hy : Done k1.val (k2.val + 1) y) :
    v.read (Elt F) (v.writes (Elt F) g [⟨Rect.unit (s := S16x224) (k0_off2 k1 k2) S1x16.size (k0_off2_inb k1 k2), k0_pay1 (F := F)⟩]) y
      = (Cert.Spec.zero : F .f32) := by
  rw [View.read_writes_cons_unit v g (k0_off2_inb k1 k2) _ [] y (k0_off2_eq k1 k2)]
  split
  · rfl
  · next h =>
    rw [View.writes_nil]
    apply hg
    by_contra hnd
    apply h
    refine Fin.forall_fin_two.mpr ⟨?_, ?_⟩
    · show k1.val ≤ (y 0).val ∧ (y 0).val < k1.val + 1
      unfold Done at *; omega
    · show 16 * k2.val ≤ (y 1).val ∧ (y 1).val < 16 * k2.val + 16
      unfold Done at *; omega

theorem zero_fill (d : Dev nD) (L : grid0.Coords) (f : Buf (Elt F) ((V d (cV L) (jV L)).loc cc0_scratch2)) (Q : Unit → sProp 𝕄) :
    iprop(((zsV).view.loc (V d (cV L) (jV L)) ↦{fullShare} f) ∗ (((zsV).view.loc (V d (cV L) (jV L)) ↦{fullShare} zsZ (F := F) d L) -∗ Q ⟨⟩))
      ⊢ wp frame (wpE (defs₀ (F := F)) 𝒱₀ (V d (cV L) (jV L)) none) Set.univ
          (Scf.Loop.for k0_t1_loop k0_t1_ok ⟨⟩ (k0_t1_body L xV (Memref.isWhole_whole _) oV (Memref.isWhole_whole _) b0V (Memref.isWhole_whole _) b1V (Memref.isWhole_whole _)
            zsV (Memref.isWhole_whole _) shV (Memref.isWhole_whole _) cc0_scratch4 cc0_scratch5 cc0_scratch6 cc0_scratch7 cc0_scratch8 cc0_scoped0)) Q := by
  iintro ⟨Hz, HQ⟩
  sl_for (fun k1 (_ : Unit) => zinv (F := F) d L k1 0) $$ [Hz HQ]
  case region =>
    intro k1 _
    unfold zinv
    iintro ⟨%g, Hz, %hg⟩
    sl_exec
    sl_for (fun k2 (_ : PUnit) => zinv (F := F) d L k1.val k2) $$ [Hz]
    case region =>
      intro k2 _
      unfold zinv
      iintro ⟨%g', Hz, %hg'⟩
      sl_exec
      sl_step
      iexists _
      isplitl [Hz]; · iexact Hz
      ipureintro
      exact fun y hy => read_store_zero (F := F) (zsV).view g' k1 k2 hg' y hy
    · unfold zinv
      iexists g
      isplitl [Hz]; · iexact Hz
      ipureintro; exact hg
    iintro %_ HI
    unfold zinv
    icases HI with ⟨%g', Hz, %hg'⟩
    sl_exec
    sl_step
    iexists g'
    isplitl [Hz]; · iexact Hz
    ipureintro
    intro y hy
    apply hg'
    rw [trips2]
    exact done_row_end k1.val y hy
  · isplitl [Hz]
    · unfold zinv
      iexists f
      isplitl [Hz]; · iexact Hz
      ipureintro
      exact fun y hy => absurd hy (done_start y)
    · iintro %_ HI
      unfold zinv
      icases HI with ⟨%g, Hz, %hg⟩
      rw [trips1] at hg
      obtain rfl : g = zsZ (F := F) d L := funext fun y => hg y (done_all y)
      iapply HQ
      iexact Hz

end Cert.Proof.KB

end
-- ==== Proof.KBReads.lean ====
/-
  What the tile's memrefs read off the contents the proof names.

  A buffer held by the elements under a memref's view is determined, there, by what the view reads: two contents
  that read the same through the view agree on every element under it.

  The views of a tile's planes.  Entry x of a unit-thick slab at leading coordinate p of an [n, 224, 224] array,
  squeezed to a plane, is the array's entry (p, x 0, x 1).  So through the tile's r-th even output plane the final
  contents read what its r-th input plane reads off the input (output plane 2 p is input plane p), through the r-th
  odd output plane they read zero, and constant contents read constant through any view.
-/
import proofs.«204282_g43688407335220_cont_8to1_c_395_12_alg».proof.Proof.KBTilePre
import proofs.«204282_g43688407335220_cont_8to1_c_395_12_alg».proof.Proof.KBPlanes
import proofs.«204282_g43688407335220_cont_8to1_c_395_12_alg».proof.Proof.KBZeroFill

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI

variable {F : FTy → Type}

local notation "𝕄" => MT nD τ sig (HIx 1) (Elt F) ℕ UU ℕ

/-! ## Held by a memref's own elements, a buffer is what the memref reads -/

/-- Contents that read the same through a memref's view are the same buffer, held by the view's own elements. -/
theorem pts_of_read {cs : Space} {s : Shape} {e : EltTy} (c : Thread nD τ) (m : Memref sig c.2.kind cs s e)
    (g g' : Buf (Elt F) (m.view.loc c)) (q : PosShare TreeShare) (h : m.view.read (Elt F) g = m.view.read (Elt F) g') :
    (m.view.loc c ↦[m.view.set]{q} g : sProp 𝕄) = m.view.loc c ↦[m.view.set]{q} g' :=
  pointsTo_congr fun i hi => by
    obtain ⟨x, -, rfl⟩ := Finset.mem_map.mp hi
    have hx := congrFun h x
    rw [View.read_apply, View.read_apply] at hx
    exact (cast_inj _).mp hx

variable [FloatOps F]

/-! ## Constant contents read constant -/

theorem read_shZ_src (d : Dev nD) (c : Fin τ.nSC) :
    (shSrc).view.read (Elt F) (shZ (F := F) d c) = fun _ => (Cert.Spec.zero : F .f32) := rfl

theorem read_shZ_mine (d : Dev nD) (c : Fin τ.nSC) (L : grid0.Coords) :
    (shMine L).view.read (Elt F) (shZ (F := F) d c) = fun _ => (Cert.Spec.zero : F .f32) := rfl

theorem read_zsZ (d : Dev nD) (L : grid0.Coords) :
    (zsV).view.read (Elt F) (zsZ (F := F) d L) = fun _ => (Cert.Spec.zero : F .f32) := rfl

/-! ## The odd output planes read zero -/

theorem read_res_od (y : (d : Dev nD) → Buf (Elt F) (v0Loc d)) (d : Dev nD) (L : grid0.Coords) (r : Fin 24) :
    (odPl L r).view.read (Elt F) (res y d) = fun _ => (Cert.Spec.zero : F .f32) := by
  funext x
  show Cert.Spec.spreadPlanes (F := F) (y d) ((odPl L r).view.emb x) = Cert.Spec.zero
  exact spreadPlanes_of_mem_odSet (y d) (View.emb_mem_set _ x)

/-! ## The even output planes read the input planes -/

/-- Squeezing a plane out of a unit-thick slab: the plane's entry x is the slab's entry (0, x 0, x 1). -/
theorem squeeze_idx (h : S224x224.numel = S1x224x224.numel) (x : S224x224.Idx) :
    Shape.reshapeEquiv h x = (Fin.cons ⟨0, Nat.one_pos⟩ x : S1x224x224.Idx) :=
  Shape.reshapeEquiv_cons_one (n := 2) (d := ![224, 224]) h x

/-- Entry x of the plane squeezed out of the unit-thick slab at leading coordinate p of an [n, 224, 224] array is the
    array's entry (p, x 0, x 1). -/
theorem slab_emb {n : ℕ} (off : Fin 3 → ℕ) (p : ℕ) (hoff : off = ![p, 0, 0])
    (inb : ∀ a, off a + S1x224x224.size a ≤ (⟨3, ![n, 224, 224]⟩ : Shape).size a)
    (h : S224x224.numel = S1x224x224.numel) (x : S224x224.Idx) :
    (((Rect.unit (s := ⟨3, ![n, 224, 224]⟩) off S1x224x224.size inb).emb (Shape.reshapeEquiv h x)) 0).val = p
      ∧ (((Rect.unit (s := ⟨3, ![n, 224, 224]⟩) off S1x224x224.size inb).emb (Shape.reshapeEquiv h x)) 1).val = (x 0).val
      ∧ (((Rect.unit (s := ⟨3, ![n, 224, 224]⟩) off S1x224x224.size inb).emb (Shape.reshapeEquiv h x)) 2).val = (x 1).val := by
  subst hoff
  rw [squeeze_idx h x]
  refine ⟨?_, ?_, ?_⟩
  · show p + 1 * 0 = p; omega
  · show 0 + 1 * (x 0).val = (x 0).val; omega
  · show 0 + 1 * (x 1).val = (x 1).val; omega

theorem read_res_ev (y : (d : Dev nD) → Buf (Elt F) (v0Loc d)) (d : Dev nD) (L : grid0.Coords) (r : Fin 24) :
    (evPl L r).view.read (Elt F) (res y d) = (inPl L r).view.read (Elt F) (y d) := by
  funext x
  show Cert.Spec.spreadPlanes (F := F) (y d) ((evPl L r).view.emb x) = y d ((inPl L r).view.emb x)
  rw [spreadPlanes_of_mem_evSet (y d) (View.emb_mem_set _ x)]
  obtain ⟨-, e1, e2⟩ := slab_emb (n := 1536) _ _ (k0_off5_eq L r) (k0_off5_inb L r) squeezes_S1x224x224_S224x224.numel_eq x
  obtain ⟨i0, i1, i2⟩ := slab_emb (n := 768) _ _ (k0_off1_eq L r) (k0_off1_inb L r) squeezes_S1x224x224_S224x224.numel_eq x
  refine congrArg (y d) (funext fun a => ?_)
  match a with
  | ⟨0, _⟩ => exact Fin.ext i0.symm
  | ⟨1, _⟩ => exact Fin.ext (e1.trans i1.symm)
  | ⟨2, _⟩ => exact Fin.ext (e2.trans i2.symm)

end Cert.Proof.KB

end
-- ==== Proof.KBShRegroup.lean ====
/-
  The shared buffer's sixteen row blocks, regrouped.

  Block n of the 256 x 224 shared buffer is rows 16 n .. 16 n + 15: an element lies in block n exactly when its row
  divided by 16 is n.  The window of rows 0 .. 223 that every zero plane is copied from is therefore blocks 0 .. 13
  together (224 = 14 * 16), and the sixteen blocks are that window, block 14 and block 15.  The blocks are pairwise
  disjoint, so holding the buffer block by block at one share is holding the window, block 14 and block 15 at that
  share, and the other way round.
-/
import proofs.«204282_g43688407335220_cont_8to1_c_395_12_alg».proof.Proof.KBTilePre

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The element sets -/

/-- A block's elements are its rectangle's. -/
theorem blkSet_eq (n : Fin 16) : blkSet n = (blk n).set := by
  show ((View.whole (cc0_scratch3 : Ref sig .scVector)).slice (blk n)).set = _
  rw [View.set_slice]; exact Finset.map_refl

/-- An element lies in block n exactly when its row divided by 16 is n. -/
theorem mem_blkSet (n : Fin 16) (i : S256x224.Idx) : i ∈ blkSet n ↔ (i 0).val / 16 = n.val := by
  have h0 : (i 0).val < 256 := (i 0).isLt
  have h1 : (i 1).val < 224 := (i 1).isLt
  have hn : n.val < 16 := n.isLt
  rw [blkSet_eq]
  show i ∈ (Rect.unit (s := S256x224) _ _ _).set ↔ _
  rw [Rect.mem_set_unit, Fin.forall_fin_two]
  show (n.val * 16 ≤ (i 0).val ∧ (i 0).val < n.val * 16 + 16) ∧ (0 * 224 ≤ (i 1).val ∧ (i 1).val < 0 * 224 + 224) ↔ _
  constructor
  · intro h; omega
  · intro h; omega

/-- The window's elements are its rectangle's. -/
theorem srcSet_eq_rect :
    (shSrc).view.set = (Rect.unit (s := S256x224) ![0, 0] S224x224.size inb_S256x224_S224x224_0_0).set := by
  show ((View.whole (cc0_scratch3 : Ref sig .scVector)).slice _).set = _
  rw [View.set_slice]; exact Finset.map_refl

/-- An element lies in the window exactly when its row is below 224. -/
theorem mem_srcSet (i : S256x224.Idx) : i ∈ (shSrc).view.set ↔ (i 0).val < 224 := by
  have h1 : (i 1).val < 224 := (i 1).isLt
  rw [srcSet_eq_rect, Rect.mem_set_unit, Fin.forall_fin_two]
  show (0 ≤ (i 0).val ∧ (i 0).val < 0 + 224) ∧ (0 ≤ (i 1).val ∧ (i 1).val < 0 + 224) ↔ _
  constructor
  · intro h; omega
  · intro h; omega

/-- The window is blocks 0 .. 13 together. -/
theorem srcSet_eq : (shSrc).view.set = (Finset.univ.filter fun n : Fin 16 => n.val < 14).biUnion blkSet := by
  ext i
  rw [mem_srcSet, Finset.mem_biUnion]
  have h0 : (i 0).val < 256 := (i 0).isLt
  constructor
  · intro h
    refine ⟨⟨(i 0).val / 16, by omega⟩, Finset.mem_filter.2 ⟨Finset.mem_univ _, ?_⟩, (mem_blkSet _ i).2 rfl⟩
    show (i 0).val / 16 < 14
    omega
  · rintro ⟨n, hn, hi⟩
    have hn' : n.val < 14 := (Finset.mem_filter.1 hn).2
    have hi' := (mem_blkSet n i).1 hi
    omega

/-- Different blocks share no element. -/
theorem blk_disjoint (s : Finset (Fin 16)) :
    ∀ n ∈ s, ∀ n' ∈ s, n ≠ n' → Disjoint (blkSet n) (blkSet n') :=
  fun n _ n' _ h => by rw [blkSet_eq, blkSet_eq]; exact Rect.part_disjoint hdiv h

/-! ## The regrouping -/

variable [FloatOps F]

/-- The sixteen row blocks at one share are the window of rows 0 .. 223, block 14 and block 15 at that share. -/
theorem src_split (d : Dev nD) (c : Fin τ.nSC) (k : ℕ) :
    (bigSep Finset.univ fun n : Fin 16 => shBlk (F := F) d c n k : sProp 𝕄)
      ⊣⊢ iprop((shLoc d c ↦[(shSrc).view.set]{σ k} shZ (F := F) d c) ∗ shBlk (F := F) d c 14 k ∗ shBlk (F := F) d c 15 k) := by
  have h : (bigSep Finset.univ fun n : Fin 16 => shBlk (F := F) d c n k : sProp 𝕄)
      = iprop((shLoc d c ↦[(shSrc).view.set]{σ k} shZ (F := F) d c) ∗ shBlk (F := F) d c 14 k ∗ shBlk (F := F) d c 15 k) := by
    rw [show (Finset.univ : Finset (Fin 16)) = (Finset.univ.filter fun n : Fin 16 => n.val < 14) ∪ {14, 15} from by decide,
      bigSep_union (by decide), bigSep_insert (by decide), bigSep_singleton, srcSet_eq,
      pointsTo_biUnion (Finset.univ.filter fun n : Fin 16 => n.val < 14) (ℓ := shLoc d c) blkSet (blk_disjoint _)]
    rfl
  exact BIBase.BiEntails.of_eq h

end Cert.Proof.KB

end
-- ==== Proof.KBValue.lean ====
/-
  What the copies leave, restated as the result.

  A plane held by its own elements is determined by what its view reads.  An even output plane was written whole with
  what a plane buffer read, and the buffer had been written whole with what the input plane's view reads of the input:
  so the even plane reads the input plane, which is what the result reads there.  An odd output plane was written whole
  with what rows 0 .. 223 of the shared buffer read, all zero: what the result reads there.  The tile's own sixteen
  shared rows were written whole with what its zeroed scratch reads.
-/
import proofs.«204282_g43688407335220_cont_8to1_c_395_12_alg».proof.Proof.KBTilePts
import proofs.«204282_g43688407335220_cont_8to1_c_395_12_alg».proof.Proof.KBReads
import proofs.«204282_g43688407335220_cont_8to1_c_395_12_alg».proof.Proof.KBShRegroup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable [∀ e, Nonempty (Elt F e)]
variable (y : (d : Dev nD) → Buf (Elt F) (v0Loc d))
variable (d : Dev nD) (L : grid0.Coords)

/-- An even output plane after its copy: the result there. -/
theorem ev_final (w : BitVec 32) (h) (h') (r : Fin 24) (hw : w = BitVec.ofNat 32 (32 * r.val)) (p : S224x224.Idx → Elt F .f32)
    (hp : p = (inPlW L w h').view.read (Elt F) (y d)) (fo : Buf (Elt F) (v1Loc d)) :
    ((evPlW L w h).view.loc (V d (cV L) (jV L)) ↦[(evPlW L w h).view.set]{fullShare}
        (evPlW L w h).view.writes (Elt F) fo [⟨Rect.whole S224x224, p⟩] : sProp 𝕄)
      = v1Loc d ↦[evSet L r]{fullShare} res y d := by
  subst hw; subst hp
  rw [pts_of_read (F := F) (V d (cV L) (jV L)) (evPl L r) _ (res y d) fullShare (by rw [View.read_writes_whole]; exact (read_res_ev (F := F) y d L r).symm)]

/-- An odd output plane after its copy: the result there, zero. -/
theorem od_final (w : BitVec 32) (h) (r : Fin 24) (hw : w = BitVec.ofNat 32 (32 * r.val)) (p : S224x224.Idx → Elt F .f32)
    (hp : p = fun _ => (Cert.Spec.zero : F .f32)) (fo : Buf (Elt F) (v1Loc d)) :
    ((odPlW L w h).view.loc (V d (cV L) (jV L)) ↦[(odPlW L w h).view.set]{fullShare}
        (odPlW L w h).view.writes (Elt F) fo [⟨Rect.whole S224x224, p⟩] : sProp 𝕄)
      = v1Loc d ↦[odSet L r]{fullShare} res y d := by
  subst hw; subst hp
  rw [pts_of_read (F := F) (V d (cV L) (jV L)) (odPl L r) _ (res y d) fullShare (by rw [View.read_writes_whole]; exact (read_res_od (F := F) y d L r).symm)]

/-- The tile's own shared rows after the copy of its zeroed scratch: zero. -/
theorem sh_final (p : S16x224.Idx → Elt F .f32) (hp : p = fun _ => (Cert.Spec.zero : F .f32)) (fo : Buf (Elt F) (shLoc d (cV L))) :
    ((shMine L).view.loc (V d (cV L) (jV L)) ↦[(shMine L).view.set]{fullShare}
        (shMine L).view.writes (Elt F) fo [⟨Rect.whole S16x224, p⟩] : sProp 𝕄)
      = shLoc d (cV L) ↦[blkSet (jL L)]{fullShare} shZ (F := F) d (cV L) := by
  subst hp
  rw [pts_of_read (F := F) (V d (cV L) (jV L)) (shMine L) _ (shZ (F := F) d (cV L)) fullShare (by rw [View.read_writes_whole]; exact (read_shZ_mine (F := F) d (cV L) L).symm)]
  exact pts_shMine (F := F) d L _

omit [∀ e, Nonempty (Elt F e)] [FloatOps F] in
/-- A wait at the kernel's own index stays within the bound on the waits recorded. -/
theorem wb_none {W W' : Waits sig (HIx 1)} (a : SemLoc sig) (h : ∀ p ∈ W', p ∈ W ∨ p.2 = none ∨ p.2 = some (0 : Fin 1)) :
    ∀ p ∈ insert (a, (default : HIx 1)) W', p ∈ W ∨ p.2 = none ∨ p.2 = some (0 : Fin 1) := by
  intro p hp
  rcases Finset.mem_insert.mp hp with rfl | hp
  · exact .inr (.inl rfl)
  · exact h p hp
omit [∀ e, Nonempty (Elt F e)] [FloatOps F] in
/-- So does the barrier's wait, at the call's index. -/
theorem wb_call {W W' : Waits sig (HIx 1)} (a : SemLoc sig) (h : ∀ p ∈ W', p ∈ W ∨ p.2 = none ∨ p.2 = some (0 : Fin 1)) :
    ∀ p ∈ insert (a, (some 0 : HIx 1)) W', p ∈ W ∨ p.2 = none ∨ p.2 = some (0 : Fin 1) := by
  intro p hp
  rcases Finset.mem_insert.mp hp with rfl | hp
  · exact .inr (.inr rfl)
  · exact h p hp

end Cert.Proof.KB

end
-- ==== Proof.KBTile.lean ====
/-
  One tile's task.

  The tile starts the copies of its first two input planes into its two plane buffers, fills its 16 x 224 scratch
  with zeros, sends that to its own sixteen rows of the SparseCore's shared buffer and waits for it, and arrives at the
  barrier, handing every tile of the SparseCore a sixteenth read share of those rows.  Leaving the barrier it holds a
  sixteenth share of all 256 rows, all zero.  From then on, for each of its twenty-four planes in turn, it starts a copy
  of rows 0 .. 223 of the shared buffer to the odd output plane (twenty-four copies on one semaphore, none waited for
  until the end; they only READ the shared rows, and write twenty-four different planes), waits for the input plane to
  land in a plane buffer, copies the buffer out to the even output plane, and, once that copy is done, refills the
  buffer with the input plane two steps ahead.  At the end it drains the twenty-four zero copies.

  What it leaves: output plane 2 p holds input plane p, output plane 2 p + 1 holds zeros, for each of its planes p.
-/
import proofs.«204282_g43688407335220_cont_8to1_c_395_12_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (y : (d : Dev nD) → Buf (Elt F) (v0Loc d)) (o : (d : Dev nD) → Buf (Elt F) (v1Loc d))
variable (d : Dev nD) (L : grid0.Coords)

set_option maxHeartbeats 8000000 in
theorem tile_body [∀ e, Nonempty (Elt F e)] (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit d (cV L) (jV L)
        ∗ (goH y o d L ∗ ∃ f, shLoc d (cV L) ↦[blkSet (jL L)]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__body L xV (Memref.isWhole_whole _) oV (Memref.isWhole_whole _) b0V (Memref.isWhole_whole _) b1V (Memref.isWhole_whole _) zsV (Memref.isWhole_whole _) shV (Memref.isWhole_whole _) cc0_scratch4 cc0_scratch5 cc0_scratch6 cc0_scratch7 cc0_scratch8 cc0_scoped0)
          fun _ => iprop((tdH y d L ∗ bigSep Finset.univ fun n : Fin 16 => shBlk (F := F) d (cV L) n (jL L).val)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold bkit goH tdH
  rw [bigSep_fin24, bigSep_fin24]
  iintro ⟨#Hlv, ⟨⟨%κ, #Hinv⟩, Htoks, #Hrch, Hat, Hcred⟩, ⟨⟨⟨Hi0, He0, Ho0⟩, ⟨Hi1, He1, Ho1⟩, ⟨Hi2, He2, Ho2⟩, ⟨Hi3, He3, Ho3⟩, ⟨Hi4, He4, Ho4⟩, ⟨Hi5, He5, Ho5⟩, ⟨Hi6, He6, Ho6⟩, ⟨Hi7, He7, Ho7⟩, ⟨Hi8, He8, Ho8⟩, ⟨Hi9, He9, Ho9⟩, ⟨Hi10, He10, Ho10⟩, ⟨Hi11, He11, Ho11⟩, ⟨Hi12, He12, Ho12⟩, ⟨Hi13, He13, Ho13⟩, ⟨Hi14, He14, Ho14⟩, ⟨Hi15, He15, Ho15⟩, ⟨Hi16, He16, Ho16⟩, ⟨Hi17, He17, Ho17⟩, ⟨Hi18, He18, Ho18⟩, ⟨Hi19, He19, Ho19⟩, ⟨Hi20, He20, Ho20⟩, ⟨Hi21, He21, Ho21⟩, ⟨Hi22, He22, Ho22⟩, ⟨Hi23, He23, Ho23⟩⟩, %fsh, Hsh⟩, ⟨⟨%f0, Hb0⟩, ⟨%f1, Hb1⟩, ⟨%fz, Hzs⟩, Hbufs⟩, ⟨Hs4, Hs5, Hs6, Hs7, Hs8, Hsc, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hsh' := (Entails.of_eq (pts_shMine (F := F) d L _).symm) $$ Hsh
  ihave Hb0' := (Entails.of_eq (pts_b0 (F := F) d L _).symm) $$ Hb0
  ihave Hb1' := (Entails.of_eq (pts_b1 (F := F) d L _).symm) $$ Hb1
  ihave Hzs' := (Entails.of_eq (pts_zs (F := F) d L _).symm) $$ Hzs
  ihave Hi0' := (Entails.of_eq (pts_inW (F := F) d L 0#32 (k0_off1_inb L 0) 0 rfl _).symm) $$ Hi0
  ihave He0' := (Entails.of_eq (pts_evW (F := F) d L 0#32 (k0_off5_inb L 0) 0 rfl _).symm) $$ He0
  ihave Ho0' := (Entails.of_eq (pts_odW (F := F) d L 0#32 (k0_off4_inb L 0) 0 rfl _).symm) $$ Ho0
  ihave Hi1' := (Entails.of_eq (pts_inW (F := F) d L 32#32 (k0_off1_inb L 1) 1 rfl _).symm) $$ Hi1
  ihave He1' := (Entails.of_eq (pts_evW (F := F) d L 32#32 (k0_off5_inb L 1) 1 rfl _).symm) $$ He1
  ihave Ho1' := (Entails.of_eq (pts_odW (F := F) d L 32#32 (k0_off4_inb L 1) 1 rfl _).symm) $$ Ho1
  ihave Hi2' := (Entails.of_eq (pts_inW (F := F) d L 64#32 (k0_off1_inb L 2) 2 rfl _).symm) $$ Hi2
  ihave He2' := (Entails.of_eq (pts_evW (F := F) d L 64#32 (k0_off5_inb L 2) 2 rfl _).symm) $$ He2
  ihave Ho2' := (Entails.of_eq (pts_odW (F := F) d L 64#32 (k0_off4_inb L 2) 2 rfl _).symm) $$ Ho2
  ihave Hi3' := (Entails.of_eq (pts_inW (F := F) d L 96#32 (k0_off1_inb L 3) 3 rfl _).symm) $$ Hi3
  ihave He3' := (Entails.of_eq (pts_evW (F := F) d L 96#32 (k0_off5_inb L 3) 3 rfl _).symm) $$ He3
  ihave Ho3' := (Entails.of_eq (pts_odW (F := F) d L 96#32 (k0_off4_inb L 3) 3 rfl _).symm) $$ Ho3
  ihave Hi4' := (Entails.of_eq (pts_inW (F := F) d L 128#32 (k0_off1_inb L 4) 4 rfl _).symm) $$ Hi4
  ihave He4' := (Entails.of_eq (pts_evW (F := F) d L 128#32 (k0_off5_inb L 4) 4 rfl _).symm) $$ He4
  ihave Ho4' := (Entails.of_eq (pts_odW (F := F) d L 128#32 (k0_off4_inb L 4) 4 rfl _).symm) $$ Ho4
  ihave Hi5' := (Entails.of_eq (pts_inW (F := F) d L 160#32 (k0_off1_inb L 5) 5 rfl _).symm) $$ Hi5
  ihave He5' := (Entails.of_eq (pts_evW (F := F) d L 160#32 (k0_off5_inb L 5) 5 rfl _).symm) $$ He5
  ihave Ho5' := (Entails.of_eq (pts_odW (F := F) d L 160#32 (k0_off4_inb L 5) 5 rfl _).symm) $$ Ho5
  ihave Hi6' := (Entails.of_eq (pts_inW (F := F) d L 192#32 (k0_off1_inb L 6) 6 rfl _).symm) $$ Hi6
  ihave He6' := (Entails.of_eq (pts_evW (F := F) d L 192#32 (k0_off5_inb L 6) 6 rfl _).symm) $$ He6
  ihave Ho6' := (Entails.of_eq (pts_odW (F := F) d L 192#32 (k0_off4_inb L 6) 6 rfl _).symm) $$ Ho6
  ihave Hi7' := (Entails.of_eq (pts_inW (F := F) d L 224#32 (k0_off1_inb L 7) 7 rfl _).symm) $$ Hi7
  ihave He7' := (Entails.of_eq (pts_evW (F := F) d L 224#32 (k0_off5_inb L 7) 7 rfl _).symm) $$ He7
  ihave Ho7' := (Entails.of_eq (pts_odW (F := F) d L 224#32 (k0_off4_inb L 7) 7 rfl _).symm) $$ Ho7
  ihave Hi8' := (Entails.of_eq (pts_inW (F := F) d L 256#32 (k0_off1_inb L 8) 8 rfl _).symm) $$ Hi8
  ihave He8' := (Entails.of_eq (pts_evW (F := F) d L 256#32 (k0_off5_inb L 8) 8 rfl _).symm) $$ He8
  ihave Ho8' := (Entails.of_eq (pts_odW (F := F) d L 256#32 (k0_off4_inb L 8) 8 rfl _).symm) $$ Ho8
  ihave Hi9' := (Entails.of_eq (pts_inW (F := F) d L 288#32 (k0_off1_inb L 9) 9 rfl _).symm) $$ Hi9
  ihave He9' := (Entails.of_eq (pts_evW (F := F) d L 288#32 (k0_off5_inb L 9) 9 rfl _).symm) $$ He9
  ihave Ho9' := (Entails.of_eq (pts_odW (F := F) d L 288#32 (k0_off4_inb L 9) 9 rfl _).symm) $$ Ho9
  ihave Hi10' := (Entails.of_eq (pts_inW (F := F) d L 320#32 (k0_off1_inb L 10) 10 rfl _).symm) $$ Hi10
  ihave He10' := (Entails.of_eq (pts_evW (F := F) d L 320#32 (k0_off5_inb L 10) 10 rfl _).symm) $$ He10
  ihave Ho10' := (Entails.of_eq (pts_odW (F := F) d L 320#32 (k0_off4_inb L 10) 10 rfl _).symm) $$ Ho10
  ihave Hi11' := (Entails.of_eq (pts_inW (F := F) d L 352#32 (k0_off1_inb L 11) 11 rfl _).symm) $$ Hi11
  ihave He11' := (Entails.of_eq (pts_evW (F := F) d L 352#32 (k0_off5_inb L 11) 11 rfl _).symm) $$ He11
  ihave Ho11' := (Entails.of_eq (pts_odW (F := F) d L 352#32 (k0_off4_inb L 11) 11 rfl _).symm) $$ Ho11
  ihave Hi12' := (Entails.of_eq (pts_inW (F := F) d L 384#32 (k0_off1_inb L 12) 12 rfl _).symm) $$ Hi12
  ihave He12' := (Entails.of_eq (pts_evW (F := F) d L 384#32 (k0_off5_inb L 12) 12 rfl _).symm) $$ He12
  ihave Ho12' := (Entails.of_eq (pts_odW (F := F) d L 384#32 (k0_off4_inb L 12) 12 rfl _).symm) $$ Ho12
  ihave Hi13' := (Entails.of_eq (pts_inW (F := F) d L 416#32 (k0_off1_inb L 13) 13 rfl _).symm) $$ Hi13
  ihave He13' := (Entails.of_eq (pts_evW (F := F) d L 416#32 (k0_off5_inb L 13) 13 rfl _).symm) $$ He13
  ihave Ho13' := (Entails.of_eq (pts_odW (F := F) d L 416#32 (k0_off4_inb L 13) 13 rfl _).symm) $$ Ho13
  ihave Hi14' := (Entails.of_eq (pts_inW (F := F) d L 448#32 (k0_off1_inb L 14) 14 rfl _).symm) $$ Hi14
  ihave He14' := (Entails.of_eq (pts_evW (F := F) d L 448#32 (k0_off5_inb L 14) 14 rfl _).symm) $$ He14
  ihave Ho14' := (Entails.of_eq (pts_odW (F := F) d L 448#32 (k0_off4_inb L 14) 14 rfl _).symm) $$ Ho14
  ihave Hi15' := (Entails.of_eq (pts_inW (F := F) d L 480#32 (k0_off1_inb L 15) 15 rfl _).symm) $$ Hi15
  ihave He15' := (Entails.of_eq (pts_evW (F := F) d L 480#32 (k0_off5_inb L 15) 15 rfl _).symm) $$ He15
  ihave Ho15' := (Entails.of_eq (pts_odW (F := F) d L 480#32 (k0_off4_inb L 15) 15 rfl _).symm) $$ Ho15
  ihave Hi16' := (Entails.of_eq (pts_inW (F := F) d L 512#32 (k0_off1_inb L 16) 16 rfl _).symm) $$ Hi16
  ihave He16' := (Entails.of_eq (pts_evW (F := F) d L 512#32 (k0_off5_inb L 16) 16 rfl _).symm) $$ He16
  ihave Ho16' := (Entails.of_eq (pts_odW (F := F) d L 512#32 (k0_off4_inb L 16) 16 rfl _).symm) $$ Ho16
  ihave Hi17' := (Entails.of_eq (pts_inW (F := F) d L 544#32 (k0_off1_inb L 17) 17 rfl _).symm) $$ Hi17
  ihave He17' := (Entails.of_eq (pts_evW (F := F) d L 544#32 (k0_off5_inb L 17) 17 rfl _).symm) $$ He17
  ihave Ho17' := (Entails.of_eq (pts_odW (F := F) d L 544#32 (k0_off4_inb L 17) 17 rfl _).symm) $$ Ho17
  ihave Hi18' := (Entails.of_eq (pts_inW (F := F) d L 576#32 (k0_off1_inb L 18) 18 rfl _).symm) $$ Hi18
  ihave He18' := (Entails.of_eq (pts_evW (F := F) d L 576#32 (k0_off5_inb L 18) 18 rfl _).symm) $$ He18
  ihave Ho18' := (Entails.of_eq (pts_odW (F := F) d L 576#32 (k0_off4_inb L 18) 18 rfl _).symm) $$ Ho18
  ihave Hi19' := (Entails.of_eq (pts_inW (F := F) d L 608#32 (k0_off1_inb L 19) 19 rfl _).symm) $$ Hi19
  ihave He19' := (Entails.of_eq (pts_evW (F := F) d L 608#32 (k0_off5_inb L 19) 19 rfl _).symm) $$ He19
  ihave Ho19' := (Entails.of_eq (pts_odW (F := F) d L 608#32 (k0_off4_inb L 19) 19 rfl _).symm) $$ Ho19
  ihave Hi20' := (Entails.of_eq (pts_inW (F := F) d L 640#32 (k0_off1_inb L 20) 20 rfl _).symm) $$ Hi20
  ihave He20' := (Entails.of_eq (pts_evW (F := F) d L 640#32 (k0_off5_inb L 20) 20 rfl _).symm) $$ He20
  ihave Ho20' := (Entails.of_eq (pts_odW (F := F) d L 640#32 (k0_off4_inb L 20) 20 rfl _).symm) $$ Ho20
  ihave Hi21' := (Entails.of_eq (pts_inW (F := F) d L 672#32 (k0_off1_inb L 21) 21 rfl _).symm) $$ Hi21
  ihave He21' := (Entails.of_eq (pts_evW (F := F) d L 672#32 (k0_off5_inb L 21) 21 rfl _).symm) $$ He21
  ihave Ho21' := (Entails.of_eq (pts_odW (F := F) d L 672#32 (k0_off4_inb L 21) 21 rfl _).symm) $$ Ho21
  ihave Hi22' := (Entails.of_eq (pts_inW (F := F) d L 704#32 (k0_off1_inb L 22) 22 rfl _).symm) $$ Hi22
  ihave He22' := (Entails.of_eq (pts_evW (F := F) d L 704#32 (k0_off5_inb L 22) 22 rfl _).symm) $$ He22
  ihave Ho22' := (Entails.of_eq (pts_odW (F := F) d L 704#32 (k0_off4_inb L 22) 22 rfl _).symm) $$ Ho22
  ihave Hi23' := (Entails.of_eq (pts_inW (F := F) d L 736#32 (k0_off1_inb L 23) 23 rfl _).symm) $$ Hi23
  ihave He23' := (Entails.of_eq (pts_evW (F := F) d L 736#32 (k0_off5_inb L 23) 23 rfl _).symm) $$ He23
  ihave Ho23' := (Entails.of_eq (pts_odW (F := F) d L 736#32 (k0_off4_inb L 23) 23 rfl _).symm) $$ Ho23
  have hB : Transfers.BatchOf (V d (cV L) (jV L)) (SemLoc.dma (sig := sig) cc0_scratch8.sem) 24 true := trivial
  sl_exec
  rw [wp_bind]
  iapply (zero_fill (F := F) d L fz _)
  isplitl [Hzs']; · iexact Hzs'
  iintro Hzs'
  sl_exec
  have hz2 : tile_body.sl.dma0_2 d L = fun _ => (Cert.Spec.zero : F .f32) := by
    unfold tile_body.sl.dma0_2; exact read_zsZ (F := F) d L
  ihave Hsh2 := (Entails.of_eq (sh_final (F := F) d L _ hz2 fsh)) $$ Hsh'
  ihave Hpays := (pays_intro (F := F) d L) $$ [Hsh2]
  · iexact Hsh2
  iapply (SparseCore.wp_subcoreBarrier 𝒱₀ none EB (bRd (F := F)) d (sc := cV L) (i := jV L) sc_bar0 (grid0.bound 1) hsub0 (L 1) rfl κ (fun _ => 0) (jV L).val
      (fun j => bRd_mem₀ d _ _ _) (fun _ => rfl) (bRd_expect d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim (F := F) d L) $$ Hgot
  ihave Hsp := (src_split (F := F) d (cV L) (jL L).val).1 $$ Hall
  icases Hsp with ⟨Hsrc, Hb14, Hb15⟩
  ihave Hsrc' := (show (shLoc d (cV L) ↦[(shSrc).view.set]{σ (jL L).val} shZ (F := F) d (cV L) : sProp 𝕄)
      ⊢ (shSrc).view.loc (V d (cV L) (jV L)) ↦[(shSrc).view.set]{σ (jL L).val} shZ (F := F) d (cV L) from Entails.of_eq rfl) $$ Hsrc
  sl_exec
  sl_step
  have hz3 : tile_body.sl.dma0_3 d L = fun _ => (Cert.Spec.zero : F .f32) := by
    unfold tile_body.sl.dma0_3; exact read_shZ_src (F := F) d (cV L)
  have hp0 : tile_body.sl.dma0_4 y d L f0 = (inPlW L 0#32 (k0_off1_inb L 0)).view.read (Elt F) (y d) := by
    unfold tile_body.sl.dma0_4
    show View.read (Elt F) _ (View.write (Elt F) _ _ _ Finset.univ) = _
    rw [View.read_write_univ]; rfl
  have hp1 : tile_body.sl.dma0_6 y d L f1 = (inPlW L 32#32 (k0_off1_inb L 1)).view.read (Elt F) (y d) := by
    unfold tile_body.sl.dma0_6
    show View.read (Elt F) _ (View.write (Elt F) _ _ _ Finset.univ) = _
    rw [View.read_write_univ]; rfl
  have hp2 : tile_body.sl.dma0_8 y d L f0 = (inPlW L 64#32 (k0_off1_inb L 2)).view.read (Elt F) (y d) := by
    unfold tile_body.sl.dma0_8
    show View.read (Elt F) _ (View.write (Elt F) _ _ _ Finset.univ) = _
    rw [View.read_write_univ]; rfl
  have hp3 : tile_body.sl.dma0_10 y d L f1 = (inPlW L 96#32 (k0_off1_inb L 3)).view.read (Elt F) (y d) := by
    unfold tile_body.sl.dma0_10
    show View.read (Elt F) _ (View.write (Elt F) _ _ _ Finset.univ) = _
    rw [View.read_write_univ]; rfl
  have hp4 : tile_body.sl.dma0_12 y d L f0 = (inPlW L 128#32 (k0_off1_inb L 4)).view.read (Elt F) (y d) := by
    unfold tile_body.sl.dma0_12
    show View.read (Elt F) _ (View.write (Elt F) _ _ _ Finset.univ) = _
    rw [View.read_write_univ]; rfl
  have hp5 : tile_body.sl.dma0_14 y d L f1 = (inPlW L 160#32 (k0_off1_inb L 5)).view.read (Elt F) (y d) := by
    unfold tile_body.sl.dma0_14
    show View.read (Elt F) _ (View.write (Elt F) _ _ _ Finset.univ) = _
    rw [View.read_write_univ]; rfl
  have hp6 : tile_body.sl.dma0_16 y d L f0 = (inPlW L 192#32 (k0_off1_inb L 6)).view.read (Elt F) (y d) := by
    unfold tile_body.sl.dma0_16
    show View.read (Elt F) _ (View.write (Elt F) _ _ _ Finset.univ) = _
    rw [View.read_write_univ]; rfl
  have hp7 : tile_body.sl.dma0_18 y d L f1 = (inPlW L 224#32 (k0_off1_inb L 7)).view.read (Elt F) (y d) := by
    unfold tile_body.sl.dma0_18
    show View.read (Elt F) _ (View.write (Elt F) _ _ _ Finset.univ) = _
    rw [View.read_write_univ]; rfl
  have hp8 : tile_body.sl.dma0_20 y d L f0 = (inPlW L 256#32 (k0_off1_inb L 8)).view.read (Elt F) (y d) := by
    unfold tile_body.sl.dma0_20
    show View.read (Elt F) _ (View.write (Elt F) _ _ _ Finset.univ) = _
    rw [View.read_write_univ]; rfl
  have hp9 : tile_body.sl.dma0_22 y d L f1 = (inPlW L 288#32 (k0_off1_inb L 9)).view.read (Elt F) (y d) := by
    unfold tile_body.sl.dma0_22
    show View.read (Elt F) _ (View.write (Elt F) _ _ _ Finset.univ) = _
    rw [View.read_write_univ]; rfl
  have hp10 : tile_body.sl.dma0_24 y d L f0 = (inPlW L 320#32 (k0_off1_inb L 10)).view.read (Elt F) (y d) := by
    unfold tile_body.sl.dma0_24
    show View.read (Elt F) _ (View.write (Elt F) _ _ _ Finset.univ) = _
    rw [View.read_write_univ]; rfl
  have hp11 : tile_body.sl.dma0_26 y d L f1 = (inPlW L 352#32 (k0_off1_inb L 11)).view.read (Elt F) (y d) := by
    unfold tile_body.sl.dma0_26
    show View.read (Elt F) _ (View.write (Elt F) _ _ _ Finset.univ) = _
    rw [View.read_write_univ]; rfl
  have hp12 : tile_body.sl.dma0_28 y d L f0 = (inPlW L 384#32 (k0_off1_inb L 12)).view.read (Elt F) (y d) := by
    unfold tile_body.sl.dma0_28
    show View.read (Elt F) _ (View.write (Elt F) _ _ _ Finset.univ) = _
    rw [View.read_write_univ]; rfl
  have hp13 : tile_body.sl.dma0_30 y d L f1 = (inPlW L 416#32 (k0_off1_inb L 13)).view.read (Elt F) (y d) := by
    unfold tile_body.sl.dma0_30
    show View.read (Elt F) _ (View.write (Elt F) _ _ _ Finset.univ) = _
    rw [View.read_write_univ]; rfl
  have hp14 : tile_body.sl.dma0_32 y d L f0 = (inPlW L 448#32 (k0_off1_inb L 14)).view.read (Elt F) (y d) := by
    unfold tile_body.sl.dma0_32
    show View.read (Elt F) _ (View.write (Elt F) _ _ _ Finset.univ) = _
    rw [View.read_write_univ]; rfl
  have hp15 : tile_body.sl.dma0_34 y d L f1 = (inPlW L 480#32 (k0_off1_inb L 15)).view.read (Elt F) (y d) := by
    unfold tile_body.sl.dma0_34
    show View.read (Elt F) _ (View.write (Elt F) _ _ _ Finset.univ) = _
    rw [View.read_write_univ]; rfl
  have hp16 : tile_body.sl.dma0_36 y d L f0 = (inPlW L 512#32 (k0_off1_inb L 16)).view.read (Elt F) (y d) := by
    unfold tile_body.sl.dma0_36
    show View.read (Elt F) _ (View.write (Elt F) _ _ _ Finset.univ) = _
    rw [View.read_write_univ]; rfl
  have hp17 : tile_body.sl.dma0_38 y d L f1 = (inPlW L 544#32 (k0_off1_inb L 17)).view.read (Elt F) (y d) := by
    unfold tile_body.sl.dma0_38
    show View.read (Elt F) _ (View.write (Elt F) _ _ _ Finset.univ) = _
    rw [View.read_write_univ]; rfl
  have hp18 : tile_body.sl.dma0_40 y d L f0 = (inPlW L 576#32 (k0_off1_inb L 18)).view.read (Elt F) (y d) := by
    unfold tile_body.sl.dma0_40
    show View.read (Elt F) _ (View.write (Elt F) _ _ _ Finset.univ) = _
    rw [View.read_write_univ]; rfl
  have hp19 : tile_body.sl.dma0_42 y d L f1 = (inPlW L 608#32 (k0_off1_inb L 19)).view.read (Elt F) (y d) := by
    unfold tile_body.sl.dma0_42
    show View.read (Elt F) _ (View.write (Elt F) _ _ _ Finset.univ) = _
    rw [View.read_write_univ]; rfl
  have hp20 : tile_body.sl.dma0_44 y d L f0 = (inPlW L 640#32 (k0_off1_inb L 20)).view.read (Elt F) (y d) := by
    unfold tile_body.sl.dma0_44
    show View.read (Elt F) _ (View.write (Elt F) _ _ _ Finset.univ) = _
    rw [View.read_write_univ]; rfl
  have hp21 : tile_body.sl.dma0_46 y d L f1 = (inPlW L 672#32 (k0_off1_inb L 21)).view.read (Elt F) (y d) := by
    unfold tile_body.sl.dma0_46
    show View.read (Elt F) _ (View.write (Elt F) _ _ _ Finset.univ) = _
    rw [View.read_write_univ]; rfl
  have hp22 : tile_body.sl.dma0_48 y d L f0 = (inPlW L 704#32 (k0_off1_inb L 22)).view.read (Elt F) (y d) := by
    unfold tile_body.sl.dma0_48
    show View.read (Elt F) _ (View.write (Elt F) _ _ _ Finset.univ) = _
    rw [View.read_write_univ]; rfl
  have hp23 : tile_body.sl.dma0_49 y d L f1 = (inPlW L 736#32 (k0_off1_inb L 23)).view.read (Elt F) (y d) := by
    unfold tile_body.sl.dma0_49
    show View.read (Elt F) _ (View.write (Elt F) _ _ _ Finset.univ) = _
    rw [View.read_write_univ]; rfl
  isplitl [Hi0' He0' Ho0' Hi1' He1' Ho1' Hi2' He2' Ho2' Hi3' He3' Ho3' Hi4' He4' Ho4' Hi5' He5' Ho5' Hi6' He6' Ho6' Hi7' He7' Ho7' Hi8' He8' Ho8' Hi9' He9' Ho9' Hi10' He10' Ho10' Hi11' He11' Ho11' Hi12' He12' Ho12' Hi13' He13' Ho13' Hi14' He14' Ho14' Hi15' He15' Ho15' Hi16' He16' Ho16' Hi17' He17' Ho17' Hi18' He18' Ho18' Hi19' He19' Ho19' Hi20' He20' Ho20' Hi21' He21' Ho21' Hi22' He22' Ho22' Hi23' He23' Ho23' Hsrc' Hb14 Hb15]
  · isplitl [Hi0' He0' Ho0' Hi1' He1' Ho1' Hi2' He2' Ho2' Hi3' He3' Ho3' Hi4' He4' Ho4' Hi5' He5' Ho5' Hi6' He6' Ho6' Hi7' He7' Ho7' Hi8' He8' Ho8' Hi9' He9' Ho9' Hi10' He10' Ho10' Hi11' He11' Ho11' Hi12' He12' Ho12' Hi13' He13' Ho13' Hi14' He14' Ho14' Hi15' He15' Ho15' Hi16' He16' Ho16' Hi17' He17' Ho17' Hi18' He18' Ho18' Hi19' He19' Ho19' Hi20' He20' Ho20' Hi21' He21' Ho21' Hi22' He22' Ho22' Hi23' He23' Ho23']
    ·
      isplitl [Hi0' He0' Ho0']
      ·
          isplitl [Hi0']; · iapply (Entails.of_eq (pts_inW (F := F) d L 0#32 (k0_off1_inb L 0) 0 rfl _)); iexact Hi0'
          isplitl [He0']; · iapply (Entails.of_eq (ev_final (F := F) y d L 0#32 (k0_off5_inb L 0) (k0_off1_inb L 0) 0 rfl _ hp0 _)); iexact He0'
          iapply (Entails.of_eq (od_final (F := F) y d L 0#32 (k0_off4_inb L 0) 0 rfl _ hz3 _)); iexact Ho0'
      isplitl [Hi1' He1' Ho1']
      ·
          isplitl [Hi1']; · iapply (Entails.of_eq (pts_inW (F := F) d L 32#32 (k0_off1_inb L 1) 1 rfl _)); iexact Hi1'
          isplitl [He1']; · iapply (Entails.of_eq (ev_final (F := F) y d L 32#32 (k0_off5_inb L 1) (k0_off1_inb L 1) 1 rfl _ hp1 _)); iexact He1'
          iapply (Entails.of_eq (od_final (F := F) y d L 32#32 (k0_off4_inb L 1) 1 rfl _ hz3 _)); iexact Ho1'
      isplitl [Hi2' He2' Ho2']
      ·
          isplitl [Hi2']; · iapply (Entails.of_eq (pts_inW (F := F) d L 64#32 (k0_off1_inb L 2) 2 rfl _)); iexact Hi2'
          isplitl [He2']; · iapply (Entails.of_eq (ev_final (F := F) y d L 64#32 (k0_off5_inb L 2) (k0_off1_inb L 2) 2 rfl _ hp2 _)); iexact He2'
          iapply (Entails.of_eq (od_final (F := F) y d L 64#32 (k0_off4_inb L 2) 2 rfl _ hz3 _)); iexact Ho2'
      isplitl [Hi3' He3' Ho3']
      ·
          isplitl [Hi3']; · iapply (Entails.of_eq (pts_inW (F := F) d L 96#32 (k0_off1_inb L 3) 3 rfl _)); iexact Hi3'
          isplitl [He3']; · iapply (Entails.of_eq (ev_final (F := F) y d L 96#32 (k0_off5_inb L 3) (k0_off1_inb L 3) 3 rfl _ hp3 _)); iexact He3'
          iapply (Entails.of_eq (od_final (F := F) y d L 96#32 (k0_off4_inb L 3) 3 rfl _ hz3 _)); iexact Ho3'
      isplitl [Hi4' He4' Ho4']
      ·
          isplitl [Hi4']; · iapply (Entails.of_eq (pts_inW (F := F) d L 128#32 (k0_off1_inb L 4) 4 rfl _)); iexact Hi4'
          isplitl [He4']; · iapply (Entails.of_eq (ev_final (F := F) y d L 128#32 (k0_off5_inb L 4) (k0_off1_inb L 4) 4 rfl _ hp4 _)); iexact He4'
          iapply (Entails.of_eq (od_final (F := F) y d L 128#32 (k0_off4_inb L 4) 4 rfl _ hz3 _)); iexact Ho4'
      isplitl [Hi5' He5' Ho5']
      ·
          isplitl [Hi5']; · iapply (Entails.of_eq (pts_inW (F := F) d L 160#32 (k0_off1_inb L 5) 5 rfl _)); iexact Hi5'
          isplitl [He5']; · iapply (Entails.of_eq (ev_final (F := F) y d L 160#32 (k0_off5_inb L 5) (k0_off1_inb L 5) 5 rfl _ hp5 _)); iexact He5'
          iapply (Entails.of_eq (od_final (F := F) y d L 160#32 (k0_off4_inb L 5) 5 rfl _ hz3 _)); iexact Ho5'
      isplitl [Hi6' He6' Ho6']
      ·
          isplitl [Hi6']; · iapply (Entails.of_eq (pts_inW (F := F) d L 192#32 (k0_off1_inb L 6) 6 rfl _)); iexact Hi6'
          isplitl [He6']; · iapply (Entails.of_eq (ev_final (F := F) y d L 192#32 (k0_off5_inb L 6) (k0_off1_inb L 6) 6 rfl _ hp6 _)); iexact He6'
          iapply (Entails.of_eq (od_final (F := F) y d L 192#32 (k0_off4_inb L 6) 6 rfl _ hz3 _)); iexact Ho6'
      isplitl [Hi7' He7' Ho7']
      ·
          isplitl [Hi7']; · iapply (Entails.of_eq (pts_inW (F := F) d L 224#32 (k0_off1_inb L 7) 7 rfl _)); iexact Hi7'
          isplitl [He7']; · iapply (Entails.of_eq (ev_final (F := F) y d L 224#32 (k0_off5_inb L 7) (k0_off1_inb L 7) 7 rfl _ hp7 _)); iexact He7'
          iapply (Entails.of_eq (od_final (F := F) y d L 224#32 (k0_off4_inb L 7) 7 rfl _ hz3 _)); iexact Ho7'
      isplitl [Hi8' He8' Ho8']
      ·
          isplitl [Hi8']; · iapply (Entails.of_eq (pts_inW (F := F) d L 256#32 (k0_off1_inb L 8) 8 rfl _)); iexact Hi8'
          isplitl [He8']; · iapply (Entails.of_eq (ev_final (F := F) y d L 256#32 (k0_off5_inb L 8) (k0_off1_inb L 8) 8 rfl _ hp8 _)); iexact He8'
          iapply (Entails.of_eq (od_final (F := F) y d L 256#32 (k0_off4_inb L 8) 8 rfl _ hz3 _)); iexact Ho8'
      isplitl [Hi9' He9' Ho9']
      ·
          isplitl [Hi9']; · iapply (Entails.of_eq (pts_inW (F := F) d L 288#32 (k0_off1_inb L 9) 9 rfl _)); iexact Hi9'
          isplitl [He9']; · iapply (Entails.of_eq (ev_final (F := F) y d L 288#32 (k0_off5_inb L 9) (k0_off1_inb L 9) 9 rfl _ hp9 _)); iexact He9'
          iapply (Entails.of_eq (od_final (F := F) y d L 288#32 (k0_off4_inb L 9) 9 rfl _ hz3 _)); iexact Ho9'
      isplitl [Hi10' He10' Ho10']
      ·
          isplitl [Hi10']; · iapply (Entails.of_eq (pts_inW (F := F) d L 320#32 (k0_off1_inb L 10) 10 rfl _)); iexact Hi10'
          isplitl [He10']; · iapply (Entails.of_eq (ev_final (F := F) y d L 320#32 (k0_off5_inb L 10) (k0_off1_inb L 10) 10 rfl _ hp10 _)); iexact He10'
          iapply (Entails.of_eq (od_final (F := F) y d L 320#32 (k0_off4_inb L 10) 10 rfl _ hz3 _)); iexact Ho10'
      isplitl [Hi11' He11' Ho11']
      ·
          isplitl [Hi11']; · iapply (Entails.of_eq (pts_inW (F := F) d L 352#32 (k0_off1_inb L 11) 11 rfl _)); iexact Hi11'
          isplitl [He11']; · iapply (Entails.of_eq (ev_final (F := F) y d L 352#32 (k0_off5_inb L 11) (k0_off1_inb L 11) 11 rfl _ hp11 _)); iexact He11'
          iapply (Entails.of_eq (od_final (F := F) y d L 352#32 (k0_off4_inb L 11) 11 rfl _ hz3 _)); iexact Ho11'
      isplitl [Hi12' He12' Ho12']
      ·
          isplitl [Hi12']; · iapply (Entails.of_eq (pts_inW (F := F) d L 384#32 (k0_off1_inb L 12) 12 rfl _)); iexact Hi12'
          isplitl [He12']; · iapply (Entails.of_eq (ev_final (F := F) y d L 384#32 (k0_off5_inb L 12) (k0_off1_inb L 12) 12 rfl _ hp12 _)); iexact He12'
          iapply (Entails.of_eq (od_final (F := F) y d L 384#32 (k0_off4_inb L 12) 12 rfl _ hz3 _)); iexact Ho12'
      isplitl [Hi13' He13' Ho13']
      ·
          isplitl [Hi13']; · iapply (Entails.of_eq (pts_inW (F := F) d L 416#32 (k0_off1_inb L 13) 13 rfl _)); iexact Hi13'
          isplitl [He13']; · iapply (Entails.of_eq (ev_final (F := F) y d L 416#32 (k0_off5_inb L 13) (k0_off1_inb L 13) 13 rfl _ hp13 _)); iexact He13'
          iapply (Entails.of_eq (od_final (F := F) y d L 416#32 (k0_off4_inb L 13) 13 rfl _ hz3 _)); iexact Ho13'
      isplitl [Hi14' He14' Ho14']
      ·
          isplitl [Hi14']; · iapply (Entails.of_eq (pts_inW (F := F) d L 448#32 (k0_off1_inb L 14) 14 rfl _)); iexact Hi14'
          isplitl [He14']; · iapply (Entails.of_eq (ev_final (F := F) y d L 448#32 (k0_off5_inb L 14) (k0_off1_inb L 14) 14 rfl _ hp14 _)); iexact He14'
          iapply (Entails.of_eq (od_final (F := F) y d L 448#32 (k0_off4_inb L 14) 14 rfl _ hz3 _)); iexact Ho14'
      isplitl [Hi15' He15' Ho15']
      ·
          isplitl [Hi15']; · iapply (Entails.of_eq (pts_inW (F := F) d L 480#32 (k0_off1_inb L 15) 15 rfl _)); iexact Hi15'
          isplitl [He15']; · iapply (Entails.of_eq (ev_final (F := F) y d L 480#32 (k0_off5_inb L 15) (k0_off1_inb L 15) 15 rfl _ hp15 _)); iexact He15'
          iapply (Entails.of_eq (od_final (F := F) y d L 480#32 (k0_off4_inb L 15) 15 rfl _ hz3 _)); iexact Ho15'
      isplitl [Hi16' He16' Ho16']
      ·
          isplitl [Hi16']; · iapply (Entails.of_eq (pts_inW (F := F) d L 512#32 (k0_off1_inb L 16) 16 rfl _)); iexact Hi16'
          isplitl [He16']; · iapply (Entails.of_eq (ev_final (F := F) y d L 512#32 (k0_off5_inb L 16) (k0_off1_inb L 16) 16 rfl _ hp16 _)); iexact He16'
          iapply (Entails.of_eq (od_final (F := F) y d L 512#32 (k0_off4_inb L 16) 16 rfl _ hz3 _)); iexact Ho16'
      isplitl [Hi17' He17' Ho17']
      ·
          isplitl [Hi17']; · iapply (Entails.of_eq (pts_inW (F := F) d L 544#32 (k0_off1_inb L 17) 17 rfl _)); iexact Hi17'
          isplitl [He17']; · iapply (Entails.of_eq (ev_final (F := F) y d L 544#32 (k0_off5_inb L 17) (k0_off1_inb L 17) 17 rfl _ hp17 _)); iexact He17'
          iapply (Entails.of_eq (od_final (F := F) y d L 544#32 (k0_off4_inb L 17) 17 rfl _ hz3 _)); iexact Ho17'
      isplitl [Hi18' He18' Ho18']
      ·
          isplitl [Hi18']; · iapply (Entails.of_eq (pts_inW (F := F) d L 576#32 (k0_off1_inb L 18) 18 rfl _)); iexact Hi18'
          isplitl [He18']; · iapply (Entails.of_eq (ev_final (F := F) y d L 576#32 (k0_off5_inb L 18) (k0_off1_inb L 18) 18 rfl _ hp18 _)); iexact He18'
          iapply (Entails.of_eq (od_final (F := F) y d L 576#32 (k0_off4_inb L 18) 18 rfl _ hz3 _)); iexact Ho18'
      isplitl [Hi19' He19' Ho19']
      ·
          isplitl [Hi19']; · iapply (Entails.of_eq (pts_inW (F := F) d L 608#32 (k0_off1_inb L 19) 19 rfl _)); iexact Hi19'
          isplitl [He19']; · iapply (Entails.of_eq (ev_final (F := F) y d L 608#32 (k0_off5_inb L 19) (k0_off1_inb L 19) 19 rfl _ hp19 _)); iexact He19'
          iapply (Entails.of_eq (od_final (F := F) y d L 608#32 (k0_off4_inb L 19) 19 rfl _ hz3 _)); iexact Ho19'
      isplitl [Hi20' He20' Ho20']
      ·
          isplitl [Hi20']; · iapply (Entails.of_eq (pts_inW (F := F) d L 640#32 (k0_off1_inb L 20) 20 rfl _)); iexact Hi20'
          isplitl [He20']; · iapply (Entails.of_eq (ev_final (F := F) y d L 640#32 (k0_off5_inb L 20) (k0_off1_inb L 20) 20 rfl _ hp20 _)); iexact He20'
          iapply (Entails.of_eq (od_final (F := F) y d L 640#32 (k0_off4_inb L 20) 20 rfl _ hz3 _)); iexact Ho20'
      isplitl [Hi21' He21' Ho21']
      ·
          isplitl [Hi21']; · iapply (Entails.of_eq (pts_inW (F := F) d L 672#32 (k0_off1_inb L 21) 21 rfl _)); iexact Hi21'
          isplitl [He21']; · iapply (Entails.of_eq (ev_final (F := F) y d L 672#32 (k0_off5_inb L 21) (k0_off1_inb L 21) 21 rfl _ hp21 _)); iexact He21'
          iapply (Entails.of_eq (od_final (F := F) y d L 672#32 (k0_off4_inb L 21) 21 rfl _ hz3 _)); iexact Ho21'
      isplitl [Hi22' He22' Ho22']
      ·
          isplitl [Hi22']; · iapply (Entails.of_eq (pts_inW (F := F) d L 704#32 (k0_off1_inb L 22) 22 rfl _)); iexact Hi22'
          isplitl [He22']; · iapply (Entails.of_eq (ev_final (F := F) y d L 704#32 (k0_off5_inb L 22) (k0_off1_inb L 22) 22 rfl _ hp22 _)); iexact He22'
          iapply (Entails.of_eq (od_final (F := F) y d L 704#32 (k0_off4_inb L 22) 22 rfl _ hz3 _)); iexact Ho22'
      isplitl [Hi23']; · iapply (Entails.of_eq (pts_inW (F := F) d L 736#32 (k0_off1_inb L 23) 23 rfl _)); iexact Hi23'
      isplitl [He23']; · iapply (Entails.of_eq (ev_final (F := F) y d L 736#32 (k0_off5_inb L 23) (k0_off1_inb L 23) 23 rfl _ hp23 _)); iexact He23'
      iapply (Entails.of_eq (od_final (F := F) y d L 736#32 (k0_off4_inb L 23) 23 rfl _ hz3 _)); iexact Ho23'
    · iapply (src_split (F := F) d (cV L) (jL L).val).2
      isplitl [Hsrc']; · iexact Hsrc'
      isplitl [Hb14]; · iexact Hb14
      iexact Hb15
  isplitl [Hb0' Hb1' Hzs' Hbufs]
  · isplitl [Hb0']; · iexists _; iexact Hb0'
    isplitl [Hb1']; · iexists _; iexact Hb1'
    isplitl [Hzs']; · iexists _; iexact Hzs'
    iexact Hbufs
  isplitl [Hs4 Hs5 Hs6 Hs7 Hs8 Hsc Hsems]
  · isplitl [Hs4]; · iexact Hs4
    isplitl [Hs5]; · iexact Hs5
    isplitl [Hs6]; · iexact Hs6
    isplitl [Hs7]; · iexact Hs7
    isplitl [Hs8]; · iexact Hs8
    isplitl [Hsc]; · iexact Hsc
    iexact Hsems
  iexists _; isplitr
  swap; · iexact HO
  ipureintro
  repeat' (first | exact (fun p hp => Or.inl hp) | refine wb_none _ ?_ | refine wb_call _ ?_)

/-! ## The obligation -/

theorem defs₀_vector (c : Fin τ.nSC) (s : Fin τ.nSub) :
    defs₀ (F := F) (.scVector c s) 0 ()
      = SparseCore.onTile hcore0 hsub0 (fun c s => cc0__body (coordsV c s)
          xV (Memref.isWhole_whole _) oV (Memref.isWhole_whole _) b0V (Memref.isWhole_whole _) b1V (Memref.isWhole_whole _) zsV (Memref.isWhole_whole _) shV (Memref.isWhole_whole _) cc0_scratch4 cc0_scratch5 cc0_scratch6 cc0_scratch7 cc0_scratch8 cc0_scoped0) ⟨⟩ c s := rfl

set_option maxRecDepth 16384 in
theorem tileObl [∀ e, Nonempty (Elt F e)] (hF : (K (F := F)).Facts) : (K (F := F)).TileObl (D (F := F)) 𝒱 (P y o) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P y o).ox 0 (V d ((K (F := F)).core 0 c) ((K (F := F)).sub 0 i)) = oxV d ((K (F := F)).core 0 c) from if_pos hc,
    show (P y o).x 0 (V d ((K (F := F)).core 0 c) ((K (F := F)).sub 0 i)) = bkit d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body y o d (coordsV ⟨_, hci.1⟩ ⟨_, hci.2⟩) hF O W hO hOlev

end Cert.Proof.KB

end
-- ==== Proof.LibScatterFold.lean ====
/-
  WHAT A SCATTER LEAVES AT AN INDEX.

  A scatter applies its updates one after another: update `n` combines its value, by a binary function `f`, into the
  element of the array at the index the update is aimed at, and is dropped when it is aimed outside the array. The
  result is therefore a left fold of one-element rewrites over the updates in order. This file reads that fold at one
  index `i`:

  * an index no update is aimed at keeps its old element (`run_of_not_hit`);
  * when `f` returns the update (a "set") and exactly one update is aimed at `i`, the result is that update's value
    (`run_set_of_unique`);
  * when `f` is the sum of a commutative ring of words, the result is the old element plus the sum of the values of all
    updates aimed at `i` (`run_add`), so all-ones updates into zeros count the updates aimed at `i`: a histogram
    (`run_count`).

  Part 2 identifies the array scatter `Host.scatter` with that fold and restates the three readings over update
  INDICES instead of their row-major positions. Part 3 computes where an update is aimed for two families of dimension
  numbers — a vector of scalars scattered by one index each, and a matrix scattered row by row — and gives the readings
  of a set at pairwise distinct rows and of a histogram in those terms.
-/
import Mathlib.Data.BitVec
import Mathlib.Algebra.BigOperators.Fin
import Idealize.ShloMosaic.PureOps.ShapeOps
import Idealize.ShloMosaic.Lib.ValueIdx

open Idealize.ShloMosaic
open scoped BigOperators

namespace Cert.Lib.ScatterFold

/-! ## Part 1 — the abstract fold -/

section Fold

variable {ι α : Type} [DecidableEq ι] {N : ℕ}

/-- The updates `n = 0 … N-1` applied in order: update `n` combines `u n` into the element at `tgt n`, when there is
    one. -/
def run (f : α → α → α) (tgt : Fin N → Option ι) (u : Fin N → α) (x : ι → α) : ι → α :=
  (List.finRange N).foldl (fun r n => match tgt n with
    | some i => fun i' => if i' = i then f (r i) (u n) else r i'
    | none => r) x

/-- One update: the array `r` after update `n`. -/
def step (f : α → α → α) (tgt : Fin N → Option ι) (u : Fin N → α) (r : ι → α) (n : Fin N) : ι → α :=
  match tgt n with
  | some i => fun i' => if i' = i then f (r i) (u n) else r i'
  | none => r

/-- The fold is the fold of `step`. -/
theorem run_eq_foldl (f : α → α → α) (tgt : Fin N → Option ι) (u : Fin N → α) (x : ι → α) :
    run f tgt u x = (List.finRange N).foldl (step f tgt u) x := rfl

/-- An update aimed elsewhere (or nowhere) leaves the element at `i`. -/
theorem step_of_ne (f : α → α → α) (tgt : Fin N → Option ι) (u : Fin N → α) (r : ι → α) (n : Fin N) (i : ι)
    (h : tgt n ≠ some i) : step f tgt u r n i = r i := by
  unfold step
  cases ht : tgt n with
  | none => rfl
  | some i0 =>
    have hne : i ≠ i0 := fun e => h (by rw [ht, e])
    simp only [if_neg hne]

/-- An update aimed at `i` combines its value into the element at `i`. -/
theorem step_of_eq (f : α → α → α) (tgt : Fin N → Option ι) (u : Fin N → α) (r : ι → α) (n : Fin N) (i : ι)
    (h : tgt n = some i) : step f tgt u r n i = f (r i) (u n) := by
  unfold step
  rw [h]
  simp only [if_true]

/-- Updates none of which is aimed at `i` leave the element at `i`. -/
theorem foldl_of_not_hit (f : α → α → α) (tgt : Fin N → Option ι) (u : Fin N → α) (i : ι) (L : List (Fin N))
    (h : ∀ n ∈ L, tgt n ≠ some i) (r : ι → α) : L.foldl (step f tgt u) r i = r i := by
  induction L generalizing r with
  | nil => rfl
  | cons m L ih =>
    rw [List.foldl_cons, ih (fun n hn => h n (List.mem_cons_of_mem _ hn)),
      step_of_ne f tgt u r m i (h m List.mem_cons_self)]

/-- An index no update is aimed at keeps its element. -/
theorem run_of_not_hit (f : α → α → α) (tgt : Fin N → Option ι) (u : Fin N → α) (x : ι → α) (i : ι)
    (h : ∀ n, tgt n ≠ some i) : run f tgt u x i = x i := by
  rw [run_eq_foldl]
  exact foldl_of_not_hit f tgt u i _ (fun n _ => h n) x

/-- A set whose only update aimed at `i` is `n`: after the updates of a list, the element at `i` is `u n` if `n` is in
    the list and the old one if not. -/
theorem foldl_set_of_unique (tgt : Fin N → Option ι) (u : Fin N → α) (n : Fin N) (i : ι)
    (h : tgt n = some i) (huniq : ∀ n', tgt n' = some i → n' = n) (L : List (Fin N)) (r : ι → α) :
    L.foldl (step (fun _ b => b) tgt u) r i = if n ∈ L then u n else r i := by
  induction L generalizing r with
  | nil => simp
  | cons m L ih =>
    rw [List.foldl_cons, ih]
    by_cases hL : n ∈ L
    · rw [if_pos hL, if_pos (List.mem_cons_of_mem _ hL)]
    · rw [if_neg hL]
      by_cases hm : m = n
      · subst hm
        rw [if_pos List.mem_cons_self, step_of_eq _ tgt u r m i h]
      · have hnm : n ∉ m :: L := by
          intro hmem
          rcases List.mem_cons.1 hmem with e | e
          · exact hm e.symm
          · exact hL e
        rw [if_neg hnm, step_of_ne _ tgt u r m i (fun e => hm (huniq m e))]

/-- A set at an index exactly one update is aimed at leaves that update's value. -/
theorem run_set_of_unique (tgt : Fin N → Option ι) (u : Fin N → α) (x : ι → α) (n : Fin N) (i : ι)
    (h : tgt n = some i) (huniq : ∀ n', tgt n' = some i → n' = n) : run (fun _ b => b) tgt u x i = u n := by
  rw [run_eq_foldl, foldl_set_of_unique tgt u n i h huniq, if_pos (List.mem_finRange n)]

/-- Sums of words: after the updates of a list, the element at `i` is the old one plus the values of the list's
    updates aimed at `i`. -/
theorem foldl_add {w : ℕ} (tgt : Fin N → Option ι) (u : Fin N → BitVec w) (i : ι) (L : List (Fin N))
    (r : ι → BitVec w) :
    L.foldl (step (fun a b => a + b) tgt u) r i = r i + (L.map fun n => if tgt n = some i then u n else 0).sum := by
  induction L generalizing r with
  | nil => simp
  | cons m L ih =>
    rw [List.foldl_cons, ih, List.map_cons, List.sum_cons, ← add_assoc]
    congr 1
    by_cases hm : tgt m = some i
    · rw [if_pos hm, step_of_eq _ tgt u r m i hm]
    · rw [if_neg hm, step_of_ne _ tgt u r m i hm, add_zero]

/-- A sum-scatter leaves the old element plus the sum of the values of the updates aimed at the index. -/
theorem run_add {w : ℕ} (tgt : Fin N → Option ι) (u : Fin N → BitVec w) (x : ι → BitVec w) (i : ι) :
    run (fun a b => a + b) tgt u x i = x i + ∑ n ∈ Finset.univ.filter (fun n => tgt n = some i), u n := by
  rw [run_eq_foldl, foldl_add, Finset.sum_filter, Fin.sum_univ_def]

/-- All-ones updates summed into zeros count the updates aimed at the index: a histogram. -/
theorem run_count {w : ℕ} (tgt : Fin N → Option ι) (i : ι) :
    run (fun a b => a + b) tgt (fun _ => (1 : BitVec w)) (fun _ => 0) i
      = BitVec.ofNat w (Finset.univ.filter (fun n => tgt n = some i)).card := by
  rw [run_add, zero_add, Finset.sum_const, nsmul_one, BitVec.natCast_eq_ofNat]

/-- The host's integer addition is the sum of words. -/
theorem addi_eq_add {w : ℕ} : (IntOp.addi : BitVec w → BitVec w → BitVec w) = fun a b => a + b := rfl

end Fold

/-! ## Part 2 — the array scatter is that fold -/

section Scatter

variable {s si u : Shape} {w : ℕ} {α : Type}

/-- The array scatter is the fold of its updates in row-major order, update `n` aimed at the result index of the
    `n`-th update index. -/
theorem scatter_eq_run (d : ScatterDims s si u) (f : α → α → α) (x : s.Idx → α) (idx : IVec si w) (upd : u.Idx → α) :
    Host.scatter d f x idx upd
      = run f (fun n => d.resultIdx? (u.rowMajor.symm n) idx) (fun n => upd (u.rowMajor.symm n)) x := by
  unfold Host.scatter run
  congr 1
  funext r n
  beta_reduce
  cases d.resultIdx? (u.rowMajor.symm n) idx <;> rfl

/-- An index no update is aimed at keeps its element. -/
theorem scatter_of_not_hit (d : ScatterDims s si u) (f : α → α → α) (x : s.Idx → α) (idx : IVec si w)
    (upd : u.Idx → α) (i : s.Idx) (h : ∀ j, d.resultIdx? j idx ≠ some i) : Host.scatter d f x idx upd i = x i := by
  rw [scatter_eq_run]
  exact run_of_not_hit f _ _ x i (fun n => h _)

/-- A set at an index exactly one update `j` is aimed at leaves that update's value. -/
theorem scatter_set_of_unique (d : ScatterDims s si u) (x : s.Idx → α) (idx : IVec si w) (upd : u.Idx → α)
    (j : u.Idx) (i : s.Idx) (h : d.resultIdx? j idx = some i)
    (huniq : ∀ j', d.resultIdx? j' idx = some i → j' = j) :
    Host.scatter d (fun _ b => b) x idx upd i = upd j := by
  rw [scatter_eq_run]
  have key := run_set_of_unique (fun n => d.resultIdx? (u.rowMajor.symm n) idx) (fun n => upd (u.rowMajor.symm n)) x
    (u.rowMajor j) i (by simpa using h) (fun n' hn' => (Equiv.symm_apply_eq _).1 (huniq _ hn'))
  simpa using key

/-- A sum-scatter of words leaves the old element plus the sum of the updates aimed at the index. -/
theorem scatter_add {v : ℕ} (d : ScatterDims s si u) (x : s.Idx → BitVec v) (idx : IVec si w)
    (upd : u.Idx → BitVec v) (i : s.Idx) :
    Host.scatter d (fun a b => a + b) x idx upd i
      = x i + ∑ j ∈ Finset.univ.filter (fun j => d.resultIdx? j idx = some i), upd j := by
  rw [scatter_eq_run, run_add]
  congr 1
  exact Finset.sum_equiv u.rowMajor.symm (by simp) (by simp)

/-- All-ones updates summed into zeros count the updates aimed at the index. -/
theorem scatter_count {v : ℕ} (d : ScatterDims s si u) (idx : IVec si w) (i : s.Idx) :
    Host.scatter d (fun a b => a + b) (fun _ => (0 : BitVec v)) idx (fun _ => 1) i
      = BitVec.ofNat v (Finset.univ.filter (fun j => d.resultIdx? j idx = some i)).card := by
  rw [scatter_add, zero_add, Finset.sum_const, nsmul_one, BitVec.natCast_eq_ofNat]

/-- Where an update lands: it is aimed at `i` exactly when on every axis its start plus its window coordinate is `i`'s
    coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro e a
      have e' := Option.some.inj e
      have ha := congrArg (fun k : s.Idx => (k a).val) e'
      simp only at ha
      have := (h a).1
      omega
    · intro e
      congr 1
      funext a
      refine Fin.ext ?_
      have := e a
      simp only
      omega
  · rw [dif_neg h]
    constructor
    · intro e; exact absurd e (by simp)
    · intro e
      exfalso
      apply h
      intro a
      have := e a
      have := (i a).isLt
      omega

end Scatter

/-! ## Part 3 — where an update lands, for two families of dimension numbers

Both scatter by ONE index per row of the updates: the scatter indices are an `M × 1` array whose entry `(r, 0)`, read
as a signed integer, is the start of row `r` on the array's first axis, which is an inserted window axis. In the first
family the array is a vector and a row of the updates is one scalar; in the second the array is an `N × C` matrix and
a row of the updates is a whole row of it. -/

section Patterns

open Idealize.ShloMosaic.ValueIdx

variable {N C M w : ℕ} {α : Type}

/-- The start of row `r`: entry `(r, 0)` of the scatter indices, read as a signed integer. -/
abbrev rowStart (idx : IVec ⟨2, ![M, 1]⟩ w) (r : Fin M) : Int := (idx (ix2 r 0)).toInt

/-- The array's kept axes are the ones that are not inserted window axes. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ### Scalars into a vector -/

/-- The dimension numbers of a scatter of `M` scalars into a vector of length `N`, one index each. -/
abbrev vecDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The window of update `r` starts at row `r`'s start index. -/
theorem vec_start (wf : ScatterDims.WF ⟨1, ![N]⟩ ⟨2, ![M, 1]⟩ ⟨1, ![M]⟩ [] [0] [0] 1) (idx : IVec ⟨2, ![M, 1]⟩ w)
    (r : Fin M) (a : Fin 1) : (vecDims N M wf).start (ix1 r) idx a = rowStart idx r := by
  obtain rfl : a = 0 := Subsingleton.elim _ _
  unfold ScatterDims.start
  rw [dif_pos (show (0 : Fin 1) ∈ (vecDims N M wf).scatterDimsToOperandDims from List.mem_singleton.mpr rfl)]
  have hsi : (vecDims N M wf).siIdx (ix1 r) ⟨List.idxOf (0 : Fin 1) (vecDims N M wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- The window is one element: its coordinate is zero. -/
theorem vec_window (wf : ScatterDims.WF ⟨1, ![N]⟩ ⟨2, ![M, 1]⟩ ⟨1, ![M]⟩ [] [0] [0] 1) (j : (⟨1, ![M]⟩ : Shape).Idx)
    (a : Fin 1) : (vecDims N M wf).window j a = 0 := by
  obtain rfl : a = 0 := Subsingleton.elim _ _
  unfold ScatterDims.window
  exact dif_neg (fun h => (mem_sKept _ _).1 h (List.mem_singleton.mpr rfl))

/-- Update `r` is aimed at `g` exactly when row `r`'s start index is `g`. -/
theorem vec_resultIdx?_eq_some_iff (wf : ScatterDims.WF ⟨1, ![N]⟩ ⟨2, ![M, 1]⟩ ⟨1, ![M]⟩ [] [0] [0] 1)
    (idx : IVec ⟨2, ![M, 1]⟩ w) (r : Fin M) (g : Fin N) :
    (vecDims N M wf).resultIdx? (ix1 r) idx = some (ix1 g) ↔ rowStart idx r = (g.val : Int) := by
  rw [resultIdx?_eq_some_iff]
  constructor
  · intro h
    have h0 := h 0
    rw [vec_start, vec_window, Nat.cast_zero, add_zero] at h0
    exact h0
  · intro h a
    rw [vec_start, vec_window, Nat.cast_zero, add_zero]
    obtain rfl : a = 0 := Subsingleton.elim _ _
    exact h

/-- Update `j` is aimed at `i` exactly when the start index of `j`'s row is `i`'s coordinate. -/
theorem vec_resultIdx?_eq_some_iff' (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (vecDims N M wf).resultIdx? j idx = some i ↔ rowStart idx (j 0) = ((i 0).val : Int) := by
  obtain ⟨r, rfl⟩ : ∃ r : Fin M, j = ix1 r := ⟨_, eq_ix1 j⟩
  obtain ⟨g, rfl⟩ : ∃ g : Fin N, i = ix1 g := ⟨_, eq_ix1 i⟩
  exact vec_resultIdx?_eq_some_iff wf idx r g

/-- Where update `j` lands: at its row's start index when that is inside the vector, nowhere when it is not. -/
theorem vec_resultIdx? (wf : ScatterDims.WF ⟨1, ![N]⟩ ⟨2, ![M, 1]⟩ ⟨1, ![M]⟩ [] [0] [0] 1)
    (idx : IVec ⟨2, ![M, 1]⟩ w) (j : (⟨1, ![M]⟩ : Shape).Idx) :
    (vecDims N M wf).resultIdx? j idx
      = if h : 0 ≤ rowStart idx (j 0) ∧ rowStart idx (j 0) < (N : Int) then
          some (ix1 ⟨(rowStart idx (j 0)).toNat, by omega⟩)
        else none := by
  by_cases h : 0 ≤ rowStart idx (j 0) ∧ rowStart idx (j 0) < (N : Int)
  · rw [dif_pos h]
    refine (vec_resultIdx?_eq_some_iff' wf idx j _).2 ?_
    show rowStart idx (j 0) = (((rowStart idx (j 0)).toNat : ℕ) : Int)
    omega
  · rw [dif_neg h]
    refine Option.eq_none_iff_forall_ne_some.2 ?_
    intro i hi
    have hz := (vec_resultIdx?_eq_some_iff' wf idx j i).1 hi
    have hlt : (i 0).val < N := (i 0).isLt
    exact h ⟨by omega, by omega⟩

/-! ### Rows into a matrix -/

/-- The dimension numbers of a scatter of `M` rows of length `C` into an `N × C` matrix, one row index each. -/
abbrev rowDims (N C M : ℕ) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the row axis the window of update `(r, q)` starts at row `r`'s start index … -/
theorem row_start0 (wf : ScatterDims.WF ⟨2, ![N, C]⟩ ⟨2, ![M, 1]⟩ ⟨2, ![M, C]⟩ [1] [0] [0] 1)
    (idx : IVec ⟨2, ![M, 1]⟩ w) (r : Fin M) (q : Fin C) :
    (rowDims N C M wf).start (ix2 r q) idx 0 = rowStart idx r := by
  unfold ScatterDims.start
  rw [dif_pos (show (0 : Fin 2) ∈ (rowDims N C M wf).scatterDimsToOperandDims from List.mem_singleton.mpr rfl)]
  have hsi : (rowDims N C M wf).siIdx (ix2 r q) ⟨List.idxOf (0 : Fin 2) (rowDims N C M wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- … and on the column axis at zero. -/
theorem row_start1 (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (rowDims N C M wf).start j idx 1 = 0 := by
  unfold ScatterDims.start
  exact dif_neg (show (1 : Fin 2) ∉ [(0 : Fin 2)] by decide)

/-- The window is one row: its coordinate on the row axis is zero … -/
theorem row_window0 (wf : ScatterDims.WF ⟨2, ![N, C]⟩ ⟨2, ![M, 1]⟩ ⟨2, ![M, C]⟩ [1] [0] [0] 1)
    (j : (⟨2, ![M, C]⟩ : Shape).Idx) : (rowDims N C M wf).window j 0 = 0 := by
  unfold ScatterDims.window
  exact dif_neg (fun h => (mem_sKept _ _).1 h (List.mem_singleton.mpr rfl))

/-- … and on the column axis the update's column. -/
theorem row_window1 (wf : ScatterDims.WF ⟨2, ![N, C]⟩ ⟨2, ![M, 1]⟩ ⟨2, ![M, C]⟩ [1] [0] [0] 1)
    (r : Fin M) (q : Fin C) : (rowDims N C M wf).window (ix2 r q) 1 = q.val := by
  unfold ScatterDims.window
  rw [dif_pos ((mem_sKept (rowDims N C M wf) 1).2 (show (1 : Fin 2) ∉ [(0 : Fin 2)] by decide))]
  rfl

/-- Update `(r, q)` is aimed at `(g, q')` exactly when row `r`'s start index is `g` and the columns agree. -/
theorem row_resultIdx?_eq_some_iff (wf : ScatterDims.WF ⟨2, ![N, C]⟩ ⟨2, ![M, 1]⟩ ⟨2, ![M, C]⟩ [1] [0] [0] 1)
    (idx : IVec ⟨2, ![M, 1]⟩ w) (r : Fin M) (q : Fin C) (g : Fin N) (q' : Fin C) :
    (rowDims N C M wf).resultIdx? (ix2 r q) idx = some (ix2 g q') ↔ rowStart idx r = (g.val : Int) ∧ q = q' := by
  have key : (∀ a, (rowDims N C M wf).start (ix2 r q) idx a + ((rowDims N C M wf).window (ix2 r q) a : Int)
        = (((ix2 g q' : (⟨2, ![N, C]⟩ : Shape).Idx) a).val : Int)) ↔
      ((rowDims N C M wf).start (ix2 r q) idx 0 + ((rowDims N C M wf).window (ix2 r q) 0 : Int) = (g.val : Int)) ∧
      ((rowDims N C M wf).start (ix2 r q) idx 1 + ((rowDims N C M wf).window (ix2 r q) 1 : Int) = (q'.val : Int)) :=
    Fin.forall_fin_two
  rw [resultIdx?_eq_some_iff, key, row_start0, row_window0, row_start1, row_window1, Nat.cast_zero, add_zero, zero_add,
    Nat.cast_inj, Fin.val_inj]

/-- Update `j` is aimed at `i` exactly when the start index of `j`'s row is `i`'s row and the columns agree. -/
theorem row_resultIdx?_eq_some_iff' (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx) :
    (rowDims N C M wf).resultIdx? j idx = some i
      ↔ rowStart idx (j 0) = ((i 0).val : Int) ∧ (j 1).val = (i 1).val := by
  obtain ⟨r, q, rfl⟩ : ∃ (r : Fin M) (q : Fin C), j = ix2 r q := ⟨_, _, eq_ix2 j⟩
  obtain ⟨g, q', rfl⟩ : ∃ (g : Fin N) (q' : Fin C), i = ix2 g q' := ⟨_, _, eq_ix2 i⟩
  refine (row_resultIdx?_eq_some_iff wf idx r q g q').trans ?_
  show _ ∧ q = q' ↔ _ ∧ q.val = q'.val
  rw [Fin.val_inj]
  exact Iff.rfl

/-- Where update `j` lands: in its own column of the row its row's start index names, when that row is inside the
    matrix; nowhere when it is not. -/
theorem row_resultIdx? (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (rowDims N C M wf).resultIdx? j idx
      = if h : 0 ≤ rowStart idx (j 0) ∧ rowStart idx (j 0) < (N : Int) then
          some (ix2 ⟨(rowStart idx (j 0)).toNat, by omega⟩ (j 1))
        else none := by
  by_cases h : 0 ≤ rowStart idx (j 0) ∧ rowStart idx (j 0) < (N : Int)
  · rw [dif_pos h]
    refine (row_resultIdx?_eq_some_iff' wf idx j _).2 ⟨?_, rfl⟩
    show rowStart idx (j 0) = (((rowStart idx (j 0)).toNat : ℕ) : Int)
    omega
  · rw [dif_neg h]
    refine Option.eq_none_iff_forall_ne_some.2 ?_
    intro i hi
    have hz := ((row_resultIdx?_eq_some_iff' wf idx j i).1 hi).1
    have hlt : (i 0).val < N := (i 0).isLt
    exact h ⟨by omega, by omega⟩

/-! ### Reading a set at pairwise distinct rows, and a histogram -/

/-- ROWS SET INTO A MATRIX: when row `r`'s start index is `g` and no other row's is, the result's row `g` is the
    updates' row `r`. -/
theorem row_set_apply (wf : ScatterDims.WF ⟨2, ![N, C]⟩ ⟨2, ![M, 1]⟩ ⟨2, ![M, C]⟩ [1] [0] [0] 1)
    (x : (⟨2, ![N, C]⟩ : Shape).Idx → α) (idx : IVec ⟨2, ![M, 1]⟩ w) (upd : (⟨2, ![M, C]⟩ : Shape).Idx → α)
    (r : Fin M) (g : Fin N) (q : Fin C) (hr : rowStart idx r = (g.val : Int))
    (huniq : ∀ r' : Fin M, rowStart idx r' = (g.val : Int) → r' = r) :
    Host.scatter (rowDims N C M wf) (fun _ b => b) x idx upd (ix2 g q) = upd (ix2 r q) := by
  refine scatter_set_of_unique _ x idx upd (ix2 r q) (ix2 g q)
    ((row_resultIdx?_eq_some_iff wf idx r q g q).2 ⟨hr, rfl⟩) ?_
  intro j' hj'
  obtain ⟨r', q', rfl⟩ : ∃ (r' : Fin M) (q' : Fin C), j' = ix2 r' q' := ⟨_, _, eq_ix2 j'⟩
  obtain ⟨h1, rfl⟩ := (row_resultIdx?_eq_some_iff wf idx r' q' g q).1 hj'
  rw [huniq r' h1]

/-- The same for start indices that are in range and pairwise distinct: the result at `(z r, q)` is the update at
    `(r, q)`. -/
theorem row_set_apply_of_injective (wf : ScatterDims.WF ⟨2, ![N, C]⟩ ⟨2, ![M, 1]⟩ ⟨2, ![M, C]⟩ [1] [0] [0] 1)
    (x : (⟨2, ![N, C]⟩ : Shape).Idx → α) (idx : IVec ⟨2, ![M, 1]⟩ w) (upd : (⟨2, ![M, C]⟩ : Shape).Idx → α)
    (hinj : Function.Injective (rowStart idx)) (r : Fin M) (q : Fin C)
    (h0 : 0 ≤ rowStart idx r) (hN : rowStart idx r < (N : Int)) :
    Host.scatter (rowDims N C M wf) (fun _ b => b) x idx upd (ix2 ⟨(rowStart idx r).toNat, by omega⟩ q)
      = upd (ix2 r q) := by
  have hr : rowStart idx r = (((⟨(rowStart idx r).toNat, by omega⟩ : Fin N).val : ℕ) : Int) := by
    show rowStart idx r = (((rowStart idx r).toNat : ℕ) : Int)
    omega
  exact row_set_apply wf x idx upd r _ q hr (fun r' h' => hinj (h'.trans hr.symm))

/-- A row of the matrix that no update row's start index names keeps its elements, whatever the combining
    function. -/
theorem row_scatter_of_not_hit (wf : ScatterDims.WF ⟨2, ![N, C]⟩ ⟨2, ![M, 1]⟩ ⟨2, ![M, C]⟩ [1] [0] [0] 1)
    (f : α → α → α) (x : (⟨2, ![N, C]⟩ : Shape).Idx → α) (idx : IVec ⟨2, ![M, 1]⟩ w)
    (upd : (⟨2, ![M, C]⟩ : Shape).Idx → α) (g : Fin N) (q : Fin C)
    (h : ∀ r : Fin M, rowStart idx r ≠ (g.val : Int)) :
    Host.scatter (rowDims N C M wf) f x idx upd (ix2 g q) = x (ix2 g q) := by
  refine scatter_of_not_hit _ f x idx upd _ ?_
  intro j hj
  obtain ⟨r', q', rfl⟩ : ∃ (r' : Fin M) (q' : Fin C), j = ix2 r' q' := ⟨_, _, eq_ix2 j⟩
  exact h r' ((row_resultIdx?_eq_some_iff wf idx r' q' g q).1 hj).1

/-- SCALARS SET INTO A VECTOR: when row `r`'s start index is `g` and no other row's is, the result at `g` is update
    `r`. -/
theorem vec_set_apply (wf : ScatterDims.WF ⟨1, ![N]⟩ ⟨2, ![M, 1]⟩ ⟨1, ![M]⟩ [] [0] [0] 1)
    (x : (⟨1, ![N]⟩ : Shape).Idx → α) (idx : IVec ⟨2, ![M, 1]⟩ w) (upd : (⟨1, ![M]⟩ : Shape).Idx → α)
    (r : Fin M) (g : Fin N) (hr : rowStart idx r = (g.val : Int))
    (huniq : ∀ r' : Fin M, rowStart idx r' = (g.val : Int) → r' = r) :
    Host.scatter (vecDims N M wf) (fun _ b => b) x idx upd (ix1 g) = upd (ix1 r) := by
  refine scatter_set_of_unique _ x idx upd (ix1 r) (ix1 g) ((vec_resultIdx?_eq_some_iff wf idx r g).2 hr) ?_
  intro j' hj'
  obtain ⟨r', rfl⟩ : ∃ r' : Fin M, j' = ix1 r' := ⟨_, eq_ix1 j'⟩
  rw [huniq r' ((vec_resultIdx?_eq_some_iff wf idx r' g).1 hj')]

/-- The same for start indices that are in range and pairwise distinct: the result at `z r` is update `r`. -/
theorem vec_set_apply_of_injective (wf : ScatterDims.WF ⟨1, ![N]⟩ ⟨2, ![M, 1]⟩ ⟨1, ![M]⟩ [] [0] [0] 1)
    (x : (⟨1, ![N]⟩ : Shape).Idx → α) (idx : IVec ⟨2, ![M, 1]⟩ w) (upd : (⟨1, ![M]⟩ : Shape).Idx → α)
    (hinj : Function.Injective (rowStart idx)) (r : Fin M)
    (h0 : 0 ≤ rowStart idx r) (hN : rowStart idx r < (N : Int)) :
    Host.scatter (vecDims N M wf) (fun _ b => b) x idx upd (ix1 ⟨(rowStart idx r).toNat, by omega⟩) = upd (ix1 r) := by
  have hr : rowStart idx r = (((⟨(rowStart idx r).toNat, by omega⟩ : Fin N).val : ℕ) : Int) := by
    show rowStart idx r = (((rowStart idx r).toNat : ℕ) : Int)
    omega
  exact vec_set_apply wf x idx upd r _ hr (fun r' h' => hinj (h'.trans hr.symm))

/-- An element of the vector that no update's start index names keeps its value, whatever the combining function. -/
theorem vec_scatter_of_not_hit (wf : ScatterDims.WF ⟨1, ![N]⟩ ⟨2, ![M, 1]⟩ ⟨1, ![M]⟩ [] [0] [0] 1)
    (f : α → α → α) (x : (⟨1, ![N]⟩ : Shape).Idx → α) (idx : IVec ⟨2, ![M, 1]⟩ w)
    (upd : (⟨1, ![M]⟩ : Shape).Idx → α) (g : Fin N) (h : ∀ r : Fin M, rowStart idx r ≠ (g.val : Int)) :
    Host.scatter (vecDims N M wf) f x idx upd (ix1 g) = x (ix1 g) := by
  refine scatter_of_not_hit _ f x idx upd _ ?_
  intro j hj
  obtain ⟨r', rfl⟩ : ∃ r' : Fin M, j = ix1 r' := ⟨_, eq_ix1 j⟩
  exact h r' ((vec_resultIdx?_eq_some_iff wf idx r' g).1 hj)

/-- The updates aimed at `g` are as many as the rows whose start index is `g`. -/
theorem vec_card_hits (wf : ScatterDims.WF ⟨1, ![N]⟩ ⟨2, ![M, 1]⟩ ⟨1, ![M]⟩ [] [0] [0] 1)
    (idx : IVec ⟨2, ![M, 1]⟩ w) (g : Fin N) :
    (Finset.univ.filter (fun j => (vecDims N M wf).resultIdx? j idx = some (ix1 g))).card
      = (Finset.univ.filter (fun r : Fin M => rowStart idx r = (g.val : Int))).card := by
  refine Finset.card_bij (fun j _ => (j 0 : Fin M)) ?_ ?_ ?_
  · intro j hj
    obtain ⟨r, rfl⟩ : ∃ r : Fin M, j = ix1 r := ⟨_, eq_ix1 j⟩
    have hj' := (Finset.mem_filter.1 hj).2
    exact Finset.mem_filter.2 ⟨Finset.mem_univ _, (vec_resultIdx?_eq_some_iff wf idx r g).1 hj'⟩
  · intro j1 _ j2 _ h
    obtain ⟨r1, rfl⟩ : ∃ r : Fin M, j1 = ix1 r := ⟨_, eq_ix1 j1⟩
    obtain ⟨r2, rfl⟩ : ∃ r : Fin M, j2 = ix1 r := ⟨_, eq_ix1 j2⟩
    have h' : r1 = r2 := h
    rw [h']
  · intro r hr
    have hr' := (Finset.mem_filter.1 hr).2
    exact ⟨ix1 r, Finset.mem_filter.2 ⟨Finset.mem_univ _, (vec_resultIdx?_eq_some_iff wf idx r g).2 hr'⟩, rfl⟩

/-- A HISTOGRAM: ones summed into a vector of zeros leave at `g` the number of rows whose start index is `g`, as a
    word. -/
theorem vec_count {v : ℕ} (wf : ScatterDims.WF ⟨1, ![N]⟩ ⟨2, ![M, 1]⟩ ⟨1, ![M]⟩ [] [0] [0] 1)
    (idx : IVec ⟨2, ![M, 1]⟩ w) (g : Fin N) :
    Host.scatter (vecDims N M wf) IntOp.addi (fun _ => (0 : BitVec v)) idx (fun _ => 1) (ix1 g)
      = BitVec.ofNat v (Finset.univ.filter (fun r : Fin M => rowStart idx r = (g.val : Int))).card := by
  rw [addi_eq_add, scatter_count, vec_card_hits]

/-- A sum-scatter of words into a vector leaves at `g` the old element plus the updates of the rows whose start index
    is `g`. -/
theorem vec_add {v : ℕ} (wf : ScatterDims.WF ⟨1, ![N]⟩ ⟨2, ![M, 1]⟩ ⟨1, ![M]⟩ [] [0] [0] 1)
    (x : (⟨1, ![N]⟩ : Shape).Idx → BitVec v) (idx : IVec ⟨2, ![M, 1]⟩ w) (upd : (⟨1, ![M]⟩ : Shape).Idx → BitVec v)
    (g : Fin N) :
    Host.scatter (vecDims N M wf) IntOp.addi x idx upd (ix1 g)
      = x (ix1 g) + ∑ r ∈ Finset.univ.filter (fun r : Fin M => rowStart idx r = (g.val : Int)), upd (ix1 r) := by
  rw [addi_eq_add, scatter_add]
  congr 1
  refine Finset.sum_bij (fun j _ => (j 0 : Fin M)) ?_ ?_ ?_ ?_
  · intro j hj
    obtain ⟨r, rfl⟩ : ∃ r : Fin M, j = ix1 r := ⟨_, eq_ix1 j⟩
    have hj' := (Finset.mem_filter.1 hj).2
    exact Finset.mem_filter.2 ⟨Finset.mem_univ _, (vec_resultIdx?_eq_some_iff wf idx r g).1 hj'⟩
  · intro j1 _ j2 _ h
    obtain ⟨r1, rfl⟩ : ∃ r : Fin M, j1 = ix1 r := ⟨_, eq_ix1 j1⟩
    obtain ⟨r2, rfl⟩ : ∃ r : Fin M, j2 = ix1 r := ⟨_, eq_ix1 j2⟩
    have h' : r1 = r2 := h
    rw [h']
  · intro r hr
    have hr' := (Finset.mem_filter.1 hr).2
    exact ⟨ix1 r, Finset.mem_filter.2 ⟨Finset.mem_univ _, (vec_resultIdx?_eq_some_iff wf idx r g).2 hr'⟩, rfl⟩
  · intro j _
    obtain ⟨r, rfl⟩ : ∃ r : Fin M, j = ix1 r := ⟨_, eq_ix1 j⟩
    rfl

end Patterns

end Cert.Lib.ScatterFold
-- ==== Proof.LibChannelScatter.lean ====
/-
  WHERE A CHANNEL SCATTER LANDS.

  An array of shape [B, N, H, W] is scattered into along its second axis (the channels): the updates have shape
  [B, M, H, W], the scatter indices are an M x 1 array whose entry (r, 0), read as a signed integer, names the
  channel that channel r of the updates goes to, and the other three axes are window axes carried over unchanged.
  (This is what writing M whole channels at a list of channel numbers, for every batch entry at once, lowers to.)

  Update (b, r, h, w) is therefore aimed at (b, z r, h, w), where z r is row r's start index, and is dropped when
  z r is not a channel.  From the general readings of a scatter at one index:

  * when channel r's start index is g and no other channel's is, a set leaves at (b, g, h, w) the update at
    (b, r, h, w) ("chan_set_apply"; "chan_set_apply_of_injective" for in-range, pairwise distinct start indices);
  * a channel g that no start index names keeps its elements, whatever the combining function
    ("chan_scatter_of_not_hit").
-/
import proofs.«204282_g43688407335220_cont_8to1_c_395_12_alg».proof.Proof.LibScatterFold

open Idealize.ShloMosaic

namespace Cert.Lib.ChannelScatter

open Idealize.ShloMosaic.ValueIdx Cert.Lib.ScatterFold

variable {B N M H W w : ℕ} {α : Type}

/-- A statement about all four axes is the four statements. -/
theorem forall_fin_four {P : Fin 4 → Prop} : (∀ a, P a) ↔ P 0 ∧ P 1 ∧ P 2 ∧ P 3 :=
  ⟨fun h => ⟨h 0, h 1, h 2, h 3⟩, fun ⟨h0, h1, h2, h3⟩ a =>
    match a with
    | ⟨0, _⟩ => h0
    | ⟨1, _⟩ => h1
    | ⟨2, _⟩ => h2
    | ⟨3, _⟩ => h3⟩

/-- The dimension numbers of a scatter of `M` channels into the `N` channels of a `[B, N, H, W]` array, one channel
    index each. -/
abbrev chanDims (B N M H W : ℕ)
    (wf : ScatterDims.WF ⟨4, ![B, N, H, W]⟩ ⟨2, ![M, 1]⟩ ⟨4, ![B, M, H, W]⟩ [0, 2, 3] [1] [1] 1) :
    ScatterDims ⟨4, ![B, N, H, W]⟩ ⟨2, ![M, 1]⟩ ⟨4, ![B, M, H, W]⟩ where
  updateWindowDims := [0, 2, 3]
  insertedWindowDims := [1]
  scatterDimsToOperandDims := [1]
  indexVectorDim := 1
  wf := wf

section

variable (wf : ScatterDims.WF ⟨4, ![B, N, H, W]⟩ ⟨2, ![M, 1]⟩ ⟨4, ![B, M, H, W]⟩ [0, 2, 3] [1] [1] 1)

/-- On the channel axis the window of update `(b, r, h, w)` starts at channel `r`'s start index … -/
theorem chan_start1 (idx : IVec ⟨2, ![M, 1]⟩ w) (b : Fin B) (r : Fin M) (h : Fin H) (q : Fin W) :
    (chanDims B N M H W wf).start (ix4 b r h q) idx 1 = rowStart idx r := by
  unfold ScatterDims.start
  rw [dif_pos (show (1 : Fin 4) ∈ (chanDims B N M H W wf).scatterDimsToOperandDims from List.mem_singleton.mpr rfl)]
  have hsi : (chanDims B N M H W wf).siIdx (ix4 b r h q)
      ⟨List.idxOf (1 : Fin 4) (chanDims B N M H W wf).scatterDimsToOperandDims,
        List.idxOf_lt_length_iff.2 (List.mem_singleton.mpr rfl)⟩ = ix2 r 0 := by
    funext a; refine Fin.ext ?_
    match a with
    | ⟨0, _⟩ => rfl
    | ⟨1, _⟩ => rfl
  rw [hsi]

/-- … and on the three other axes at zero. -/
theorem chan_start0 (idx : IVec ⟨2, ![M, 1]⟩ w) (j : (⟨4, ![B, M, H, W]⟩ : Shape).Idx) :
    (chanDims B N M H W wf).start j idx 0 = 0 := by
  unfold ScatterDims.start
  exact dif_neg (show (0 : Fin 4) ∉ [(1 : Fin 4)] by decide)
theorem chan_start2 (idx : IVec ⟨2, ![M, 1]⟩ w) (j : (⟨4, ![B, M, H, W]⟩ : Shape).Idx) :
    (chanDims B N M H W wf).start j idx 2 = 0 := by
  unfold ScatterDims.start
  exact dif_neg (show (2 : Fin 4) ∉ [(1 : Fin 4)] by decide)
theorem chan_start3 (idx : IVec ⟨2, ![M, 1]⟩ w) (j : (⟨4, ![B, M, H, W]⟩ : Shape).Idx) :
    (chanDims B N M H W wf).start j idx 3 = 0 := by
  unfold ScatterDims.start
  exact dif_neg (show (3 : Fin 4) ∉ [(1 : Fin 4)] by decide)

/-- The window is one whole channel: its coordinate on the channel axis is zero … -/
theorem chan_window1 (j : (⟨4, ![B, M, H, W]⟩ : Shape).Idx) : (chanDims B N M H W wf).window j 1 = 0 := by
  unfold ScatterDims.window
  exact dif_neg (fun h => (mem_sKept _ _).1 h (List.mem_singleton.mpr rfl))

/-- … and on the other axes the update's own coordinate. -/
theorem chan_window0 (b : Fin B) (r : Fin M) (h : Fin H) (q : Fin W) :
    (chanDims B N M H W wf).window (ix4 b r h q) 0 = b.val := by
  unfold ScatterDims.window
  rw [dif_pos ((mem_sKept (chanDims B N M H W wf) 0).2 (show (0 : Fin 4) ∉ [(1 : Fin 4)] by decide))]
  rfl
theorem chan_window2 (b : Fin B) (r : Fin M) (h : Fin H) (q : Fin W) :
    (chanDims B N M H W wf).window (ix4 b r h q) 2 = h.val := by
  unfold ScatterDims.window
  rw [dif_pos ((mem_sKept (chanDims B N M H W wf) 2).2 (show (2 : Fin 4) ∉ [(1 : Fin 4)] by decide))]
  rfl
theorem chan_window3 (b : Fin B) (r : Fin M) (h : Fin H) (q : Fin W) :
    (chanDims B N M H W wf).window (ix4 b r h q) 3 = q.val := by
  unfold ScatterDims.window
  rw [dif_pos ((mem_sKept (chanDims B N M H W wf) 3).2 (show (3 : Fin 4) ∉ [(1 : Fin 4)] by decide))]
  rfl

/-- Update `(b, r, h, q)` is aimed at `(b', g, h', q')` exactly when channel `r`'s start index is `g` and the other
    three coordinates agree. -/
theorem chan_resultIdx?_eq_some_iff (idx : IVec ⟨2, ![M, 1]⟩ w) (b : Fin B) (r : Fin M) (h : Fin H) (q : Fin W)
    (b' : Fin B) (g : Fin N) (h' : Fin H) (q' : Fin W) :
    (chanDims B N M H W wf).resultIdx? (ix4 b r h q) idx = some (ix4 b' g h' q')
      ↔ rowStart idx r = (g.val : Int) ∧ b = b' ∧ h = h' ∧ q = q' := by
  rw [resultIdx?_eq_some_iff, forall_fin_four, chan_start0, chan_window0, chan_start1, chan_window1, chan_start2,
    chan_window2, chan_start3, chan_window3]
  show ((0 : Int) + (b.val : Int) = (b'.val : Int) ∧ rowStart idx r + ((0 : ℕ) : Int) = (g.val : Int)
      ∧ (0 : Int) + (h.val : Int) = (h'.val : Int) ∧ (0 : Int) + (q.val : Int) = (q'.val : Int)) ↔ _
  constructor
  · rintro ⟨h0, h1, h2, h3⟩
    exact ⟨by omega, Fin.ext (by omega), Fin.ext (by omega), Fin.ext (by omega)⟩
  · rintro ⟨hr, rfl, rfl, rfl⟩
    exact ⟨by omega, by omega, by omega, by omega⟩

/-- CHANNELS SET INTO AN ARRAY: when channel `r`'s start index is `g` and no other channel's is, the result's
    channel `g` is the updates' channel `r`, in every batch entry. -/
theorem chan_set_apply (x : (⟨4, ![B, N, H, W]⟩ : Shape).Idx → α) (idx : IVec ⟨2, ![M, 1]⟩ w)
    (upd : (⟨4, ![B, M, H, W]⟩ : Shape).Idx → α) (r : Fin M) (g : Fin N) (b : Fin B) (h : Fin H) (q : Fin W)
    (hr : rowStart idx r = (g.val : Int)) (huniq : ∀ r' : Fin M, rowStart idx r' = (g.val : Int) → r' = r) :
    Host.scatter (chanDims B N M H W wf) (fun _ v => v) x idx upd (ix4 b g h q) = upd (ix4 b r h q) := by
  refine scatter_set_of_unique _ x idx upd (ix4 b r h q) (ix4 b g h q)
    ((chan_resultIdx?_eq_some_iff wf idx b r h q b g h q).2 ⟨hr, rfl, rfl, rfl⟩) ?_
  intro j' hj'
  obtain ⟨b', r', h', q', rfl⟩ : ∃ (b' : Fin B) (r' : Fin M) (h' : Fin H) (q' : Fin W), j' = ix4 b' r' h' q' :=
    ⟨_, _, _, _, eq_ix4 j'⟩
  obtain ⟨h1, rfl, rfl, rfl⟩ := (chan_resultIdx?_eq_some_iff wf idx b' r' h' q' b g h q).1 hj'
  rw [huniq r' h1]

/-- The same for start indices that are in range and pairwise distinct: the result at `(b, z r, h, q)` is the
    update at `(b, r, h, q)`. -/
theorem chan_set_apply_of_injective (x : (⟨4, ![B, N, H, W]⟩ : Shape).Idx → α) (idx : IVec ⟨2, ![M, 1]⟩ w)
    (upd : (⟨4, ![B, M, H, W]⟩ : Shape).Idx → α) (hinj : Function.Injective (rowStart idx))
    (r : Fin M) (b : Fin B) (h : Fin H) (q : Fin W) (h0 : 0 ≤ rowStart idx r) (hN : rowStart idx r < (N : Int)) :
    Host.scatter (chanDims B N M H W wf) (fun _ v => v) x idx upd (ix4 b ⟨(rowStart idx r).toNat, by omega⟩ h q)
      = upd (ix4 b r h q) := by
  have hr : rowStart idx r = (((⟨(rowStart idx r).toNat, by omega⟩ : Fin N).val : ℕ) : Int) := by
    show rowStart idx r = (((rowStart idx r).toNat : ℕ) : Int)
    omega
  exact chan_set_apply wf x idx upd r _ b h q hr (fun r' h' => hinj (h'.trans hr.symm))

/-- A channel of the array that no start index names keeps its elements, whatever the combining function. -/
theorem chan_scatter_of_not_hit (f : α → α → α) (x : (⟨4, ![B, N, H, W]⟩ : Shape).Idx → α)
    (idx : IVec ⟨2, ![M, 1]⟩ w) (upd : (⟨4, ![B, M, H, W]⟩ : Shape).Idx → α) (g : Fin N) (b : Fin B) (h : Fin H)
    (q : Fin W) (hg : ∀ r : Fin M, rowStart idx r ≠ (g.val : Int)) :
    Host.scatter (chanDims B N M H W wf) f x idx upd (ix4 b g h q) = x (ix4 b g h q) := by
  refine scatter_of_not_hit _ f x idx upd _ ?_
  intro j hj
  obtain ⟨b', r', h', q', rfl⟩ : ∃ (b' : Fin B) (r' : Fin M) (h' : Fin H) (q' : Fin W), j = ix4 b' r' h' q' :=
    ⟨_, _, _, _, eq_ix4 j⟩
  exact hg r' ((chan_resultIdx?_eq_some_iff wf idx b' r' h' q' b g h q).1 hj).1

end

end Cert.Lib.ChannelScatter
-- ==== Proof.RefScatter.lean ====
/-
  What the reference's scatter computes: the channels spread to the even positions.

  The index table holds 0, 2, 4, ..., 190: entry k is 2 k.  None is negative as a signed 32-bit integer, so the
  "negative index" idiom (compare with 0, add 192, select) returns the table unchanged, and channel k of the
  argument is aimed at channel 2 k of the result: the 96 targets are pairwise distinct and all below 192.  Reading
  the scatter at (b, c, h, w): when c is even, channel c / 2 is the one channel aimed at c, so the element is the
  argument's at (b, c / 2, h, w); when c is odd no channel is aimed at c, and the element is the zero the operand
  was filled with.
-/
import proofs.«204282_g43688407335220_cont_8to1_c_395_12_alg».proof.Proof.Gen.ReferenceIdeal
import proofs.«204282_g43688407335220_cont_8to1_c_395_12_alg».proof.Proof.Spec
import proofs.«204282_g43688407335220_cont_8to1_c_395_12_alg».proof.Proof.LibChannelScatter

noncomputable section

namespace Cert.ReferenceIdeal.RefValue

open Cert.ReferenceIdeal Cert.ReferenceIdeal.Gen Idealize.ShloMosaic Idealize.ShloMosaic.ValueIdx
open Cert.Lib.ScatterFold Cert.Lib.ChannelScatter

variable {F : FTy → Type} [FloatOps F]

/-- The table of channel numbers, as the program's first operation writes it. -/
abbrev table : IVec S96 32 := fun i => lit0 (S96.rowMajor i)

/-- The scatter indices the program computes from the table: the negative-index idiom, then a unit axis added. -/
abbrev indices : IVec S96x1 32 :=
  broadcastInDim S96x1 ![0] bcast_S96_S96x1_0
    (select (cmpi .slt table (broadcastInDim S96 ![] bcast_S_S96 (constantI S_ 32 0#32)))
      (addi table (broadcastInDim S96 ![] bcast_S_S96 (constantI S_ 32 192#32))) table)

/-- Entry k of the table is 2 k; as a signed integer it is not negative, so the idiom keeps it. -/
theorem idiom_lit0 : ∀ k : Fin 96,
    (Scalar.select (IntOp.cmpi .slt (lit0 k) 0#32) (IntOp.addi (lit0 k) 192#32) (lit0 k)).toInt = 2 * (k.val : Int) := by
  decide

/-- Channel k's start index is 2 k. -/
theorem rowStart_indices (k : Fin 96) : rowStart indices k = 2 * (k.val : Int) := by
  -- at any index of the table whose coordinate is k, the idiom's value is 2 k
  have key : ∀ i : S96.Idx, (i 0).val = k.val →
      (Scalar.select (IntOp.cmpi .slt (lit0 (S96.rowMajor i)) 0#32) (IntOp.addi (lit0 (S96.rowMajor i)) 192#32)
        (lit0 (S96.rowMajor i))).toInt = 2 * (k.val : Int) := by
    intro i hi
    have hk : (S96.rowMajor i : Fin 96) = k := Fin.ext ((Shape.rowMajor_val_one i).trans hi)
    rw [hk]
    exact idiom_lit0 k
  -- the unit axis reads the table at coordinate k
  exact key _ rfl

/-- The operand: the zero constant everywhere. -/
abbrev zeros : FVec F S8x192x224x224 .f32 :=
  broadcastInDim S8x192x224x224 ![] bcast_S_S8x192x224x224 (constant S_ .f32 0x00000000#32)

/-- The reference's scatter of the argument's channels into zeros is the channels spread to the even positions. -/
theorem scatter_spread (x : FVec F S8x96x224x224 .f32) :
    Host.scatter scatter_S8x192x224x224_S96x1_S8x96x224x224_023_1_1_1 (fun _ b => b) (zeros (F := F)) indices x
      = Cert.Spec.spread x := by
  have hd : scatter_S8x192x224x224_S96x1_S8x96x224x224_023_1_1_1
      = chanDims 8 192 96 224 224 scatter_S8x192x224x224_S96x1_S8x96x224x224_023_1_1_1_wf := rfl
  rw [hd]
  funext j
  obtain ⟨b, c, h, q, rfl⟩ : ∃ (b : Fin 8) (c : Fin 192) (h : Fin 224) (q : Fin 224), j = ix4 b c h q :=
    ⟨j 0, j 1, j 2, j 3, eq_ix4 j⟩
  have hc := c.isLt
  show _ = if c.val % 2 = 0 then x (ix4 b ⟨c.val / 2, _⟩ h q) else Cert.Spec.zero
  by_cases hc2 : c.val % 2 = 0
  · -- an even channel: channel c / 2 of the argument, and only it, is aimed here
    rw [if_pos hc2]
    refine chan_set_apply _ _ indices x ⟨c.val / 2, by omega⟩ c b h q ?_ ?_
    · rw [rowStart_indices]; show 2 * ((c.val / 2 : ℕ) : Int) = (c.val : Int); omega
    · intro r' hr'
      rw [rowStart_indices] at hr'
      exact Fin.ext (by show r'.val = c.val / 2; omega)
  · -- an odd channel: nothing is aimed here, the zero stays
    rw [if_neg hc2]
    refine (chan_scatter_of_not_hit _ _ _ indices x c b h q ?_).trans rfl
    intro r hr
    rw [rowStart_indices] at hr
    omega

end Cert.ReferenceIdeal.RefValue

end
-- ==== Proof.RefRun.lean ====
/-
  The reference program's run, read back.

  The reference has no kernel: its body is a straight line of twelve host operations (the table of channel numbers,
  the zero constant and its broadcast, the negative-index idiom on the table, a unit axis added, the scatter).  Every
  weakly fair execution of it terminates with each result buffer at the composition of the operations' functions
  over the launch contents, the argument unchanged.  The last buffer holds the scatter of the argument into zeros at
  the computed indices, which is the argument's channels spread to the even positions.
-/
import proofs.«204282_g43688407335220_cont_8to1_c_395_12_alg».proof.Proof.RefScatter
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- The body's twelve operations, in order. -/
abbrev ops : List (HloOp τ sig (Elt F)) :=
  [ nullary main_c (fun i => lit0 (S96.rowMajor i)),
    nullary main_cst (constant S_ .f32 0x00000000#32),
    unary main_cst main_v0 (broadcastInDim S8x192x224x224 ![] bcast_S_S8x192x224x224 : (⟨S_, .f32⟩ : BufTy).Contents (Elt F) → (⟨S8x192x224x224, .f32⟩ : BufTy).Contents (Elt F)),
    nullary main_c_0 (constantI S_ 32 0#32),
    unary main_c_0 main_v1 (broadcastInDim S96 ![] bcast_S_S96 : (⟨S_, .i32⟩ : BufTy).Contents (Elt F) → (⟨S96, .i32⟩ : BufTy).Contents (Elt F)),
    binary main_c main_v1 main_v2 (cmpi .slt : (⟨S96, .i32⟩ : BufTy).Contents (Elt F) → (⟨S96, .i32⟩ : BufTy).Contents (Elt F) → (⟨S96, .i1⟩ : BufTy).Contents (Elt F)),
    nullary main_c_1 (constantI S_ 32 192#32),
    unary main_c_1 main_v3 (broadcastInDim S96 ![] bcast_S_S96 : (⟨S_, .i32⟩ : BufTy).Contents (Elt F) → (⟨S96, .i32⟩ : BufTy).Contents (Elt F)),
    binary main_c main_v3 main_v4 (addi : (⟨S96, .i32⟩ : BufTy).Contents (Elt F) → (⟨S96, .i32⟩ : BufTy).Contents (Elt F) → (⟨S96, .i32⟩ : BufTy).Contents (Elt F)),
    ternary main_v2 main_v4 main_c main_v5 (select : (⟨S96, .i1⟩ : BufTy).Contents (Elt F) → (⟨S96, .i32⟩ : BufTy).Contents (Elt F) → (⟨S96, .i32⟩ : BufTy).Contents (Elt F) → (⟨S96, .i32⟩ : BufTy).Contents (Elt F)),
    unary main_v5 main_v6 (broadcastInDim S96x1 ![0] bcast_S96_S96x1_0 : (⟨S96, .i32⟩ : BufTy).Contents (Elt F) → (⟨S96x1, .i32⟩ : BufTy).Contents (Elt F)),
    ternary main_v0 main_v6 main_arg0 main_v7 ((fun x i u => Host.scatter scatter_S8x192x224x224_S96x1_S8x96x224x224_023_1_1_1 (fun _ b => b) x i u) : (⟨S8x192x224x224, .f32⟩ : BufTy).Contents (Elt F) → (⟨S96x1, .i32⟩ : BufTy).Contents (Elt F) → (⟨S8x96x224x224, .f32⟩ : BufTy).Contents (Elt F) → (⟨S8x192x224x224, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..⟩

/-- On every device, for any float values, from any memory with zero counters: every weakly fair execution of the
    body terminates with the result buffer at the scatter of the argument into zeros at the computed indices, and
    the argument unchanged. -/
theorem run_scatter (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = Host.scatter scatter_S8x192x224x224_S96x1_S8x96x224x224_023_1_1_1 (fun _ b => b) (zeros (F := F)) indices
            (m ((c.tc : Thread nD τ).loc main_arg0))
      ∧ r.2.mem ((c.tc : Thread nD τ).loc main_arg0) = m ((c.tc : Thread nD τ).loc main_arg0) :=
  (θ_run defs _ _).mono (fun _ h c => ⟨(h c main_v7).trans (by after_results; rfl),
      (h c main_arg0).trans (by after_results)⟩)
    (run_seq scopedRefs_eq scopedSems_eq defs main (fun _ => ops) main_eq (fun _ => ops_sub) m ρ)

/-- The same with the result named: the argument's channels spread to the even positions, the odd ones zero. -/
theorem run (m : (ℓ : Loc nD τ sig) → Buf (Elt Ideal) ℓ) (g : Dev nD → PrngReg) :
    θ_run (defs (F := Ideal)) (onTc (τ := τ) (main (F := Ideal))) ⟨m, fun _ => 0, g⟩
      (fun r => ∀ c : Dev nD,
        r.2.mem ((c.tc : Thread nD τ).loc main_v7)
          = Cert.Spec.spread (F := Ideal) (m ((c.tc : Thread nD τ).loc main_arg0))
        ∧ r.2.mem ((c.tc : Thread nD τ).loc main_arg0) = m ((c.tc : Thread nD τ).loc main_arg0)) :=
  (θ_run defs _ _).mono (fun _ h c => ⟨((h c).1).trans (scatter_spread _), (h c).2⟩) (run_scatter (F := Ideal) m g)

end Cert.ReferenceIdeal.RefValue

end
-- ==== Proof.lean ====
/-
  The claim: a SparseCore kernel that copies each of 768 input planes to the even position of 1536 output planes and a
  plane of zeros to the odd position, against a reference that scatters 96 channels to the even positions of 192 in a
  zero array.  Both compute Cert.Spec.spread of the argument: output channel 2 k of a batch entry is input channel k,
  every odd channel is zero.  Nothing is added or multiplied, so no finiteness of the input is used.

  The kernel side: each of the thirty-two tiles proves its own task (it leaves its output planes at the result), the
  launch theorem composes the tasks with the host's two reshapes into the run of all threads, and the reshape of the
  plane-wise result is the channel-wise result.  The reference side: its run, operation by operation, ends in a scatter
  of the argument into zeros at the indices 0, 2, .., 190, which read at an index is the same function.  The word-level
  program has the same text as the idealized one and the same proof, read at words.
-/
import proofs.«204282_g43688407335220_cont_8to1_c_395_12_alg».proof.Defs
import proofs.«204282_g43688407335220_cont_8to1_c_395_12_alg».proof.Proof.Gen.Kernel
import proofs.«204282_g43688407335220_cont_8to1_c_395_12_alg».proof.Proof.Gen.Kernel.Skeleton
import proofs.«204282_g43688407335220_cont_8to1_c_395_12_alg».proof.Proof.Gen.KernelIdeal
import proofs.«204282_g43688407335220_cont_8to1_c_395_12_alg».proof.Proof.Gen.KernelIdeal.Skeleton
import proofs.«204282_g43688407335220_cont_8to1_c_395_12_alg».proof.Proof.Gen.ReferenceIdeal
import proofs.«204282_g43688407335220_cont_8to1_c_395_12_alg».proof.Proof.Gen.Pre_finite_inputs
import proofs.«204282_g43688407335220_cont_8to1_c_395_12_alg».proof.Proof.KILaunch
import proofs.«204282_g43688407335220_cont_8to1_c_395_12_alg».proof.Proof.KITile
import proofs.«204282_g43688407335220_cont_8to1_c_395_12_alg».proof.Proof.KBLaunch
import proofs.«204282_g43688407335220_cont_8to1_c_395_12_alg».proof.Proof.KBTile
import proofs.«204282_g43688407335220_cont_8to1_c_395_12_alg».proof.Proof.RefRun
import Idealize.ShloMosaic.Adequacy
import Idealize.ShloMosaic.Init

noncomputable section

namespace Cert.Proof

open Idealize.ShloMosaic Idealize.SL.Sem

/-- The word-level program runs, and leaves its argument as it was. -/
theorem frame_k : Cert.frame_Kernel := fun m g _ =>
  (θ_run Cert.Kernel.defs _ _).mono (fun _ h c => (h c).2)
    (Cert.Proof.KB.run_main (F := Bits) m g (fun y o => Cert.Proof.KB.tileObl (F := Bits) y o Cert.Proof.KB.facts))

/-- The idealized program runs, and leaves its argument as it was. -/
theorem frame_ki : Cert.frame_KernelIdeal := fun m g _ =>
  (θ_run Cert.KernelIdeal.defs _ _).mono (fun _ h c => (h c).2)
    (Cert.Proof.KI.run_main (F := Ideal) m g (fun y o => Cert.Proof.KI.tileObl (F := Ideal) y o Cert.Proof.KI.facts))

/-- The reference runs, and leaves its argument as it was. -/
theorem frame_ri : Cert.frame_ReferenceIdeal := fun m g _ =>
  (θ_run Cert.ReferenceIdeal.defs _ _).mono (fun _ h c => (h c).2) (Cert.ReferenceIdeal.RefValue.run m g)

/-- From memories that agree on the argument, both end at the channels spread to the even positions. -/
theorem algebraic : Cert.algebraic_KernelIdeal_ReferenceIdeal := by
  intro m g m' g' _ hagree
  refine ⟨_, Cert.Proof.KI.run_main (F := Ideal) m g (fun y o => Cert.Proof.KI.tileObl (F := Ideal) y o Cert.Proof.KI.facts), ?_⟩
  refine (θ_run Cert.ReferenceIdeal.defs _ _).mono (fun _ h c => ⟨(h c).1.trans ?_, (h c).2⟩) (Cert.ReferenceIdeal.RefValue.run m' g')
  rw [hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
